-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1496x768 : Shape := ⟨3, ![128, 1496, 768]⟩
abbrev S1x768 : Shape := ⟨2, ![1, 768]⟩
abbrev S1 : Shape := ⟨1, ![1]⟩
abbrev S128x1496 : Shape := ⟨2, ![128, 1496]⟩
abbrev S128 : Shape := ⟨1, ![128]⟩
abbrev S_ : Shape := ⟨0, ![]⟩

class Facts : Prop where
  bcast_S_S128x1496x768 : S_.BroadcastsInDim S128x1496x768 (![] : Fin 0 → Fin S128x1496x768.rank)
  reducesTo_S128x1496x768_S_d0_1_2 : S128x1496x768.ReducesTo [0, 1, 2] S_
  h_S_ : 0 < S_.numel
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v13 main_v16
  main_v17

def fn {F : FTy → Type} [FloatOps F] (main_arg0 : FVec F S128x1496x768 .f32) (main_arg1 : FVec F S1x768 .f32) (main_arg2 : FVec F S1 .f32) (main_arg3 : IVec S128x1496 32) (main_arg4 : IVec S128 32) : IVec S_ 1 :=
  let main_v0 : FVec F S128x1496x768 .f32 := Host.absf main_arg0
  let main_cst : FVec F S_ .f32 := constant S_ .f32 0x7F800000#32
  let main_v1 : FVec F S128x1496x768 .f32 := broadcastInDim S128x1496x768 ![] bcast_S_S128x1496x768 main_cst
  let main_v2 : IVec S128x1496x768 1 := cmpf .olt main_v0 main_v1
  let main_c : IVec S_ 1 := constantI S_ 1 1#1
  let main_v3 : IVec S_ 1 := (fun x v => Host.reduce IntOp.andi x v reducesTo_S128x1496x768_S_d0_1_2 h_S_) main_v2 main_c
  let main_v4 : FVec F S1x768 .f32 := Host.absf main_arg1
  let main_cst_0 : FVec F S_ .f32 := constant S_ .f32 0x7F800000#32
  let main_v5 : FVec F S1x768 .f32 := broadcastInDim S1x768 ![] bcast_S_S1x768 main_cst_0
  let main_v6 : IVec S1x768 1 := cmpf .olt main_v4 main_v5
  let main_c_1 : IVec S_ 1 := constantI S_ 1 1#1
  let main_v7 : IVec S_ 1 := (fun x v => Host.reduce IntOp.andi x v reducesTo_S1x768_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 1#32
  let main_v14 : IVec S128 32 := broadcastInDim S128 ![] bcast_S_S128 main_c_4
  let main_v15 : IVec S128 1 := cmpi .sge main_arg4 main_v14
  let main_c_5 : IVec S_ 1 := constantI S_ 1 1#1
  fn_part1 (F := F) main_v13 main_v15 main_c_5
-- ==== Kernel.lean ====
abbrev S128x1496x768 : Shape := ⟨3, ![128, 1496, 768]⟩
abbrev S1x768 : Shape := ⟨2, ![1, 768]⟩
abbrev S1 : Shape := ⟨1, ![1]⟩
abbrev S128x1496 : Shape := ⟨2, ![128, 1496]⟩
abbrev S128 : Shape := ⟨1, ![128]⟩
abbrev S1496 : Shape := ⟨1, ![1496]⟩
abbrev S1x1496 : Shape := ⟨2, ![1, 1496]⟩
abbrev S128x1 : Shape := ⟨2, ![128, 1]⟩
abbrev S128x1495 : Shape := ⟨2, ![128, 1495]⟩
abbrev S_ : Shape := ⟨0, ![]⟩
abbrev S128x1496x1 : Shape := ⟨3, ![128, 1496, 1]⟩
abbrev S32x88x768 : Shape := ⟨3, ![32, 88, 768]⟩
abbrev S32x88x1 : Shape := ⟨3, ![32, 88, 1]⟩
abbrev S32x1 : Shape := ⟨2, ![32, 1]⟩
abbrev S32x768 : Shape := ⟨2, ![32, 768]⟩
abbrev S32 : Shape := ⟨1, ![32]⟩
abbrev S1x1 : Shape := ⟨2, ![1, 1]⟩

abbrev nBuf : Space → Nat
  | .hbm => 66
  | .vmem => 8
  | .smem => 0
  | _ => 0

abbrev bufTy : (tb : Table) → Fin (tcTables nBuf tb) → BufTy
  | .hbm, ⟨0, _⟩ => ⟨S128x1496x768, .f32⟩
  | .hbm, ⟨1, _⟩ => ⟨S1x768, .f32⟩
  | .hbm, ⟨2, _⟩ => ⟨S1, .f32⟩
  | .hbm, ⟨3, _⟩ => ⟨S128x1496, .i32⟩
  | .hbm, ⟨4, _⟩ => ⟨S128, .i32⟩
  | .hbm, ⟨5, _⟩ => ⟨S1496, .i32⟩
  | .hbm, ⟨6, _⟩ => ⟨S1x1496, .i32⟩
  | .hbm, ⟨7, _⟩ => ⟨S128x1, .i32⟩
  | .hbm, ⟨8, _⟩ => ⟨S128x1496, .i32⟩
  | .hbm, ⟨9, _⟩ => ⟨S128x1496, .i32⟩
  | .hbm, ⟨10, _⟩ => ⟨S128x1496, .i1⟩
  | .hbm, ⟨11, _⟩ => ⟨S128x1495, .i32⟩
  | .hbm, ⟨12, _⟩ => ⟨S128x1495, .i32⟩
  | .hbm, ⟨13, _⟩ => ⟨S128x1495, .i1⟩
  | .hbm, ⟨14, _⟩ => ⟨S_, .i1⟩
  | .hbm, ⟨15, _⟩ => ⟨S128x1, .i1⟩
  | .hbm, ⟨16, _⟩ => ⟨S128x1496, .i1⟩
  | .hbm, ⟨17, _⟩ => ⟨S128x1496, .i1⟩
  | .hbm, ⟨18, _⟩ => ⟨S1x1496, .i32⟩
  | .hbm, ⟨19, _⟩ => ⟨S128x1496, .i32⟩
  | .hbm, ⟨20, _⟩ => ⟨S_, .i32⟩
  | .hbm, ⟨21, _⟩ => ⟨S_, .i32⟩
  | .hbm, ⟨22, _⟩ => ⟨S128x1496, .i32⟩
  | .hbm, ⟨23, _⟩ => ⟨S128x1496, .i32⟩
  | .hbm, ⟨24, _⟩ => ⟨S_, .i32⟩
  | .hbm, ⟨25, _⟩ => ⟨S_, .i32⟩
  | .hbm, ⟨26, _⟩ => ⟨S128x1496, .i32⟩
  | .hbm, ⟨27, _⟩ => ⟨S_, .i32⟩
  | .hbm, ⟨28, _⟩ => ⟨S_, .i32⟩
  | .hbm, ⟨29, _⟩ => ⟨S128x1496, .i32⟩
  | .hbm, ⟨30, _⟩ => ⟨S128x1496, .i32⟩
  | .hbm, ⟨31, _⟩ => ⟨S128x1495, .i32⟩
  | .hbm, ⟨32, _⟩ => ⟨S_, .i32⟩
  | .hbm, ⟨33, _⟩ => ⟨S128x1, .i32⟩
  | .hbm, ⟨34, _⟩ => ⟨S128x1496, .i32⟩
  | .hbm, ⟨35, _⟩ => ⟨S128x1496, .i32⟩
  | .hbm, ⟨36, _⟩ => ⟨S_, .i32⟩
  | .hbm, ⟨37, _⟩ => ⟨S_, .i32⟩
  | .hbm, ⟨38, _⟩ => ⟨S128x1496, .i32⟩
  | .hbm, ⟨39, _⟩ => ⟨S128x1496, .i32⟩
  | .hbm, ⟨40, _⟩ => ⟨S128x1, .i32⟩
  | .hbm, ⟨41, _⟩ => ⟨S128x1496, .i32⟩
  | .hbm, ⟨42, _⟩ => ⟨S128x1496, .i32⟩
  | .hbm, ⟨43, _⟩ => ⟨S128x1496, .i32⟩
  | .hbm, ⟨44, _⟩ => ⟨S128x1496, .f32⟩
  | .hbm, ⟨45, _⟩ => ⟨S128x1496, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S128x1496, .f32⟩
  | .hbm, ⟨50, _⟩ => ⟨S128x1496, .f32⟩
  | .hbm, ⟨51, _⟩ => ⟨S_, .f32⟩
  | .hbm, ⟨52, _⟩ => ⟨S128x1496, .f32⟩
  | .hbm, ⟨53, _⟩ => ⟨S128x1496, .f32⟩
  | .hbm, ⟨54, _⟩ => ⟨S_, .f32⟩
  | .hbm, ⟨55, _⟩ => ⟨S128x1496, .f32⟩
  | .hbm, ⟨56, _⟩ => ⟨S128x1496, .f32⟩
  | .hbm, ⟨57, _⟩ => ⟨S_, .f32⟩
  | .hbm, ⟨58, _⟩ => ⟨S_, .f32⟩
  | .hbm, ⟨59, _⟩ => ⟨S128x1496, .f32⟩
  | .hbm, ⟨60, _⟩ => ⟨S128x1496, .f32⟩
  | .hbm, ⟨61, _⟩ => ⟨S128x1496x1, .f32⟩
  | .hbm, ⟨62, _⟩ => ⟨S128x1, .f32⟩
  | .hbm, ⟨63, _⟩ => ⟨S1x1, .f32⟩
  | .hbm, ⟨64, _⟩ => ⟨S128x1, .f32⟩
  | .hbm, ⟨65, _⟩ => ⟨S128x1, .f32⟩
  | .local _ .vmem, ⟨0, _⟩ => ⟨S32x88x768, .f32⟩
  | .local _ .vmem, ⟨1, _⟩ => ⟨S32x88x768, .f32⟩
  | .local _ .vmem, ⟨2, _⟩ => ⟨S32x88x1, .f32⟩
  | .local _ .vmem, ⟨3, _⟩ => ⟨S32x88x1, .f32⟩
  | .local _ .vmem, ⟨4, _⟩ => ⟨S1x768, .f32⟩
  | .local _ .vmem, ⟨5, _⟩ => ⟨S32x1, .f32⟩
  | .local _ .vmem, ⟨6, _⟩ => ⟨S32x1, .f32⟩
  | .local _ .vmem, ⟨7, _⟩ => ⟨S32x768, .f32⟩
  | _, _ => ⟨S128x1496x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call4_c : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_call6_v0 : Ref sig .tc := ⟨.hbm, 58, rfl⟩
abbrev main_call6_v1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v14 : BitVec 1 := Scalar.cmpi .eq arg1 c16_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x88x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x88x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S1496_S1x1496_1 : S1496.BroadcastsInDim S1x1496 (![1] : Fin 1 → Fin S1x1496.rank)
  bcast_S128_S128x1_0 : S128.BroadcastsInDim S128x1 (![0] : Fin 1 → Fin S128x1.rank)
  bcast_S1x1496_S128x1496_0_1 : S1x1496.BroadcastsInDim S128x1496 (![0, 1] : Fin 2 → Fin S128x1496.rank)
  bcast_S128x1_S128x1496_0_1 : S128x1.BroadcastsInDim S128x1496 (![0, 1] : Fin 2 → Fin S128x1496.rank)
  slices_S128x1496_S128x1495_0_1 : S128x1496.Slices ![0, 1] S128x1495
  slices_S128x1496_S128x1495_0_0 : S128x1496.Slices ![0, 0] S128x1495
  bcast_S_S128x1 : S_.BroadcastsInDim S128x1 (![] : Fin 0 → Fin S128x1.rank)
  concatenates_S128x1_S128x1495_S128x1496_d1 : Shape.Concatenates [S128x1, S128x1495] S128x1496 1
  bcast_S_S128x1496 : S_.BroadcastsInDim S128x1496 (![] : Fin 0 → Fin S128x1496.rank)
  bcast_S_S_ : S_.BroadcastsInDim S_ (![] : Fin 0 → Fin S_.rank)
  reduceWindows_S128x1496_S128x1496_w1s1p0_0_w1496s1p1495_0 : S128x1496.ReduceWindows (![1, 1496] : Fin 2 → Nat) ![1, 1] ![0, 1495] ![0, 0] S128x1496
  h_S_ : 0 < S_.numel
  concatenates_S128x1495_S128x1_S128x1496_d1 : Shape.Concatenates [S128x1495, S128x1] S128x1496 1
  reducesTo_S128x1496_S128_d1 : S128x1496.ReducesTo [1] S128
  bcast_S128x1496_S128x1496x1_0_1 : S128x1496.BroadcastsInDim S128x1496x1 (![0, 1] : Fin 2 → Fin S128x1496x1.rank)
  inb_S32x768_S32x768_0_0 : ∀ a, (![0, 0] : Fin 2 → Nat) a + S32x768.size a ≤ S32x768.size a
  h_S32x768 : 0 < S32x768.numel
  shapeCasts_S32x768_S32x768 : S32x768.ShapeCasts S32x768
  inb_S32x88x768_S32x88x768_0_0_0 : ∀ a, (![0, 0, 0] : Fin 3 → Nat) a + S32x88x768.size a ≤ S32x88x768.size a
  h_S32x88x768 : 0 < S32x88x768.numel
  inb_S32x88x1_S32x88x1_0_0_0 : ∀ a, (![0, 0, 0] : Fin 3 → Nat) a + S32x88x1.size a ≤ S32x88x1.size a
  h_S32x88x1 : 0 < S32x88x1.numel
  shapeCasts_S32x88x1_S32x88x1 : S32x88x1.ShapeCasts S32x88x1
  broadcasts_S32x88x1_S32x88x768 : S32x88x1.Broadcasts S32x88x768
  reduces_S32x88x768_S32x768 : S32x88x768.Reduces [1] S32x768
  inb_S1x768_S1x768_0_0 : ∀ a, (![0, 0] : Fin 2 → Nat) a + S1x768.size a ≤ S1x768.size a
  h_S1x768 : 0 < S1x768.numel
  broadcasts_S1x768_S32x768 : S1x768.Broadcasts S32x768
  reduces_S32x768_S32 : S32x768.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S1_S1x1 : S1.ShapeCasts S1x1
  bcast_S1x1_S128x1_0_1 : S1x1.BroadcastsInDim S128x1 (![0, 1] : Fin 2 → Fin S128x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x88x768.size a ≤ S128x1496x768.size a
  hwx0_0 : ∀ i : grid0.Coords, EltTy.bits .f32 = 32 ∨ (Rect.block (s := S128x1496x768) S32x88x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x88x1.size a ≤ S128x1496x1.size a
  hwx0_1 : ∀ i : grid0.Coords, EltTy.bits .f32 = 32 ∨ (Rect.block (s := S128x1496x1) S32x88x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S128x1.size a
  hwx0_3 : ∀ i : grid0.Coords, EltTy.bits .f32 = 32 ∨ (Rect.block (s := S128x1) S32x1.size (cc0_transform_3 i) (hinb0_3 i)).WholeWords (EltTy.packing .f32)

variable [Facts₀]

abbrev win0_0 : Pipeline.Window sig grid0 :=
  Pipeline.Window.ofSpec (Memref.whole main_arg0) S32x88x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S32x88x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1496x768 : Shape := ⟨3, ![128, 1496, 768]⟩
abbrev S1x768 : Shape := ⟨2, ![1, 768]⟩
abbrev S1 : Shape := ⟨1, ![1]⟩
abbrev S128x1496 : Shape := ⟨2, ![128, 1496]⟩
abbrev S128 : Shape := ⟨1, ![128]⟩
abbrev S1496 : Shape := ⟨1, ![1496]⟩
abbrev S1x1496 : Shape := ⟨2, ![1, 1496]⟩
abbrev S128x1 : Shape := ⟨2, ![128, 1]⟩
abbrev S128x1495 : Shape := ⟨2, ![128, 1495]⟩
abbrev S_ : Shape := ⟨0, ![]⟩
abbrev S191488 : Shape := ⟨1, ![191488]⟩
abbrev S128x1496x1 : Shape := ⟨3, ![128, 1496, 1]⟩
abbrev S191488x768 : Shape := ⟨2, ![191488, 768]⟩
abbrev S191488x1 : Shape := ⟨2, ![191488, 1]⟩
abbrev S128x768 : Shape := ⟨2, ![128, 768]⟩
abbrev S768x1 : Shape := ⟨2, ![768, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S128x1496x768, .f32⟩
  | .hbm, ⟨1, _⟩ => ⟨S1x768, .f32⟩
  | .hbm, ⟨2, _⟩ => ⟨S1, .f32⟩
  | .hbm, ⟨3, _⟩ => ⟨S128x1496, .i32⟩
  | .hbm, ⟨4, _⟩ => ⟨S128, .i32⟩
  | .hbm, ⟨5, _⟩ => ⟨S1496, .i32⟩
  | .hbm, ⟨6, _⟩ => ⟨S1x1496, .i32⟩
  | .hbm, ⟨7, _⟩ => ⟨S128x1, .i32⟩
  | .hbm, ⟨8, _⟩ => ⟨S128x1496, .i32⟩
  | .hbm, ⟨9, _⟩ => ⟨S128x1496, .i32⟩
  | .hbm, ⟨10, _⟩ => ⟨S128x1496, .i1⟩
  | .hbm, ⟨11, _⟩ => ⟨S128x1495, .i32⟩
  | .hbm, ⟨12, _⟩ => ⟨S128x1495, .i32⟩
  | .hbm, ⟨13, _⟩ => ⟨S128x1495, .i1⟩
  | .hbm, ⟨14, _⟩ => ⟨S_, .i1⟩
  | .hbm, ⟨15, _⟩ => ⟨S128x1, .i1⟩
  | .hbm, ⟨16, _⟩ => ⟨S128x1496, .i1⟩
  | .hbm, ⟨17, _⟩ => ⟨S128x1496, .i1⟩
  | .hbm, ⟨18, _⟩ => ⟨S128x1496, .i32⟩
  | .hbm, ⟨19, _⟩ => ⟨S_, .i32⟩
  | .hbm, ⟨20, _⟩ => ⟨S_, .i32⟩
  | .hbm, ⟨21, _⟩ => ⟨S128x1496, .i32⟩
  | .hbm, ⟨22, _⟩ => ⟨S_, .i32⟩
  | .hbm, ⟨23, _⟩ => ⟨S128x1496, .i32⟩
  | .hbm, ⟨24, _⟩ => ⟨S128x1496, .i32⟩
  | .hbm, ⟨25, _⟩ => ⟨S_, .i32⟩
  | .hbm, ⟨26, _⟩ => ⟨S128x1496, .i32⟩
  | .hbm, ⟨27, _⟩ => ⟨S128x1496, .i32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1496, .i32⟩
  | .hbm, ⟨34, _⟩ => ⟨S128x1496, .i32⟩
  | .hbm, ⟨35, _⟩ => ⟨S191488, .i32⟩
  | .hbm, ⟨36, _⟩ => ⟨S128x1496, .f32⟩
  | .hbm, ⟨37, _⟩ => ⟨S128x1496x1, .f32⟩
  | .hbm, ⟨38, _⟩ => ⟨S128x1496x768, .f32⟩
  | .hbm, ⟨39, _⟩ => ⟨S128x1496x768, .f32⟩
  | .hbm, ⟨40, _⟩ => ⟨S191488x768, .f32⟩
  | .hbm, ⟨41, _⟩ => ⟨S_, .f32⟩
  | .hbm, ⟨42, _⟩ => ⟨S191488x768, .f32⟩
  | .hbm, ⟨43, _⟩ => ⟨S191488x1, .i32⟩
  | .hbm, ⟨44, _⟩ => ⟨S191488x768, .f32⟩
  | .hbm, ⟨45, _⟩ => ⟨S191488, .f32⟩
  | .hbm, ⟨46, _⟩ => ⟨S_, .f32⟩
  | .hbm, ⟨47, _⟩ => ⟨S191488, .f32⟩
  | .hbm, ⟨48, _⟩ => ⟨S191488x1, .i32⟩
  | .hbm, ⟨49, _⟩ => ⟨S191488, .f32⟩
  | .hbm, ⟨50, _⟩ => ⟨S_, .f32⟩
  | .hbm, ⟨51, _⟩ => ⟨S191488, .f32⟩
  | .hbm, ⟨52, _⟩ => ⟨S191488, .f32⟩
  | .hbm, ⟨53, _⟩ => ⟨S191488x1, .f32⟩
  | .hbm, ⟨54, _⟩ => ⟨S191488x768, .f32⟩
  | .hbm, ⟨55, _⟩ => ⟨S191488x768, .f32⟩
  | .hbm, ⟨56, _⟩ => ⟨S128x1496x768, .f32⟩
  | .hbm, ⟨57, _⟩ => ⟨S128x1496, .f32⟩
  | .hbm, ⟨58, _⟩ => ⟨S_, .f32⟩
  | .hbm, ⟨59, _⟩ => ⟨S128x1496, .f32⟩
  | .hbm, ⟨60, _⟩ => ⟨S128x1496, .i1⟩
  | .hbm, ⟨61, _⟩ => ⟨S128x1496, .f32⟩
  | .hbm, ⟨62, _⟩ => ⟨S_, .f32⟩
  | .hbm, ⟨63, _⟩ => ⟨S128, .f32⟩
  | .hbm, ⟨64, _⟩ => ⟨S128x1496x1, .f32⟩
  | .hbm, ⟨65, _⟩ => ⟨S128x1496x768, .f32⟩
  | .hbm, ⟨66, _⟩ => ⟨S128x1496x768, .f32⟩
  | .hbm, ⟨67, _⟩ => ⟨S_, .f32⟩
  | .hbm, ⟨68, _⟩ => ⟨S128x768, .f32⟩
  | .hbm, ⟨69, _⟩ => ⟨S128x1, .f32⟩
  | .hbm, ⟨70, _⟩ => ⟨S128x768, .f32⟩
  | .hbm, ⟨71, _⟩ => ⟨S128x768, .f32⟩
  | .hbm, ⟨72, _⟩ => ⟨S768x1, .f32⟩
  | .hbm, ⟨73, _⟩ => ⟨S128x1, .f32⟩
  | .hbm, ⟨74, _⟩ => ⟨S1x1, .f32⟩
  | .hbm, ⟨75, _⟩ => ⟨S128x1, .f32⟩
  | .hbm, ⟨76, _⟩ => ⟨S128x1, .f32⟩
  | _, _ => ⟨S128x1496x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_call0_c : Ref sig .tc := ⟨.hbm, 19, rfl⟩
abbrev main_call0_call0_v0 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]

class Facts₀ : Prop where
  bcast_S1496_S1x1496_1 : S1496.BroadcastsInDim S1x1496 (![1] : Fin 1 → Fin S1x1496.rank)
  bcast_S128_S128x1_0 : S128.BroadcastsInDim S128x1 (![0] : Fin 1 → Fin S128x1.rank)
  bcast_S1x1496_S128x1496_0_1 : S1x1496.BroadcastsInDim S128x1496 (![0, 1] : Fin 2 → Fin S128x1496.rank)
  bcast_S128x1_S128x1496_0_1 : S128x1.BroadcastsInDim S128x1496 (![0, 1] : Fin 2 → Fin S128x1496.rank)
  slices_S128x1496_S128x1495_0_1 : S128x1496.Slices ![0, 1] S128x1495
  slices_S128x1496_S128x1495_0_0 : S128x1496.Slices ![0, 0] S128x1495
  bcast_S_S128x1 : S_.BroadcastsInDim S128x1 (![] : Fin 0 → Fin S128x1.rank)
  concatenates_S128x1_S128x1495_S128x1496_d1 : Shape.Concatenates [S128x1, S128x1495] S128x1496 1
  natLt_1_32 : 1 < 32
  bcast_S_S_ : S_.BroadcastsInDim S_ (![] : Fin 0 → Fin S_.rank)
  reduceWindows_S128x1496_S128x1496_w1s1p0_0_w1496s1p1495_0 : S128x1496.ReduceWindows (![1, 1496] : Fin 2 → Nat) ![1, 1] ![0, 1495] ![0, 0] S128x1496
  h_S_ : 0 < S_.numel
  bcast_S_S128x1496 : S_.BroadcastsInDim S128x1496 (![] : Fin 0 → Fin S128x1496.rank)
  shapeCasts_S128x1496_S191488 : S128x1496.ShapeCasts S191488
  bcast_S128x1496_S128x1496x1_0_1 : S128x1496.BroadcastsInDim S128x1496x1 (![0, 1] : Fin 2 → Fin S128x1496x1.rank)
  bcast_S128x1496x1_S128x1496x768_0_1_2 : S128x1496x1.BroadcastsInDim S128x1496x768 (![0, 1, 2] : Fin 3 → Fin S128x1496x768.rank)
  shapeCasts_S128x1496x768_S191488x768 : S128x1496x768.ShapeCasts S191488x768
  bcast_S_S191488x768 : S_.BroadcastsInDim S191488x768 (![] : Fin 0 → Fin S191488x768.rank)
  bcast_S191488_S191488x1_0 : S191488.BroadcastsInDim S191488x1 (![0] : Fin 1 → Fin S191488x1.rank)
  bcast_S_S191488 : S_.BroadcastsInDim S191488 (![] : Fin 0 → Fin S191488.rank)
  bcast_S191488x1_S191488x768_0_1 : S191488x1.BroadcastsInDim S191488x768 (![0, 1] : Fin 2 → Fin S191488x768.rank)
  shapeCasts_S191488x768_S128x1496x768 : S191488x768.ShapeCasts S128x1496x768
  shapeCasts_S191488_S128x1496 : S191488.ShapeCasts S128x1496
  reducesTo_S128x1496_S128_d1 : S128x1496.ReducesTo [1] S128
  reducesTo_S128x1496x768_S128x768_d1 : S128x1496x768.ReducesTo [1] S128x768
  bcast_S128x1_S128x768_0_1 : S128x1.BroadcastsInDim S128x768 (![0, 1] : Fin 2 → Fin S128x768.rank)
  transposes_S1x768_S768x1_1_0 : S1x768.Transposes [1, 0] S768x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S191488x768_S191488x1_S191488x768_1_0_0_1_wf : ScatterDims.WF S191488x768 S191488x1 S191488x768 [1] [0] [0] 1
  scatter_S191488_S191488x1_S191488_n_0_0_1_wf : ScatterDims.WF S191488 S191488x1 S191488 [] [0] [0] 1
  dot_S128x768_S768x1_S128x1_1_0_0_1_n_n_wf : DotDims.WF S128x768 S768x1 S128x1 [1] [0] [0] [1] [] []

variable [Facts₀]

def scatter_S191488x768_S191488x1_S191488x768_1_0_0_1 : ScatterDims S191488x768 S191488x1 S191488x768 where
  updateWindowDims := [1]
  insertedWindowDims := [0]
  scatterDimsToOperandDims := [0]
  indexVectorDim := 1
  wf := scatter_S191488x768_S191488x1_S191488x768_1_0_0_1_wf
def scatter_S191488_S191488x1_S191488_n_0_0_1 : ScatterDims S191488 S191488x1 S191488 where
  updateWindowDims := []
  insertedWindowDims := [0]
  scatterDimsToOperandDims := [0]
  indexVectorDim := 1
  wf := scatter_S191488_S191488x1_S191488_n_0_0_1_wf
def dot_S128x768_S768x1_S128x1_1_0_0_1_n_n : DotDims S128x768 S768x1 S128x1 where
  lhsContracting := [1]
  rhsContracting := [0]
  lhsNonContracting := [0]
  rhsNonContracting := [1]
  lhsBatch := []
  rhsBatch := []
  wf := dot_S128x768_S768x1_S128x1_1_0_0_1_n_n_wf

class Facts : Prop extends Facts₀ where

variable [Facts]
-- ==== Proof.KernelPieces.lean ====
/-
  What each control case of the accumulation body leaves behind, as pure values of the blocks it loaded.
  The scratch accumulator after a point is the accumulator before it plus the lane-axis sum of the product
  of the hidden-state block with the weight block broadcast along the channels (first point of a row tile:
  the zero block takes the place of the accumulator); at the last time tile the output block is the channel
  sum of the NEW accumulator times the projection row.
-/
import proofs.«132348_j86689619902579_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle time tile: accumulator plus this tile's weighted sum. -/
theorem sout_B (c : Dev nD) (i : grid0.Coords) (a2 : Memref sig .tc .vmem S32x88x768 .f32) (h2 : a2.IsWhole)
    (a3 : Memref sig .tc .vmem S32x88x1 .f32) (h3 : a3.IsWhole) (a4 : Memref sig .tc .vmem S1x768 .f32) (h4 : a4.IsWhole)
    (a5 : Memref sig .tc .vmem S32x1 .f32) (h5 : a5.IsWhole) (a6 : Memref sig .tc .vmem S32x768 .f32) (h6 : a6.IsWhole)
    (hc0 : ¬cond0_0 i) (hc1 : ¬cond0_1 i)
    (x0 : Vec F S32x88x768 .f32) (x1 : Vec F S32x88x1 .f32) (x2 : Vec F S1x768 .f32) (xs0 : Vec F S32x768 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz2]
  simp only [View.readAt_eq_ld, h2.read_unread, h3.read_unread, h6.read_unread, View.ld_unit_zero (S := S32x88x768) hz3,
    View.ld_unit_zero (S := S32x88x1) hz3, View.ld_unit_zero (S := S32x768) hz2]

/-- The first time tile of a row tile: the zero block plus this tile's weighted sum. -/
theorem sout_A (c : Dev nD) (i : grid0.Coords) (a2 : Memref sig .tc .vmem S32x88x768 .f32) (h2 : a2.IsWhole)
    (a3 : Memref sig .tc .vmem S32x88x1 .f32) (h3 : a3.IsWhole) (a4 : Memref sig .tc .vmem S1x768 .f32) (h4 : a4.IsWhole)
    (a5 : Memref sig .tc .vmem S32x1 .f32) (h5 : a5.IsWhole) (a6 : Memref sig .tc .vmem S32x768 .f32) (h6 : a6.IsWhole)
    (hc0 : cond0_0 i) (hc1 : ¬cond0_1 i)
    (x0 : Vec F S32x88x768 .f32) (x1 : Vec F S32x88x1 .f32) (x2 : Vec F S1x768 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S32x768) hz2, View.readCov_unit_zero (S := S32x768) _ hz2]
  simp only [View.readAt_eq_ld, h2.read_unread, h3.read_unread, View.ld_unit_zero (S := S32x88x768) hz3,
    View.ld_unit_zero (S := S32x88x1) hz3, View.ld_unit_zero (S := S32x768) hz2]

/-- The last time tile: the accumulator is updated as at a middle tile, -/
theorem sout_C (c : Dev nD) (i : grid0.Coords) (a2 : Memref sig .tc .vmem S32x88x768 .f32) (h2 : a2.IsWhole)
    (a3 : Memref sig .tc .vmem S32x88x1 .f32) (h3 : a3.IsWhole) (a4 : Memref sig .tc .vmem S1x768 .f32) (h4 : a4.IsWhole)
    (a5 : Memref sig .tc .vmem S32x1 .f32) (h5 : a5.IsWhole) (a6 : Memref sig .tc .vmem S32x768 .f32) (h6 : a6.IsWhole)
    (hc0 : ¬cond0_0 i) (hc1 : cond0_1 i)
    (x0 : Vec F S32x88x768 .f32) (x1 : Vec F S32x88x1 .f32) (x2 : Vec F S1x768 .f32) (xs0 : Vec F S32x768 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h6.read_unread, View.ld_unit_zero (S := S32x88x768) hz3,
    View.ld_unit_zero (S := S32x88x1) hz3, View.ld_unit_zero (S := S32x768) hz2]

/-- and the output block is the projection of the UPDATED accumulator. -/
theorem out_C (c : Dev nD) (i : grid0.Coords) (a2 : Memref sig .tc .vmem S32x88x768 .f32) (h2 : a2.IsWhole)
    (a3 : Memref sig .tc .vmem S32x88x1 .f32) (h3 : a3.IsWhole) (a4 : Memref sig .tc .vmem S1x768 .f32) (h4 : a4.IsWhole)
    (a5 : Memref sig .tc .vmem S32x1 .f32) (h5 : a5.IsWhole) (a6 : Memref sig .tc .vmem S32x768 .f32) (h6 : a6.IsWhole)
    (hc0 : ¬cond0_0 i) (hc1 : cond0_1 i)
    (x0 : Vec F S32x88x768 .f32) (x1 : Vec F S32x88x1 .f32) (x2 : Vec F S1x768 .f32) (xs0 : Vec F S32x768 .f32) :
    out0_C_3 c i a2 h2 a3 h3 a4 h4 a5 h5 a6 h6 hc0 hc1 x0 x1 x2 xs0 = k0_pay3 x2 (k0_pay2 x0 x1 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz2, View.readCov_unit_zero (S := S32x768) _ hz2]
  simp only [View.readAt_eq_ld, h2.read_unread, h3.read_unread, h4.read_unread, h6.read_unread, View.ld_unit_zero (S := S32x88x768) hz3,
    View.ld_unit_zero (S := S32x88x1) hz3, View.ld_unit_zero (S := S32x768) hz2, View.ld_unit_zero (S := S1x768) hz2]

end Cert.KernelIdeal.Pieces
end
-- ==== Proof.KernelPayload.lean ====
/-
  The body's arithmetic read at one entry, over the extended reals.
  The zero block is zero; the accumulator update at row r, channel c is the old entry plus the sum over the
  88 frames of the tile of (hidden state) times (frame weight); the projection at row r is the sum over the
  768 channels of (accumulator) times (projection row).
-/
import proofs.«132348_j86689619902579_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen

/-- The reset block is zero everywhere. -/
theorem pay1_apply (j : S32x768.Idx) : k0_pay1 (F := Ideal) j = 0 := by
  unfold k0_pay1
  simp only [shapeCast_self]
  show Ideal.ofBits .f32 0x00000000#32 = 0
  exact Ideal.ofBits_zero_f32

/-- Frame k of the tile sits at (r, k, c) of the hidden block and (r, k, 0) of the weight block. -/
theorem lift_rc (r : Fin 32) (cc : Fin 768) (k : Fin 88) :
    reduces_S32x88x768_S32x768.lift (ix2 r cc) k = ix3 r k cc := by
  have hd : reduces_S32x88x768_S32x768.drop (ix3 r k cc) = ix2 r cc :=
    funext fun b => match b with | ⟨0, _⟩ => rfl | ⟨1, _⟩ => rfl
  have := reduces_S32x88x768_S32x768.lift_drop (ix3 r k cc)
  rw [hd] at this
  exact this

theorem pay2_apply (x0 : FVec Ideal S32x88x768 .f32) (x1 : FVec Ideal S32x88x1 .f32) (xs : FVec Ideal S32x768 .f32)
    (r : Fin 32) (cc : Fin 768) :
    k0_pay2 x0 x1 xs (ix2 r cc) = xs (ix2 r cc) + ∑ k : Fin 88, x0 (ix3 r k cc) * x1 (ix3 r k (0 : Fin 1)) := by
  unfold k0_pay2
  simp only [shapeCast_self]
  refine (addf_apply _ _ _).trans ?_
  congr 1
  refine (Ideal.multiReduction_add_single _ 0x00000000#32 reduces_S32x88x768_S32x768 (.inl rfl) rfl (ix2 r cc)).trans ?_
  refine Finset.sum_congr rfl fun k _ => ?_
  rw [lift_rc r cc k]
  refine (mulf_apply _ _ _).trans ?_
  congr 1
  exact broadcastTo_apply x1 broadcasts_S32x88x1_S32x88x768 (ix3 r k cc) (ix3 r k (0 : Fin 1)) (fun a => by
    match a with
    | ⟨0, _⟩ => rfl
    | ⟨1, _⟩ => rfl
    | ⟨2, _⟩ => rfl)

/-- Channel c of the row sits at (r, c) of the accumulator and (0, c) of the projection row. -/
theorem lift_r (r : Fin 32) (cc : Fin 768) :
    reduces_S32x768_S32.lift (ix1 r) cc = ix2 r cc := by
  have hd : reduces_S32x768_S32.drop (ix2 r cc) = ix1 r :=
    funext fun b => match b with | ⟨0, _⟩ => rfl
  have := reduces_S32x768_S32.lift_drop (ix2 r cc)
  rw [hd] at this
  exact this

theorem pay3_apply (x2 : FVec Ideal S1x768 .f32) (acc : FVec Ideal S32x768 .f32) (r : Fin 32) :
    k0_pay3 x2 acc (ix2 r (0 : Fin 1)) = ∑ cc : Fin 768, acc (ix2 r cc) * x2 (ix2 (0 : Fin 1) cc) := by
  unfold k0_pay3
  dsimp only
  refine (shapeCast_apply _ shapeCasts_S32_S32x1 (ix2 r (0 : Fin 1)) (ix1 r) ?_).trans ?_
  · rw [Shape.rowMajor_val_one, Shape.rowMajor_val_two]; simp
  refine (Ideal.multiReduction_add_single _ 0x00000000#32 reduces_S32x768_S32 (.inl rfl) rfl (ix1 r)).trans ?_
  refine Finset.sum_congr rfl fun cc _ => ?_
  rw [lift_r r cc]
  refine (mulf_apply _ _ _).trans ?_
  congr 1
  exact broadcastTo_apply x2 broadcasts_S1x768_S32x768 (ix2 r cc) (ix2 (0 : Fin 1) cc) (fun a => by
    match a with
    | ⟨0, _⟩ => rfl
    | ⟨1, _⟩ => rfl)

end Cert.KernelIdeal.Payload
end
-- ==== Proof.KernelAcc.lean ====
/-
  The accumulation across the grid. Grid point n is row tile n / 17, time tile n % 17. Writing
  hw(b, c, k) for (hidden state at row b, frame k, channel c) times (weight of frame k of row b), the scratch
  after point n holds, at (r, c), the sum of hw(32·(n/17) + r, c, k) over the frames k < 88·(n % 17 + 1):
  the first time tile starts from the zero block, every later one adds its 88 frames to what the point
  before left. At the last time tile the output block holds, at row r, the sum over the channels of the
  completed frame sum times the projection row.
-/
import proofs.«132348_j86689619902579_2_alg».proof.Proof.KernelPieces
import proofs.«132348_j86689619902579_2_alg».proof.Proof.KernelPayload

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen

variable (m : (ℓ : Loc nD τ sig) → Buf (Elt Ideal) ℓ) (ρ : Dev nD → PrngReg)

theorem hN : cfg0.N = 68 := N_0

/-- The index maps: the two big windows follow (row tile, time tile), the projection row never moves, the
    output follows the row tile. -/
theorem idx0 : ∀ t : Fin cfg0.N, win0_0.index t (0 : Fin 3) = t.val / 17 ∧ win0_0.index t (1 : Fin 3) = t.val % 17 ∧ win0_0.index t (2 : Fin 3) = 0 :=
  (by decide +kernel : ∀ t : Fin grid0.N, _)
theorem idx1 : ∀ t : Fin cfg0.N, win0_1.index t (0 : Fin 3) = t.val / 17 ∧ win0_1.index t (1 : Fin 3) = t.val % 17 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 17 ∧ win0_3.index t (1 : Fin 2) = 0 :=
  (by decide +kernel : ∀ t : Fin grid0.N, _)

/-- The hidden-state block at point t reads rows 32·(t/17) + r, frames 88·(t%17) + k. -/
theorem blk0_apply (c : Dev nD) (t : Fin cfg0.N) (r : Fin 32) (k : Fin 88) (cc : Fin 768) :
    (iblk m c 0 t : Vec Ideal S32x88x768 .f32) (ix3 r k cc)
      = V m c main_arg0 (ix3 ⟨32 * (t.val / 17) + r.val, by have := t.isLt; have h : cfg0.N = 68 := N_0; omega⟩ ⟨88 * (t.val % 17) + k.val, by omega⟩ cc) := by
  unfold iblk
  rw [View.read_apply]
  show V m c main_arg0 (((cfg0.win 0).blk t).view.emb (ix3 r k cc)) = _
  refine congrArg (V m c main_arg0) (funext fun a => Fin.ext ?_)
  obtain ⟨h0, h1, h2⟩ := idx0 t
  match a with
  | ⟨0, _⟩ => show win0_0.index t 0 * 32 + 1 * r.val = 32 * (t.val / 17) + r.val; rw [h0]; omega
  | ⟨1, _⟩ => show win0_0.index t 1 * 88 + 1 * k.val = 88 * (t.val % 17) + k.val; rw [h1]; omega
  | ⟨2, _⟩ => show win0_0.index t 2 * 768 + 1 * cc.val = cc.val; rw [h2]; omega

/-- The weight block at point t reads the same rows and frames. -/
theorem blk1_apply (c : Dev nD) (t : Fin cfg0.N) (r : Fin 32) (k : Fin 88) :
    (iblk m c 1 t : Vec Ideal S32x88x1 .f32) (ix3 r k (0 : Fin 1))
      = V m c main_v38 (ix3 ⟨32 * (t.val / 17) + r.val, by have := t.isLt; have h : cfg0.N = 68 := N_0; omega⟩ ⟨88 * (t.val % 17) + k.val, by omega⟩ (0 : Fin 1)) := by
  unfold iblk
  rw [View.read_apply]
  show V m c main_v38 (((cfg0.win 1).blk t).view.emb (ix3 r k (0 : Fin 1))) = _
  refine congrArg (V m c main_v38) (funext fun a => Fin.ext ?_)
  obtain ⟨h0, h1, h2⟩ := idx1 t
  match a with
  | ⟨0, _⟩ => show win0_1.index t 0 * 32 + 1 * r.val = 32 * (t.val / 17) + r.val; rw [h0]; omega
  | ⟨1, _⟩ => show win0_1.index t 1 * 88 + 1 * k.val = 88 * (t.val % 17) + k.val; rw [h1]; omega
  | ⟨2, _⟩ => show win0_1.index t 2 * 1 + 1 * (0 : Fin 1).val = (0 : Fin 1).val; rw [h2]; rfl

/-- The projection block is the projection row itself at every point. -/
theorem blk2_apply (c : Dev nD) (t : Fin cfg0.N) (cc : Fin 768) :
    (iblk m c 2 t : Vec Ideal S1x768 .f32) (ix2 (0 : Fin 1) cc) = V m c main_arg1 (ix2 (0 : Fin 1) cc) := by
  unfold iblk
  rw [View.read_apply]
  show V m c main_arg1 (((cfg0.win 2).blk t).view.emb (ix2 (0 : Fin 1) cc)) = _
  refine congrArg (V m c main_arg1) (funext fun a => Fin.ext ?_)
  obtain ⟨h0, h1⟩ := idx2 t
  match a with
  | ⟨0, _⟩ => show win0_2.index t 0 * 1 + 1 * (0 : Fin 1).val = (0 : Fin 1).val; rw [h0]; rfl
  | ⟨1, _⟩ => show win0_2.index t 1 * 768 + 1 * cc.val = cc.val; rw [h1]; omega

/-- Hidden state times frame weight, by natural coordinates (zero outside the arrays). -/
def hw (c : Dev nD) (b : ℕ) (cc : Fin 768) (k : ℕ) : EReal :=
  if h : b < 128 ∧ k < 1496 then
    @HMul.hMul EReal EReal EReal instHMul (V m c main_arg0 (ix3 ⟨b, h.1⟩ ⟨k, h.2⟩ cc))
      (V m c main_v38 (ix3 ⟨b, h.1⟩ ⟨k, h.2⟩ (0 : Fin 1)))
  else 0

/-- One point's update: the previous entry plus the 88 products of this time tile. -/
theorem step (c : Dev nD) (t : Fin cfg0.N) (prev : FVec Ideal S32x768 .f32) (r : Fin 32) (cc : Fin 768) :
    k0_pay2 (iblk m c 0 t) (iblk m c 1 t) prev (ix2 r cc)
      = prev (ix2 r cc) + ∑ k ∈ Finset.range 88, hw m c (32 * (t.val / 17) + r.val) cc (88 * (t.val % 17) + k) := by
  refine (Payload.pay2_apply (iblk m c 0 t) (iblk m c 1 t) prev r cc).trans ?_
  congr 1
  rw [Finset.sum_range]
  refine Finset.sum_congr rfl fun k _ => ?_
  rw [blk0_apply, blk1_apply]
  unfold hw
  have hb : 32 * (t.val / 17) + r.val < 128 := by have := t.isLt; have h : cfg0.N = 68 := N_0; omega
  have hk : 88 * (t.val % 17) + k.val < 1496 := by omega
  rw [dif_pos ⟨hb, hk⟩]

/-- THE INVARIANT: the scratch after point n is the frame sum up to the end of time tile n % 17. -/
theorem scratch_eq (c : Dev nD) : ∀ (n : ℕ) (h : n < cfg0.N) (r : Fin 32) (cc : Fin 768),
    (outsAt0 m c n h).2 (ix2 r cc) = ∑ k ∈ Finset.range (88 * (n % 17 + 1)), hw m c (32 * (n / 17) + r.val) cc k
  | 0, h, r, cc => by
    rw [outsAt0_A m c ⟨0, h⟩ (by simp) (by simp)]
    dsimp only
    rw [Pieces.sout_A]
    refine (step m c ⟨0, h⟩ _ r cc).trans ?_
    rw [Payload.pay1_apply, zero_add]
    simp
  | n + 1, h, r, cc => by
    have hlt : n + 1 < 68 := lt_of_lt_of_eq h hN
    by_cases h0 : (n + 1) % 17 = 0
    · have h1 : ¬ (n + 1) % 17 = 16 := by omega
      rw [outsAt0_A m c ⟨n + 1, h⟩ h0 h1]
      dsimp only
      rw [Pieces.sout_A]
      refine (step m c ⟨n + 1, h⟩ _ r cc).trans ?_
      rw [Payload.pay1_apply, zero_add]
      show ∑ k ∈ Finset.range 88, hw m c (32 * ((n + 1) / 17) + r.val) cc (88 * ((n + 1) % 17) + k) = _
      rw [h0]
      simp
    · have ih := scratch_eq c n (Nat.lt_of_succ_lt h) r cc
      have e1 : (n + 1) / 17 = n / 17 := by omega
      have e2 : (n + 1) % 17 = n % 17 + 1 := by omega
      have fin : (outsAt0 m c n (Nat.lt_of_succ_lt h)).2 (ix2 r cc)
          + ∑ k ∈ Finset.range 88, hw m c (32 * ((n + 1) / 17) + r.val) cc (88 * ((n + 1) % 17) + k)
          = ∑ k ∈ Finset.range (88 * ((n + 1) % 17 + 1)), hw m c (32 * ((n + 1) / 17) + r.val) cc k := by
        rw [ih, e1, e2, show 88 * (n % 17 + 1 + 1) = 88 * (n % 17 + 1) + 88 by ring, Finset.sum_range_add]
      by_cases h1 : (n + 1) % 17 = 16
      · rw [outsAt0_C m c ⟨n + 1, h⟩ h0 h1]
        dsimp only
        rw [Pieces.sout_C]
        refine (step m c ⟨n + 1, h⟩ _ r cc).trans ?_
        exact fin
      · rw [outsAt0_B m c ⟨n + 1, h⟩ h0 h1]
        dsimp only
        rw [Pieces.sout_B]
        refine (step m c ⟨n + 1, h⟩ _ r cc).trans ?_
        exact fin

/-- At a last time tile the output block is the projection of the completed frame sums. -/
theorem out_eq (c : Dev nD) (t : Fin cfg0.N) (h16 : t.val % 17 = 16) (r : Fin 32) :
    (outsAt0 m c t.val t.isLt).1 (ix2 r (0 : Fin 1))
      = ∑ cc : Fin 768, @HMul.hMul EReal EReal EReal instHMul (∑ k ∈ Finset.range 1496, hw m c (32 * (t.val / 17) + r.val) cc k) (V m c main_arg1 (ix2 (0 : Fin 1) cc)) := by
  have h0 : ¬ t.val % 17 = 0 := by omega
  have hlt : t.val < 68 := lt_of_lt_of_eq t.isLt hN
  rw [outsAt0_C m c t h0 h16]
  dsimp only
  rw [Pieces.out_C]
  refine (Payload.pay3_apply _ _ r).trans ?_
  refine Finset.sum_congr rfl fun cc _ => ?_
  rw [blk2_apply]
  congr 1
  refine (step m c t _ r cc).trans ?_
  rw [scratch_eq m c (t.val - 1) _ r cc]
  have e1 : (t.val - 1) / 17 = t.val / 17 := by omega
  have e2 : (t.val - 1) % 17 = 15 := by omega
  rw [e1, e2, h16, show (1496 : ℕ) = 88 * (15 + 1) + 88 by norm_num, Finset.sum_range_add]

end Cert.KernelIdeal.Acc
end
-- ==== Proof.RunMath.lean ====
/-
Runs of a boundary predicate on one row of frames.

A row has `T` frames, of which the first `L` are valid (`1 ≤ L ≤ T`).  A predicate
`β` marks the frames at which a new run starts; frame `0` is a boundary and every
boundary is a valid frame.  `C t` counts the boundaries at positions `≤ t`, so the
valid frame `t` lies in run number `seg t = C t - 1`.

Given, for every valid frame `t`, the last boundary `s t` at or before `t` and the
first boundary `e t` after `t` (or `T` when there is none), this file proves

* (A) the run of `t` is the interval `[s t, min (e t) L)`, so it has
  `min (e t) L - s t ≥ 1` valid frames;
* (B) the run numbers that occur among valid frames are exactly `0, …, n - 1`
  where `n ≥ 1` is the number of boundaries;
* (C) the mean over occupied runs of the per-run means of a real function `h`
  equals the weighted sum `∑ t, h t / (|run of t| * n)` over valid frames.
-/
import Mathlib.Algebra.BigOperators.Group.Finset.Basic
import Mathlib.Algebra.BigOperators.Ring.Finset
import Mathlib.Algebra.BigOperators.Field
import Mathlib.Algebra.Order.BigOperators.Group.Finset
import Mathlib.Order.Interval.Finset.Nat
import Mathlib.Data.Real.Basic
import Mathlib.Tactic

namespace Cert.RunMath

open Finset

/-- Number of boundaries at positions `≤ t`. -/
def C (β : ℕ → Prop) [DecidablePred β] (t : ℕ) : ℕ :=
  ((Finset.range (t + 1)).filter β).card

/-- Run number of frame `t` (runs are numbered from `0`). -/
def seg (β : ℕ → Prop) [DecidablePred β] (t : ℕ) : ℕ := C β t - 1

/-- Number of valid frames in run `r`. -/
def cnt (T L : ℕ) (β : ℕ → Prop) [DecidablePred β] (r : ℕ) : ℕ :=
  ((Finset.range T).filter (fun t' => t' < L ∧ seg β t' = r)).card

section basic

variable (β : ℕ → Prop) [DecidablePred β]

theorem C_mono {a b : ℕ} (hab : a ≤ b) : C β a ≤ C β b := by
  unfold C
  apply Finset.card_le_card
  intro k hk
  simp only [Finset.mem_filter, Finset.mem_range] at hk ⊢
  exact ⟨by omega, hk.2⟩

theorem C_pos (hβ0 : β 0) (t : ℕ) : 1 ≤ C β t := by
  unfold C
  apply Finset.card_pos.mpr
  exact ⟨0, by simp only [Finset.mem_filter, Finset.mem_range]; exact ⟨by omega, hβ0⟩⟩

/-- A boundary strictly after `a` and at or before `b` makes the count grow. -/
theorem C_lt_of_boundary {a k b : ℕ} (hak : a < k) (hkb : k ≤ b) (hk : β k) :
    C β a < C β b := by
  unfold C
  apply Finset.card_lt_card
  rw [Finset.ssubset_iff_of_subset]
  · refine ⟨k, ?_, ?_⟩
    · simp only [Finset.mem_filter, Finset.mem_range]; exact ⟨by omega, hk⟩
    · simp only [Finset.mem_filter, Finset.mem_range]; intro h; omega
  · intro j hj
    simp only [Finset.mem_filter, Finset.mem_range] at hj ⊢
    exact ⟨by omega, hj.2⟩

/-- Without a boundary in `(a, b]` the count does not change. -/
theorem C_eq_of_no_boundary {a b : ℕ} (hab : a ≤ b)
    (h : ∀ k, a < k → k ≤ b → ¬ β k) : C β a = C β b := by
  unfold C
  congr 1
  ext k
  simp only [Finset.mem_filter, Finset.mem_range]
  constructor
  · rintro ⟨h1, h2⟩; exact ⟨by omega, h2⟩
  · rintro ⟨h1, h2⟩
    refine ⟨?_, h2⟩
    by_contra hc
    exact h k (by omega) (by omega) h2

theorem C_succ (t : ℕ) : C β (t + 1) = C β t + (if β (t + 1) then 1 else 0) := by
  unfold C
  rw [Finset.range_add_one (n := t + 1), Finset.filter_insert]
  split_ifs with hb
  · rw [Finset.card_insert_of_notMem]
    simp only [Finset.mem_filter, Finset.mem_range]
    intro h; omega
  · rfl

theorem C_zero (hβ0 : β 0) : C β 0 = 1 := by
  unfold C
  rw [Finset.card_eq_one]
  refine ⟨0, ?_⟩
  ext k
  simp only [Finset.mem_filter, Finset.mem_range, Finset.mem_singleton]
  constructor
  · rintro ⟨h1, _⟩; omega
  · rintro rfl; exact ⟨by omega, hβ0⟩

end basic

section runs

variable (T L : ℕ) (β : ℕ → Prop) [DecidablePred β] (s e : ℕ → ℕ)

/-- The run of a valid frame `t`, as a set of valid frames, is `[s t, min (e t) L)`. -/
theorem run_iff (hLT : L ≤ T)
    (hs : ∀ t, t < L → β (s t) ∧ s t ≤ t ∧ ∀ k, k ≤ t → β k → k ≤ s t)
    (he : ∀ t, t < L → t < e t ∧ e t ≤ T ∧ (e t < T → β (e t)) ∧
      ∀ k, t < k → k < e t → ¬ β k)
    {t : ℕ} (ht : t < L) (t' : ℕ) :
    (t' < L ∧ C β t' = C β t) ↔ (s t ≤ t' ∧ t' < min (e t) L) := by
  obtain ⟨hs1, hs2, hs3⟩ := hs t ht
  obtain ⟨he1, he2, he3, he4⟩ := he t ht
  constructor
  · rintro ⟨h1, h2⟩
    refine ⟨?_, ?_⟩
    · by_contra hc
      have h3 : C β t' < C β (s t) := C_lt_of_boundary β (by omega) le_rfl hs1
      have h4 : C β (s t) ≤ C β t := C_mono β hs2
      omega
    · rw [lt_min_iff]
      refine ⟨?_, h1⟩
      by_contra hc
      have h3 : C β t < C β t' := C_lt_of_boundary β he1 (by omega) (he3 (by omega))
      omega
  · rintro ⟨h1, h2⟩
    rw [lt_min_iff] at h2
    refine ⟨h2.2, ?_⟩
    rcases Nat.le_total t' t with h | h
    · apply C_eq_of_no_boundary β h
      intro k hk1 hk2 hk
      have := hs3 k hk2 hk
      omega
    · symm
      apply C_eq_of_no_boundary β h
      intro k hk1 hk2
      exact he4 k hk1 (by omega)

/-- (A) The number of valid frames in the run of `t` is `min (e t) L - s t`, and it is
at least one. -/
theorem count_eq (hLT : L ≤ T) (hβ0 : β 0)
    (hs : ∀ t, t < L → β (s t) ∧ s t ≤ t ∧ ∀ k, k ≤ t → β k → k ≤ s t)
    (he : ∀ t, t < L → t < e t ∧ e t ≤ T ∧ (e t < T → β (e t)) ∧
      ∀ k, t < k → k < e t → ¬ β k) :
    ∀ t, t < L →
      ((Finset.range T).filter (fun t' => t' < L ∧ seg β t' = seg β t)).card
          = min (e t) L - s t
        ∧ 1 ≤ min (e t) L - s t := by
  intro t ht
  have hset : (Finset.range T).filter (fun t' => t' < L ∧ seg β t' = seg β t)
      = Finset.Ico (s t) (min (e t) L) := by
    ext t'
    simp only [Finset.mem_filter, Finset.mem_range, Finset.mem_Ico]
    have hiff := run_iff T L β s e hLT hs he ht t'
    have hseg : seg β t' = seg β t ↔ C β t' = C β t := by
      unfold seg
      have h1 := C_pos β hβ0 t'
      have h2 := C_pos β hβ0 t
      omega
    rw [hseg]
    constructor
    · rintro ⟨_, h⟩; exact hiff.mp h
    · intro h
      have h' := hiff.mpr h
      exact ⟨by omega, h'⟩
  refine ⟨?_, ?_⟩
  · rw [hset, Nat.card_Ico]
  · obtain ⟨_, hs2, _⟩ := hs t ht
    obtain ⟨he1, _, _, _⟩ := he t ht
    have : t < min (e t) L := lt_min he1 ht
    omega

end runs

section numruns

variable (T L : ℕ) (β : ℕ → Prop) [DecidablePred β]

/-- The count at any frame of the row is at most the number of boundaries in the row. -/
theorem C_le_total {t : ℕ} (ht : t < T) : C β t ≤ ((Finset.range T).filter β).card := by
  unfold C
  apply Finset.card_le_card
  intro k hk
  simp only [Finset.mem_filter, Finset.mem_range] at hk ⊢
  exact ⟨by omega, hk.2⟩

/-- Every boundary is valid, so the count at the last valid frame is the number of
boundaries in the row. -/
theorem C_last (hL1 : 1 ≤ L) (hLT : L ≤ T) (hβL : ∀ k, β k → k < L) :
    C β (L - 1) = ((Finset.range T).filter β).card := by
  unfold C
  congr 1
  ext k
  simp only [Finset.mem_filter, Finset.mem_range]
  constructor
  · rintro ⟨h1, h2⟩; exact ⟨by omega, h2⟩
  · rintro ⟨_, h2⟩
    have := hβL k h2
    exact ⟨by omega, h2⟩

/-- The count starts at one and grows by at most one per frame, so it takes every value
between `1` and `C m` on `[0, m]`. -/
theorem exists_C_eq (hβ0 : β 0) :
    ∀ m j, 1 ≤ j → j ≤ C β m → ∃ t', t' ≤ m ∧ C β t' = j := by
  intro m
  induction m with
  | zero =>
    intro j h1 h2
    rw [C_zero β hβ0] at h2
    exact ⟨0, le_rfl, by rw [C_zero β hβ0]; omega⟩
  | succ m ih =>
    intro j h1 h2
    by_cases hj : j ≤ C β m
    · obtain ⟨t', ht', hC⟩ := ih j h1 hj
      exact ⟨t', by omega, hC⟩
    · refine ⟨m + 1, le_rfl, ?_⟩
      have h3 := C_succ β m
      split_ifs at h3 <;> omega

/-- A run number occurs among the valid frames iff it is below the number of boundaries. -/
theorem occupied_iff (hL1 : 1 ≤ L) (hLT : L ≤ T) (hβ0 : β 0) (hβL : ∀ k, β k → k < L)
    (r : ℕ) :
    (∃ t', t' < L ∧ seg β t' = r) ↔ r < ((Finset.range T).filter β).card := by
  constructor
  · rintro ⟨t', ht', hr⟩
    have h1 := C_pos β hβ0 t'
    have h2 : C β t' ≤ ((Finset.range T).filter β).card := C_le_total T β (by omega)
    unfold seg at hr
    omega
  · intro hr
    have hlast := C_last T L β hL1 hLT hβL
    obtain ⟨t', ht', hC⟩ := exists_C_eq β hβ0 (L - 1) (r + 1) (by omega) (by omega)
    refine ⟨t', by omega, ?_⟩
    unfold seg
    omega

theorem cnt_pos_iff (hLT : L ≤ T) (r : ℕ) :
    0 < cnt T L β r ↔ ∃ t', t' < L ∧ seg β t' = r := by
  unfold cnt
  rw [Finset.card_pos]
  constructor
  · rintro ⟨t', ht'⟩
    simp only [Finset.mem_filter, Finset.mem_range] at ht'
    exact ⟨t', ht'.2⟩
  · rintro ⟨t', ht'⟩
    refine ⟨t', ?_⟩
    simp only [Finset.mem_filter, Finset.mem_range]
    exact ⟨by omega, ht'⟩

/-- (B) The number of occupied runs equals the number of boundaries, which is at least
one. -/
theorem num_runs (hL1 : 1 ≤ L) (hLT : L ≤ T) (hβ0 : β 0) (hβL : ∀ k, β k → k < L) :
    ((Finset.range T).filter (fun r => 0 < cnt T L β r)).card
        = ((Finset.range T).filter β).card
      ∧ 1 ≤ ((Finset.range T).filter β).card := by
  have hnT : ((Finset.range T).filter β).card ≤ T := by
    calc ((Finset.range T).filter β).card ≤ (Finset.range T).card := Finset.card_filter_le _ _
      _ = T := Finset.card_range T
  have hset : (Finset.range T).filter (fun r => 0 < cnt T L β r)
      = Finset.range ((Finset.range T).filter β).card := by
    ext r
    simp only [Finset.mem_filter, Finset.mem_range]
    rw [cnt_pos_iff T L β hLT r, occupied_iff T L β hL1 hLT hβ0 hβL r]
    constructor
    · rintro ⟨_, h⟩; exact h
    · intro h; exact ⟨by omega, h⟩
  refine ⟨?_, ?_⟩
  · rw [hset, Finset.card_range]
  · apply Finset.card_pos.mpr
    exact ⟨0, by simp only [Finset.mem_filter, Finset.mem_range]; exact ⟨by omega, hβ0⟩⟩

end numruns

section mean

variable (T L : ℕ) (β : ℕ → Prop) [DecidablePred β] (s e : ℕ → ℕ)

/-- (C) The mean, over the occupied runs, of the per-run means of `h` is the sum over the
valid frames `t` of `h t / (|run of t| * n)`. -/
theorem mean_of_run_means (hL1 : 1 ≤ L) (hLT : L ≤ T) (hβ0 : β 0) (hβL : ∀ k, β k → k < L)
    (hs : ∀ t, t < L → β (s t) ∧ s t ≤ t ∧ ∀ k, k ≤ t → β k → k ≤ s t)
    (he : ∀ t, t < L → t < e t ∧ e t ≤ T ∧ (e t < T → β (e t)) ∧
      ∀ k, t < k → k < e t → ¬ β k)
    (h : ℕ → ℝ) :
    (∑ r ∈ Finset.range T,
        (∑ t' ∈ (Finset.range T).filter (fun t' => t' < L ∧ seg β t' = r), h t')
          / max ((cnt T L β r : ℕ) : ℝ) 1
          * (if 0 < cnt T L β r then (1 : ℝ) else 0))
      / (∑ r ∈ Finset.range T, (if 0 < cnt T L β r then (1 : ℝ) else 0))
      = ∑ t ∈ Finset.range T,
          h t * (if t < L then
            1 / max ((((min (e t) L - s t : ℕ) : ℝ))
                      * ((((Finset.range T).filter β).card : ℕ) : ℝ)) 1
            else 0) := by
  obtain ⟨hruns, hn1⟩ := num_runs T L β hL1 hLT hβ0 hβL
  have hA := count_eq T L β s e hLT hβ0 hs he
  -- the denominator is the number of boundaries
  have hden : (∑ r ∈ Finset.range T, (if 0 < cnt T L β r then (1 : ℝ) else 0))
      = ((((Finset.range T).filter β).card : ℕ) : ℝ) := by
    rw [Finset.sum_boole, hruns]
  -- exchange the two sums in the numerator
  have hnum : (∑ r ∈ Finset.range T,
        (∑ t' ∈ (Finset.range T).filter (fun t' => t' < L ∧ seg β t' = r), h t')
          / max ((cnt T L β r : ℕ) : ℝ) 1
          * (if 0 < cnt T L β r then (1 : ℝ) else 0))
      = ∑ t ∈ Finset.range T,
          (if t < L then h t / (((min (e t) L - s t : ℕ) : ℝ)) else 0) := by
    calc (∑ r ∈ Finset.range T,
            (∑ t' ∈ (Finset.range T).filter (fun t' => t' < L ∧ seg β t' = r), h t')
              / max ((cnt T L β r : ℕ) : ℝ) 1
              * (if 0 < cnt T L β r then (1 : ℝ) else 0))
        = ∑ r ∈ Finset.range T, ∑ t' ∈ Finset.range T,
            (if t' < L ∧ seg β t' = r then
              h t' / max ((cnt T L β r : ℕ) : ℝ) 1
                * (if 0 < cnt T L β r then (1 : ℝ) else 0)
             else 0) := by
          apply Finset.sum_congr rfl
          intro r _
          rw [Finset.sum_div, Finset.sum_mul, Finset.sum_filter]
      _ = ∑ t' ∈ Finset.range T, ∑ r ∈ Finset.range T,
            (if t' < L ∧ seg β t' = r then
              h t' / max ((cnt T L β r : ℕ) : ℝ) 1
                * (if 0 < cnt T L β r then (1 : ℝ) else 0)
             else 0) := Finset.sum_comm
      _ = ∑ t ∈ Finset.range T,
            (if t < L then h t / (((min (e t) L - s t : ℕ) : ℝ)) else 0) := by
          apply Finset.sum_congr rfl
          intro t ht
          by_cases hl : t < L
          · rw [if_pos hl]
            have hsegT : seg β t ∈ Finset.range T := by
              rw [Finset.mem_range]
              have h1 := C_pos β hβ0 t
              have h2 : C β t ≤ ((Finset.range T).filter β).card :=
                C_le_total T β (by omega)
              have h3 : ((Finset.range T).filter β).card ≤ T := by
                calc ((Finset.range T).filter β).card
                    ≤ (Finset.range T).card := Finset.card_filter_le _ _
                  _ = T := Finset.card_range T
              unfold seg
              omega
            rw [Finset.sum_eq_single (seg β t)]
            · rw [if_pos ⟨hl, rfl⟩]
              have hc : cnt T L β (seg β t) = min (e t) L - s t := (hA t hl).1
              have hpos : 0 < cnt T L β (seg β t) := by
                rw [hc]; exact (hA t hl).2
              rw [if_pos hpos, mul_one, hc]
              have hge : (1 : ℝ) ≤ ((min (e t) L - s t : ℕ) : ℝ) := by
                exact_mod_cast (hA t hl).2
              rw [max_eq_left hge]
            · intro r _ hr
              rw [if_neg]
              rintro ⟨_, h'⟩
              exact hr h'.symm
            · intro hnot
              exact absurd hsegT hnot
          · rw [if_neg hl]
            apply Finset.sum_eq_zero
            intro r _
            rw [if_neg]
            rintro ⟨h', _⟩
            exact hl h'
  rw [hnum, hden, Finset.sum_div]
  apply Finset.sum_congr rfl
  intro t _
  by_cases hl : t < L
  · rw [if_pos hl, if_pos hl]
    have ha : (1 : ℝ) ≤ ((min (e t) L - s t : ℕ) : ℝ) := by
      exact_mod_cast (hA t hl).2
    have hn : (1 : ℝ) ≤ ((((Finset.range T).filter β).card : ℕ) : ℝ) := by
      exact_mod_cast hn1
    have han : (1 : ℝ) ≤ ((min (e t) L - s t : ℕ) : ℝ)
        * ((((Finset.range T).filter β).card : ℕ) : ℝ) := by
      calc (1 : ℝ) = 1 * 1 := (mul_one 1).symm
        _ ≤ _ := mul_le_mul ha hn zero_le_one (by linarith)
    rw [max_eq_left han, div_div, mul_one_div]
  · rw [if_neg hl, if_neg hl, zero_div, mul_zero]

end mean

end Cert.RunMath
-- ==== Proof.RowDefs.lean ====
/-
  The common vocabulary of the two programs, one batch row at a time.
  A row has 1496 frames; the first L = min(length, 1496) of them are valid. A valid frame is a boundary when it
  is frame 0 or its phoneme id differs from the previous frame's; the runs are the maximal stretches between
  boundaries, clipped at L. The feature of a row at a channel is the mean over the runs of the run's mean of the
  hidden states; the result is its projection plus the bias. Both programs compute this number: the reference
  run by run, the kernel as one weighted sum over the frames.
-/
import proofs.«132348_j86689619902579_2_alg».proof.Proof.RunMath
import Idealize.ShloMosaic.PureOps
import Idealize.ShloMosaic.Lib.ValueIdx
import Mathlib.Data.EReal.Basic

noncomputable section

open Idealize.ShloMosaic Idealize.ShloMosaic.ValueIdx
open scoped BigOperators

namespace Cert.Row

/-- The number of valid frames of row b: the length, read signed, clipped to the 1496 frames there are. -/
def L (len : IVec ⟨1, ![128]⟩ 32) (b : Fin 128) : ℕ := min (len (ix1 b)).toInt.toNat 1496

/-- Frame t of row b starts a run: it is valid, and it is frame 0 or its id differs from frame t - 1's. -/
def bnd (ids : IVec ⟨2, ![128, 1496]⟩ 32) (len : IVec ⟨1, ![128]⟩ 32) (b : Fin 128) (t : ℕ) : Prop :=
  t < L len b ∧ (t = 0 ∨ ∃ h : t < 1496, ids (ix2 b ⟨t, h⟩) ≠ ids (ix2 b ⟨t - 1, by omega⟩))

instance decBnd (ids : IVec ⟨2, ![128, 1496]⟩ 32) (len : IVec ⟨1, ![128]⟩ 32) (b : Fin 128) :
    DecidablePred (bnd ids len b) := Classical.decPred _

/-- Row b, channel c of the hidden states as a real sequence in the frame (zero past the last frame). -/
def hrow (A : (⟨3, ![128, 1496, 768]⟩ : Shape).Idx → EReal) (b : Fin 128) (cc : Fin 768) (t : ℕ) : ℝ :=
  if h : t < 1496 then (A (ix3 b ⟨t, h⟩ cc)).toReal else 0

/-- The feature the reference computes: the mean over the occupied run slots of the run means. -/
def featRef (A : (⟨3, ![128, 1496, 768]⟩ : Shape).Idx → EReal) (ids : IVec ⟨2, ![128, 1496]⟩ 32)
    (len : IVec ⟨1, ![128]⟩ 32) (b : Fin 128) (cc : Fin 768) : ℝ :=
  (∑ r ∈ Finset.range 1496,
      (∑ t' ∈ (Finset.range 1496).filter (fun t' => t' < L len b ∧ Cert.RunMath.seg (bnd ids len b) t' = r), hrow A b cc t')
        / max ((Cert.RunMath.cnt 1496 (L len b) (bnd ids len b) r : ℕ) : ℝ) 1
        * (if 0 < Cert.RunMath.cnt 1496 (L len b) (bnd ids len b) r then (1 : ℝ) else 0))
    / (∑ r ∈ Finset.range 1496, (if 0 < Cert.RunMath.cnt 1496 (L len b) (bnd ids len b) r then (1 : ℝ) else 0))

/-- The same feature as the kernel computes it: one sum over the frames, frame t weighted by the reciprocal of
    (length of its run) × (number of runs); s t and e t are the start and the exclusive end of t's run. -/
def featKer (A : (⟨3, ![128, 1496, 768]⟩ : Shape).Idx → EReal) (ids : IVec ⟨2, ![128, 1496]⟩ 32)
    (len : IVec ⟨1, ![128]⟩ 32) (s e : ℕ → ℕ) (b : Fin 128) (cc : Fin 768) : ℝ :=
  ∑ t ∈ Finset.range 1496,
    hrow A b cc t * (if t < L len b then
      1 / max ((((min (e t) (L len b) - s t : ℕ) : ℝ)) * ((((Finset.range 1496).filter (bnd ids len b)).card : ℕ) : ℝ)) 1
      else 0)

/-- The result both programs end with, at row b: the projection of the feature plus the bias. -/
def G (A : (⟨3, ![128, 1496, 768]⟩ : Shape).Idx → EReal) (W : (⟨2, ![1, 768]⟩ : Shape).Idx → EReal)
    (bias : (⟨1, ![1]⟩ : Shape).Idx → EReal) (ids : IVec ⟨2, ![128, 1496]⟩ 32) (len : IVec ⟨1, ![128]⟩ 32)
    (b : Fin 128) : EReal :=
  ((∑ cc : Fin 768, featRef A ids len b cc * (W (ix2 (0 : Fin 1) cc)).toReal + (bias (ix1 (0 : Fin 1))).toReal : ℝ) : EReal)

/-- The two forms of the feature agree, given the run starts and ends with their defining properties. -/
theorem featKer_eq_featRef (A : (⟨3, ![128, 1496, 768]⟩ : Shape).Idx → EReal) (ids : IVec ⟨2, ![128, 1496]⟩ 32)
    (len : IVec ⟨1, ![128]⟩ 32) (s e : ℕ → ℕ) (b : Fin 128) (cc : Fin 768)
    (hL1 : 1 ≤ L len b)
    (hs : ∀ t, t < L len b → bnd ids len b (s t) ∧ s t ≤ t ∧ ∀ k, k ≤ t → bnd ids len b k → k ≤ s t)
    (he : ∀ t, t < L len b → t < e t ∧ e t ≤ 1496 ∧ (e t < 1496 → bnd ids len b (e t)) ∧ ∀ k, t < k → k < e t → ¬ bnd ids len b k) :
    featKer A ids len s e b cc = featRef A ids len b cc := by
  have hLT : L len b ≤ 1496 := by unfold L; exact min_le_right _ _
  have hβ0 : bnd ids len b 0 := ⟨by omega, Or.inl rfl⟩
  have hβL : ∀ k, bnd ids len b k → k < L len b := fun k hk => hk.1
  exact (Cert.RunMath.mean_of_run_means 1496 (L len b) (bnd ids len b) s e hL1 hLT hβ0 hβL hs he (hrow A b cc)).symm

end Cert.Row
end
-- ==== Proof.MaskFacts.lean ====
/-
The validity and run-boundary masks of one batch of rows, read at an index.

A frame t of row b is valid when t is below the row's length (a signed comparison of 32-bit words; the frame
index is below 1496, so it reads the same signed and unsigned), i.e. t < L = min(length, 1496).  A frame starts
a run when it is valid and either is frame 0 or carries an identifier different from the previous frame's: the
mask is the concatenation of an all-ones first column with the comparison of the identifiers shifted by one,
conjoined with the validity mask.  The statements take the shape facts of the broadcasts, slices and the
concatenation as arbitrary arguments, so that they apply to any program that spells these operations.
-/
import proofs.«132348_j86689619902579_2_alg».proof.Proof.RowDefs
import Idealize.ShloMosaic.PureOps
import Idealize.ShloMosaic.Lib.ValueIdx
import Idealize.ShloMosaic.Lib.IdealHost
import Idealize.ShloMosaic.Lib.ValueLayout
import Idealize.ShloMosaic.Lib.Pipeline.Value
import Idealize.ShloMosaic.Lib.Affine

noncomputable section

namespace Cert.Mask

open Idealize.ShloMosaic Idealize.ShloMosaic.ValueIdx

/-! ## Broadcasts between a row, a column and a matrix, read at an index -/

section bcast
variable {α : Type} {M N : ℕ}

/-- A `1 × N` row broadcast to `M × N` reads the row's element of the same column. -/
theorem bcast_row (h : (⟨2, ![1, N]⟩ : Shape).BroadcastsInDim ⟨2, ![M, N]⟩ ![0, 1])
    (x : (⟨2, ![1, N]⟩ : Shape).Idx → α) (b : Fin M) (t : Fin N) :
    broadcastInDim ⟨2, ![M, N]⟩ ![0, 1] h x (ix2 b t) = x (ix2 0 t) := by
  apply broadcastInDim_apply
  intro a
  match a with
  | ⟨0, _⟩ => simp
  | ⟨1, _⟩ =>
    show t.val = if N = 1 then 0 else t.val
    split_ifs with hN
    · have := t.isLt; omega
    · rfl

/-- An `M × 1` column broadcast to `M × N` reads the column's element of the same row. -/
theorem bcast_col (h : (⟨2, ![M, 1]⟩ : Shape).BroadcastsInDim ⟨2, ![M, N]⟩ ![0, 1])
    (x : (⟨2, ![M, 1]⟩ : Shape).Idx → α) (b : Fin M) (t : Fin N) :
    broadcastInDim ⟨2, ![M, N]⟩ ![0, 1] h x (ix2 b t) = x (ix2 b 0) := by
  apply broadcastInDim_apply
  intro a
  match a with
  | ⟨0, _⟩ =>
    show b.val = if M = 1 then 0 else b.val
    split_ifs with hM
    · have := b.isLt; omega
    · rfl
  | ⟨1, _⟩ => simp

/-- A length-`N` vector placed as a `1 × N` row. -/
theorem bcast_vec_row (h : (⟨1, ![N]⟩ : Shape).BroadcastsInDim ⟨2, ![1, N]⟩ ![1])
    (x : (⟨1, ![N]⟩ : Shape).Idx → α) (t : Fin N) :
    broadcastInDim ⟨2, ![1, N]⟩ ![1] h x (ix2 0 t) = x (ix1 t) := by
  apply broadcastInDim_apply
  intro a
  match a with
  | ⟨0, _⟩ =>
    show t.val = if N = 1 then 0 else t.val
    split_ifs with hN
    · have := t.isLt; omega
    · rfl

/-- A length-`M` vector placed as an `M × 1` column. -/
theorem bcast_vec_col (h : (⟨1, ![M]⟩ : Shape).BroadcastsInDim ⟨2, ![M, 1]⟩ ![0])
    (x : (⟨1, ![M]⟩ : Shape).Idx → α) (b : Fin M) (z : Fin 1) :
    broadcastInDim ⟨2, ![M, 1]⟩ ![0] h x (ix2 b z) = x (ix1 b) := by
  apply broadcastInDim_apply
  intro a
  match a with
  | ⟨0, _⟩ =>
    show b.val = if M = 1 then 0 else b.val
    split_ifs with hM
    · have := b.isLt; omega
    · rfl

end bcast

/-! ## The validity mask -/

/-- A frame index below 1496, as a 32-bit word, reads itself signed. -/
theorem toInt_frame (t : ℕ) (ht : t < 1496) : (BitVec.ofNat 32 t).toInt = (t : ℤ) := by
  rw [BitVec.toInt_eq_toNat_of_lt (by rw [BitVec.toNat_ofNat]; omega), BitVec.toNat_ofNat]
  omega

/-- Frame `t` of row `b` is valid exactly when `t` is below the clipped length of the row. -/
theorem valid_iff (a4 : IVec ⟨1, ![128]⟩ 32)
    (h1 : (⟨2, ![1, 1496]⟩ : Shape).BroadcastsInDim ⟨2, ![128, 1496]⟩ ![0, 1])
    (h2 : (⟨1, ![1496]⟩ : Shape).BroadcastsInDim ⟨2, ![1, 1496]⟩ ![1])
    (h3 : (⟨2, ![128, 1]⟩ : Shape).BroadcastsInDim ⟨2, ![128, 1496]⟩ ![0, 1])
    (h4 : (⟨1, ![128]⟩ : Shape).BroadcastsInDim ⟨2, ![128, 1]⟩ ![0])
    (b : Fin 128) (t : Fin 1496) :
    cmpi .slt
        (broadcastInDim ⟨2, ![128, 1496]⟩ ![0, 1] h1
          (broadcastInDim ⟨2, ![1, 1496]⟩ ![1] h2 (iotaInDim ⟨1, ![1496]⟩ 32 0)))
        (broadcastInDim ⟨2, ![128, 1496]⟩ ![0, 1] h3 (broadcastInDim ⟨2, ![128, 1]⟩ ![0] h4 a4))
        (ix2 b t) = 1#1
      ↔ t.val < Cert.Row.L a4 b := by
  show IntOp.cmpi .slt _ _ = 1#1 ↔ _
  rw [IntOp.cmpi_slt, bcast_row, bcast_vec_row, bcast_col, bcast_vec_col, iotaInDim_apply]
  show (BitVec.ofNat 32 t.val).toInt < _ ↔ _
  rw [toInt_frame t.val t.isLt]
  unfold Cert.Row.L
  have := t.isLt
  omega

/-! ## The run-boundary mask -/

/-- Frame `t` of row `b` starts a run: the first column of the concatenation is all ones, any other column
`t` compares the identifiers of frames `t` and `t - 1`; the result is conjoined with validity. -/
theorem boundary_iff (a3 : IVec ⟨2, ![128, 1496]⟩ 32) (a4 : IVec ⟨1, ![128]⟩ 32)
    (hc : Shape.Concatenates [(⟨2, ![128, 1]⟩ : Shape), ⟨2, ![128, 1495]⟩] ⟨2, ![128, 1496]⟩ 1)
    (hb : (⟨0, ![]⟩ : Shape).BroadcastsInDim ⟨2, ![128, 1]⟩ ![])
    (hs1 : (⟨2, ![128, 1496]⟩ : Shape).Slices ![0, 1] ⟨2, ![128, 1495]⟩)
    (hs0 : (⟨2, ![128, 1496]⟩ : Shape).Slices ![0, 0] ⟨2, ![128, 1495]⟩)
    (h1 : (⟨2, ![1, 1496]⟩ : Shape).BroadcastsInDim ⟨2, ![128, 1496]⟩ ![0, 1])
    (h2 : (⟨1, ![1496]⟩ : Shape).BroadcastsInDim ⟨2, ![1, 1496]⟩ ![1])
    (h3 : (⟨2, ![128, 1]⟩ : Shape).BroadcastsInDim ⟨2, ![128, 1496]⟩ ![0, 1])
    (h4 : (⟨1, ![128]⟩ : Shape).BroadcastsInDim ⟨2, ![128, 1]⟩ ![0])
    (b : Fin 128) (t : Fin 1496) :
    andi
        (concatenate ⟨2, ![128, 1496]⟩ 1
          [⟨⟨2, ![128, 1]⟩, broadcastInDim ⟨2, ![128, 1]⟩ ![] hb (constantI ⟨0, ![]⟩ 1 1#1)⟩,
           ⟨⟨2, ![128, 1495]⟩, cmpi .ne (extractStridedSlice ⟨2, ![128, 1495]⟩ ![0, 1] a3 hs1)
              (extractStridedSlice ⟨2, ![128, 1495]⟩ ![0, 0] a3 hs0)⟩] hc)
        (cmpi .slt
          (broadcastInDim ⟨2, ![128, 1496]⟩ ![0, 1] h1
            (broadcastInDim ⟨2, ![1, 1496]⟩ ![1] h2 (iotaInDim ⟨1, ![1496]⟩ 32 0)))
          (broadcastInDim ⟨2, ![128, 1496]⟩ ![0, 1] h3 (broadcastInDim ⟨2, ![128, 1]⟩ ![0] h4 a4)))
        (ix2 b t) = 1#1
      ↔ Cert.Row.bnd a3 a4 b t.val := by
  show IntOp.andi _ _ = 1#1 ↔ _
  rw [IntOp.andi_eq_one, valid_iff a4 h1 h2 h3 h4 b t]
  unfold Cert.Row.bnd
  rw [and_comm]
  apply and_congr_right
  intro _
  by_cases ht : t.val = 0
  · have hl : concatenate ⟨2, ![128, 1496]⟩ 1
          [⟨⟨2, ![128, 1]⟩, broadcastInDim ⟨2, ![128, 1]⟩ ![] hb (constantI ⟨0, ![]⟩ 1 1#1)⟩,
           ⟨⟨2, ![128, 1495]⟩, cmpi .ne (extractStridedSlice ⟨2, ![128, 1495]⟩ ![0, 1] a3 hs1)
              (extractStridedSlice ⟨2, ![128, 1495]⟩ ![0, 0] a3 hs0)⟩] hc (ix2 b t)
        = broadcastInDim ⟨2, ![128, 1]⟩ ![] hb (constantI ⟨0, ![]⟩ 1 1#1) (ix2 b 0) := by
      apply concatenate_pair_apply_left (t := ⟨2, ![128, 1496]⟩) (s₁ := ⟨2, ![128, 1]⟩) (s₂ := ⟨2, ![128, 1495]⟩) 1 _ _ hc (ix2 b t) rfl (ix2 b 0)
      intro a
      match a with
      | ⟨0, _⟩ => rfl
      | ⟨1, _⟩ => show (0 : ℕ) = t.val; omega
    rw [hl, broadcastInDim_scalar_apply, constantI_apply]
    exact ⟨fun _ => Or.inl ht, fun _ => rfl⟩
  · have ht1 : t.val - 1 < 1495 := by have := t.isLt; omega
    have hr : concatenate ⟨2, ![128, 1496]⟩ 1
          [⟨⟨2, ![128, 1]⟩, broadcastInDim ⟨2, ![128, 1]⟩ ![] hb (constantI ⟨0, ![]⟩ 1 1#1)⟩,
           ⟨⟨2, ![128, 1495]⟩, cmpi .ne (extractStridedSlice ⟨2, ![128, 1495]⟩ ![0, 1] a3 hs1)
              (extractStridedSlice ⟨2, ![128, 1495]⟩ ![0, 0] a3 hs0)⟩] hc (ix2 b t)
        = cmpi .ne (extractStridedSlice ⟨2, ![128, 1495]⟩ ![0, 1] a3 hs1)
              (extractStridedSlice ⟨2, ![128, 1495]⟩ ![0, 0] a3 hs0) (ix2 b ⟨t.val - 1, ht1⟩) := by
      apply concatenate_pair_apply_right (t := ⟨2, ![128, 1496]⟩) (s₁ := ⟨2, ![128, 1]⟩) (s₂ := ⟨2, ![128, 1495]⟩) 1 _ _ hc (ix2 b t) rfl rfl (ix2 b ⟨t.val - 1, ht1⟩)
      · intro a ha
        match a with
        | ⟨0, _⟩ => rfl
        | ⟨1, _⟩ => exact absurd rfl ha
      · show (t.val - 1) + 1 = t.val
        omega
    rw [hr]
    show IntOp.cmpi .ne _ _ = 1#1 ↔ _
    rw [IntOp.cmpi_ne,
      slice2_axis1_apply 1 a3 hs1 b ⟨t.val - 1, ht1⟩ t (by show t.val = 1 + (t.val - 1); omega),
      slice2_axis1_apply 0 a3 hs0 b ⟨t.val - 1, ht1⟩ ⟨t.val - 1, by omega⟩ (by show t.val - 1 = 0 + (t.val - 1); omega)]
    constructor
    · intro h
      exact Or.inr ⟨t.isLt, h⟩
    · rintro (h | ⟨_, h⟩)
      · exact absurd h ht
      · exact h

end Cert.Mask
-- ==== Proof.KernelFinal.lean ====
/-
  From the blocks to the result array, and through the two host operations after the region.
  The output window is written back at the last time tile of each row tile, where its block holds the
  projections of rows 32·i … 32·i + 31; the four write-backs tile the [128, 1] array. The program's result
  is that array plus the bias broadcast to every row.
-/
import proofs.«132348_j86689619902579_2_alg».proof.Proof.KernelAcc
import proofs.«132348_j86689619902579_2_alg».proof.Proof.MaskFacts
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen

variable (m : (ℓ : Loc nD τ sig) → Buf (Elt Ideal) ℓ) (ρ : Dev nD → PrngReg)

/-- The region's result array: row b holds the projection of row b's completed frame sums. -/
def G (c : Dev nD) : S128x1.Idx → EReal := fun j =>
  ∑ cc : Fin 768, @HMul.hMul EReal EReal EReal instHMul (∑ k ∈ Finset.range 1496, Acc.hw m c (j 0).val cc k) (V m c main_arg1 (ix2 (0 : Fin 1) cc))

/-- What a write-back point writes is its block of that array. -/
theorem flushed_eq (c : Dev nD) (t : Fin cfg0.N) (hf : (cfg0.win 3).flush t = true) :
    (dats m 0 c).flushed 3 t = ((cfg0.win 3).blk t).view.read (Elt Ideal) (G m c) := by
  have h16 := (flush0_3 t).mp hf
  show (cfg0.win 3).cut (grid0.coords t) ((dats m 0 c).after 3 t) = _
  rw [after0_3]
  refine funext fun (j : S32x1.Idx) => ?_
  obtain ⟨r, z, rfl⟩ : ∃ (r : Fin 32) (z : Fin 1), j = ix2 r z := ⟨j 0, j 1, eq_ix2 j⟩
  obtain rfl : z = 0 := Subsingleton.elim _ _
  show (outsAt0 m c t.val t.isLt).1 (ix2 r (0 : Fin 1)) = G m c (((cfg0.win 3).blk t).view.emb (ix2 r (0 : Fin 1)))
  rw [Acc.out_eq m c t h16 r]
  have he : ((((cfg0.win 3).blk t).view.emb (ix2 r (0 : Fin 1))) 0).val = 32 * (t.val / 17) + r.val := by
    show win0_3.index t 0 * 32 + 1 * r.val = _
    rw [(Acc.idx3 t).1]; omega
  show _ = ∑ cc : Fin 768, @HMul.hMul EReal EReal EReal instHMul (∑ k ∈ Finset.range 1496, Acc.hw m c ((((cfg0.win 3).blk t).view.emb (ix2 r (0 : Fin 1))) 0).val cc k) (V m c main_arg1 (ix2 (0 : Fin 1) cc))
  rw [he]

/-- An entry is in point t's block iff each coordinate is in the block's range. -/
theorem mem_blk3 (t : Fin cfg0.N) (i : S128x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v39).slice (win0_3.rect t)).set ↔ _
  rw [View.set_slice_whole, Rect.mem_set_unit]
  exact Iff.rfl

/-- Row b is written back at the last time tile of row tile b / 32. -/
theorem cover (i : S128x1.Idx) : ∃ t : Fin cfg0.N, (cfg0.win 3).flush t = true ∧ i ∈ ((cfg0.win 3).blk t).view.set := by
  have hi0 : (i 0).val < 128 := (i 0).isLt
  have hi1 : (i 1).val < 1 := (i 1).isLt
  have hN : cfg0.N = 68 := N_0
  refine ⟨⟨17 * ((i 0).val / 32) + 16, by omega⟩, (flush0_3 _).mpr (by dsimp only; omega), ?_⟩
  rw [mem_blk3]
  obtain ⟨e0, e1⟩ := Acc.idx3 (⟨17 * ((i 0).val / 32) + 16, by omega⟩ : Fin cfg0.N)
  intro a
  match a with
  | ⟨0, _⟩ =>
    show win0_3.index _ (0 : Fin 2) * 32 ≤ (i 0).val ∧ (i 0).val < win0_3.index _ (0 : Fin 2) * 32 + 32
    rw [e0]; dsimp only; omega
  | ⟨1, _⟩ =>
    show win0_3.index _ (1 : Fin 2) * 1 ≤ (i 1).val ∧ (i 1).val < win0_3.index _ (1 : Fin 2) * 1 + 1
    rw [e1]; omega

/-- So the region's result array ends at G. -/
theorem final (c : Dev nD) : (dats m 0 c).arrAt 3 cfg0.N = G m c :=
  (dats m 0 c).arrAt_eq_of_cover 3 (G m c) (flushed_eq m c) cover

/-- The program's result: the region's array plus the bias, broadcast to every row. -/
def res (c : Dev nD) : S128x1.Idx → EReal :=
  addf (F := Ideal) (s := S128x1) (φ := .f32) (G m c)
    (broadcastInDim S128x1 ![0, 1] bcast_S1x1_S128x1_0_1 (shapeCast S1x1 (m ((c.tc : Thread nD τ).loc main_arg2)) shapeCasts_S1_S1x1))

/-- The two host operations after the region add the bias to the region's array. -/
theorem tail_eq (c : Dev nD) :
    Pipeline.afterTail₀ cfgs (dats m) 0 (V0 m) [hostOps1] c main_v42 = res m c := by
  unfold Pipeline.afterTail₀ res
  simp only [List.flatten_cons, List.flatten_nil, List.append_nil]
  show StableHlo.after hostOps1 _ (Proc.devRef .tc main_v42) = _
  after_results
  rw [Pipeline.withArrays_arr spec0 launch0.win.arr_inj c _ _ 3, final m c,
    Pipeline.withArrays_of_ne _ c (V0 m c) _ main_arg2 (by exact (by decide : ∀ w, Pipeline.arrRef spec0 w ≠ main_arg2))]
  rw [show V0 m c (Proc.devRef .tc main_arg2) = m ((c.tc : Thread nD τ).loc main_arg2) from V_main_arg2 m c]
  rfl

/-- The kernel's run, read: the result at `res`, the five arguments unchanged. -/
theorem run : θ_run defs (onTc (τ := τ) (main (F := Ideal))) ⟨m, fun _ => 0, ρ⟩ (fun r => ∀ c : Dev nD,
      r.2.mem ((c.tc : Thread nD τ).loc main_v42) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v42 (Pipeline.mem_restRefs_of main_v42 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The result at row b: the projection of the completed frame sums plus the bias. -/
theorem res_apply (c : Dev nD) (b : Fin 128) :
    res m c (ix2 b (0 : Fin 1))
      = @HAdd.hAdd EReal EReal EReal instHAdd (G m c (ix2 b (0 : Fin 1))) (m ((c.tc : Thread nD τ).loc main_arg2) (ix1 (0 : Fin 1))) := by
  unfold res
  refine (addf_apply _ _ _).trans ?_
  congr 1
  refine (Cert.Mask.bcast_row (M := 128) (N := 1) bcast_S1x1_S128x1_0_1 _ b (0 : Fin 1)).trans ?_
  exact shapeCast_apply _ shapeCasts_S1_S1x1 (ix2 (0 : Fin 1) (0 : Fin 1)) (ix1 (0 : Fin 1)) (by rw [Shape.rowMajor_val_one, Shape.rowMajor_val_two]; simp)

end Cert.KernelIdeal.Final
end
-- ==== Proof.LibERealSum.lean ====
/-
  The coercion of the reals into the extended reals commutes with finite sums.
-/
import Mathlib.Data.EReal.Basic
import Mathlib.Algebra.BigOperators.Group.Finset.Basic

open scoped BigOperators

namespace Cert.ERealSum

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.ERealSum
-- ==== Proof.KernelValue.lean ====
/-
  The kernel's result is the common closed form.
  At row b the region leaves the sum over the channels of (sum over the frames of hidden state times frame
  weight) times the projection entry, and the tail adds the bias. The hidden states, the projection row and
  the bias are finite, so each is the coercion of a real; the frame weight is the coercion of the real
  reciprocal of (run length) times (number of runs) on the valid frames and zero elsewhere. The frame sum is
  then the coercion of the kernel's form of the feature, which is the reference's form by the run-counting
  identity; sums and products of coercions are coercions.
-/
import proofs.«132348_j86689619902579_2_alg».proof.Proof.KernelFinal
import proofs.«132348_j86689619902579_2_alg».proof.Proof.RowDefs
import proofs.«132348_j86689619902579_2_alg».proof.Proof.LibERealSum

noncomputable section

open Idealize.ShloMosaic Idealize.ShloMosaic.TcCoe Idealize.SL.Sem Idealize.ShloMosaic.ValueIdx
open scoped BigOperators

namespace Cert.KernelIdeal.KValue

open Cert.KernelIdeal Cert.KernelIdeal.Gen

variable (m : (ℓ : Loc nD τ sig) → Buf (Elt Ideal) ℓ)

/-- A finite extended real is the coercion of its real part. -/
theorem coe_toReal_of_real {x : EReal} (h : ∃ r : ℝ, x = (r : EReal)) : ((x.toReal : ℝ) : EReal) = x := by
  obtain ⟨r, rfl⟩ := h
  rw [EReal.toReal_coe]

/-- The frame weight of the kernel, as a real: the reciprocal of (run length) × (number of runs) on a valid
    frame, zero on an invalid one. -/
def wr (a3 : IVec ⟨2, ![128, 1496]⟩ 32) (a4 : IVec ⟨1, ![128]⟩ 32) (s e : ℕ → ℕ) (b : Fin 128) (t : ℕ) : ℝ :=
  if t < Cert.Row.L a4 b then
    1 / max ((((min (e t) (Cert.Row.L a4 b) - s t : ℕ) : ℝ)) * ((((Finset.range 1496).filter (Cert.Row.bnd a3 a4 b)).card : ℕ) : ℝ)) 1
  else 0

/-- Row b of the result, given the weights' reading at row b. -/
theorem res_row (c : Dev nD) (b : Fin 128)
    (h0 : ∀ i, ∃ x : ℝ, (m ((c.tc : Thread nD τ).loc main_arg0)) i = (x : EReal))
    (h1 : ∀ i, ∃ x : ℝ, (m ((c.tc : Thread nD τ).loc main_arg1)) i = (x : EReal))
    (h2 : ∀ i, ∃ x : ℝ, (m ((c.tc : Thread nD τ).loc main_arg2)) i = (x : EReal))
    (hL1 : 1 ≤ Cert.Row.L (m ((c.tc : Thread nD τ).loc main_arg4)) b)
    (s e : ℕ → ℕ)
    (hs : ∀ t, t < Cert.Row.L (m ((c.tc : Thread nD τ).loc main_arg4)) b →
      Cert.Row.bnd (m ((c.tc : Thread nD τ).loc main_arg3)) (m ((c.tc : Thread nD τ).loc main_arg4)) b (s t) ∧ s t ≤ t
        ∧ ∀ k, k ≤ t → Cert.Row.bnd (m ((c.tc : Thread nD τ).loc main_arg3)) (m ((c.tc : Thread nD τ).loc main_arg4)) b k → k ≤ s t)
    (he : ∀ t, t < Cert.Row.L (m ((c.tc : Thread nD τ).loc main_arg4)) b → t < e t ∧ e t ≤ 1496
        ∧ (e t < 1496 → Cert.Row.bnd (m ((c.tc : Thread nD τ).loc main_arg3)) (m ((c.tc : Thread nD τ).loc main_arg4)) b (e t))
        ∧ ∀ k, t < k → k < e t → ¬ Cert.Row.bnd (m ((c.tc : Thread nD τ).loc main_arg3)) (m ((c.tc : Thread nD τ).loc main_arg4)) b k)
    (hw : ∀ t : Fin 1496, V m c main_v38 (ix3 b t (0 : Fin 1))
        = ((wr (m ((c.tc : Thread nD τ).loc main_arg3)) (m ((c.tc : Thread nD τ).loc main_arg4)) s e b t.val : ℝ) : EReal)) :
    Final.res m c (ix2 b (0 : Fin 1))
      = Cert.Row.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b := by
  rw [Final.res_apply]
  -- the frame sum at channel cc is the coercion of the feature
  have hsum : ∀ cc : Fin 768, (∑ k ∈ Finset.range 1496, Acc.hw m c b.val cc k)
      = ((Cert.Row.featRef (m ((c.tc : Thread nD τ).loc main_arg0)) (m ((c.tc : Thread nD τ).loc main_arg3)) (m ((c.tc : Thread nD τ).loc main_arg4)) b cc : ℝ) : EReal) := by
    intro cc
    rw [← Cert.Row.featKer_eq_featRef _ _ _ s e b cc hL1 hs he]
    unfold Cert.Row.featKer
    rw [Cert.ERealSum.coe_sum]
    refine Finset.sum_congr rfl fun k hk => ?_
    have hk' : k < 1496 := Finset.mem_range.mp hk
    unfold Acc.hw
    rw [dif_pos ⟨b.isLt, hk'⟩]
    have e0 : V m c main_arg0 (ix3 ⟨b.val, b.isLt⟩ ⟨k, hk'⟩ cc)
        = ((Cert.Row.hrow (m ((c.tc : Thread nD τ).loc main_arg0)) b cc k : ℝ) : EReal) := by
      unfold Cert.Row.hrow
      rw [dif_pos hk', V_main_arg0 m c]
      exact (coe_toReal_of_real (h0 _)).symm
    have e1 := hw ⟨k, hk'⟩
    rw [EReal.coe_mul]
    show @HMul.hMul EReal EReal EReal instHMul _ _ = _
    rw [e0, e1]
    rfl
  unfold Final.G Cert.Row.G
  rw [EReal.coe_add, Cert.ERealSum.coe_sum]
  congr 1
  · refine Finset.sum_congr rfl fun cc _ => ?_
    show @HMul.hMul EReal EReal EReal instHMul _ _ = _
    rw [hsum cc, EReal.coe_mul, V_main_arg1 m c, coe_toReal_of_real (h1 _)]
  · exact (coe_toReal_of_real (h2 _)).symm

end Cert.KernelIdeal.KValue
end
-- ==== Proof.KernelHostTerm.lean ====
/-
  The frame weights as the kernel's host program computes them, before its pallas_call: the valid mask, the
  run-start mask, each frame's run start (a running maximum of the marked frame numbers) and run end (a reversed
  running minimum of the marked frame numbers moved one frame left), the clipped run length, the number of
  runs, and the reciprocal of their product on the valid frames. The array the region stages as its second
  operand is this composition of the two integer arguments; it is read off the program's operation list
  stretch by stretch.
-/
import proofs.«132348_j86689619902579_2_alg».proof.Proof.Gen.KernelIdeal.Frame
import Idealize.ShloMosaic.Lib.StableHlo.Run
import Idealize.ShloMosaic.Lib.IdealHost
import Idealize.ShloMosaic.Lib.ValueIdx

noncomputable section

namespace Cert.KernelIdeal.HostW

open Cert.KernelIdeal Cert.KernelIdeal.Gen
open Idealize.ShloMosaic Idealize.ShloMosaic.TcCoe Idealize.SL.Sem Idealize.ShloMosaic.StableHlo

/-- The contents of a buffer of shape `s` and element type `e` at the ideal float instance. -/
local notation "𝕋[" s ", " e "]" => BufTy.Contents (Elt Ideal) (BufTy.mk s e)

/-- The frame number, `pos b t = t` as a 32-bit word. -/
def posT : 𝕋[S128x1496, .i32] :=
  broadcastInDim S128x1496 ![0, 1] Gen.bcast_S1x1496_S128x1496_0_1
    (broadcastInDim S1x1496 ![1] Gen.bcast_S1496_S1x1496_1 (iotaInDim S1496 32 0))

/-- The length of row b at every frame of the row. -/
def lenT (a4 : 𝕋[S128, .i32]) : 𝕋[S128x1496, .i32] :=
  broadcastInDim S128x1496 ![0, 1] Gen.bcast_S128x1_S128x1496_0_1 (broadcastInDim S128x1 ![0] Gen.bcast_S128_S128x1_0 a4)

/-- Frame t of row b is inside the row's length, `[t < a4 b]` (signed). -/
def validT (a4 : 𝕋[S128, .i32]) : 𝕋[S128x1496, .i1] := cmpi .slt posT (lenT a4)

/-- A run starts at (b, t): t = 0 or the id differs from the previous frame's, and the frame is valid. -/
def bndT (a3 : 𝕋[S128x1496, .i32]) (a4 : 𝕋[S128, .i32]) : 𝕋[S128x1496, .i1] :=
  andi
    (concatenate S128x1496 1
      [⟨S128x1, broadcastInDim S128x1 ![] Gen.bcast_S_S128x1 (constantI S_ 1 1#1)⟩,
       ⟨S128x1495, cmpi .ne (extractStridedSlice S128x1495 ![0, 1] a3 Gen.slices_S128x1496_S128x1495_0_1)
          (extractStridedSlice S128x1495 ![0, 0] a3 Gen.slices_S128x1496_S128x1495_0_0)⟩]
      Gen.concatenates_S128x1_S128x1495_S128x1496_d1)
    (validT a4)

/-- The frame number at a boundary, the word -1 elsewhere. -/
def markLoT (a3 : 𝕋[S128x1496, .i32]) (a4 : 𝕋[S128, .i32]) : 𝕋[S128x1496, .i32] :=
  select (bndT a3 a4) posT (broadcastInDim S128x1496 ![] Gen.bcast_S_S128x1496 (constantI S_ 32 4294967295#32))

/-- The start of the run a frame lies in: the running signed maximum of `markLoT` along the row. -/
def startT (a3 : 𝕋[S128x1496, .i32]) (a4 : 𝕋[S128, .i32]) : 𝕋[S128x1496, .i32] :=
  Host.reduceWindow IntOp.maxsi ![1, 1496] ![1, 1] ![0, 1495] ![0, 0] (markLoT a3 a4)
    (broadcastInDim S_ ![] Gen.bcast_S_S_ (constantI S_ 32 2147483648#32))
    Gen.reduceWindows_S128x1496_S128x1496_w1s1p0_0_w1496s1p1495_0 Gen.h_S_

/-- The frame number at a boundary, 1496 elsewhere. -/
def markHiT (a3 : 𝕋[S128x1496, .i32]) (a4 : 𝕋[S128, .i32]) : 𝕋[S128x1496, .i32] :=
  select (bndT a3 a4) posT (broadcastInDim S128x1496 ![] Gen.bcast_S_S128x1496 (constantI S_ 32 1496#32))

/-- `markHiT` moved one frame to the left, the last column 1496. -/
def shiftT (a3 : 𝕋[S128x1496, .i32]) (a4 : 𝕋[S128, .i32]) : 𝕋[S128x1496, .i32] :=
  concatenate S128x1496 1
    [⟨S128x1495, extractStridedSlice S128x1495 ![0, 1] (markHiT a3 a4) Gen.slices_S128x1496_S128x1495_0_1⟩,
     ⟨S128x1, broadcastInDim S128x1 ![] Gen.bcast_S_S128x1 (constantI S_ 32 1496#32)⟩]
    Gen.concatenates_S128x1495_S128x1_S128x1496_d1

/-- The exclusive end of the run a frame lies in: the reversed running signed minimum of the reversed `shiftT`. -/
def endT (a3 : 𝕋[S128x1496, .i32]) (a4 : 𝕋[S128, .i32]) : 𝕋[S128x1496, .i32] :=
  Host.reverse [1]
    (Host.reduceWindow IntOp.minsi ![1, 1496] ![1, 1] ![0, 1495] ![0, 0] (Host.reverse [1] (shiftT a3 a4))
      (broadcastInDim S_ ![] Gen.bcast_S_S_ (constantI S_ 32 2147483647#32))
      Gen.reduceWindows_S128x1496_S128x1496_w1s1p0_0_w1496s1p1495_0 Gen.h_S_)

/-- The run's length clipped at the row's length, as a float: `min (end, length) - start`. -/
def cntT (a3 : 𝕋[S128x1496, .i32]) (a4 : 𝕋[S128, .i32]) : 𝕋[S128x1496, .f32] :=
  sitofp (F := Ideal) .f32 (subi (minsi (endT a3 a4) (lenT a4)) (startT a3 a4))

/-- The number of runs of a row: the sum from zero of the boundary bits as floats. -/
def runsT (a3 : 𝕋[S128x1496, .i32]) (a4 : 𝕋[S128, .i32]) : 𝕋[S128, .f32] :=
  Host.reduceAdd (F := Ideal) (uitofp (F := Ideal) .f32 (bndT a3 a4)) (constant (F := Ideal) S_ .f32 0x00000000#32)
    Gen.reducesTo_S128x1496_S128_d1 Gen.h_S_

/-- The reciprocal of max (count · runs, 1). -/
def recT (a3 : 𝕋[S128x1496, .i32]) (a4 : 𝕋[S128, .i32]) : 𝕋[S128x1496, .f32] :=
  Host.divf (F := Ideal) (broadcastInDim S128x1496 ![] Gen.bcast_S_S128x1496 (constant (F := Ideal) S_ .f32 0x3F800000#32))
    (maximumf (F := Ideal)
      (mulf (F := Ideal) (cntT a3 a4)
        (broadcastInDim S128x1496 ![0, 1] Gen.bcast_S128x1_S128x1496_0_1
          (broadcastInDim S128x1 ![0] Gen.bcast_S128_S128x1_0 (runsT a3 a4))))
      (broadcastInDim S128x1496 ![] Gen.bcast_S_S128x1496 (constant (F := Ideal) S_ .f32 0x3F800000#32)))

/-- The weight of a frame: the reciprocal at a valid frame, zero elsewhere. -/
def wT (a3 : 𝕋[S128x1496, .i32]) (a4 : 𝕋[S128, .i32]) : 𝕋[S128x1496, .f32] :=
  select (validT a4) (recT a3 a4)
    (broadcastInDim S128x1496 ![] Gen.bcast_S_S128x1496 (constant (F := Ideal) S_ .f32 0x00000000#32))

/-- The weight array with its unit axis. -/
def wTerm (a3 : 𝕋[S128x1496, .i32]) (a4 : 𝕋[S128, .i32]) : 𝕋[S128x1496x1, .f32] :=
  broadcastInDim S128x1496x1 ![0, 1] Gen.bcast_S128x1496_S128x1496x1_0_1 (wT a3 a4)

/-- Running two stretches is running the first, then the second. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The operations up to the two marked arrays and the run starts. -/
def winA : List (HloOp τ sig (Elt Ideal)) := hostOps0 ++ (hostOps0_1 ++ (hostOps0_2 ++ (hostOps0_3 ++ hostOps0_4)))
/-- The operations from the shifted marks to the run ends. -/
def winB : List (HloOp τ sig (Elt Ideal)) := hostOps0_5 ++ (hostOps0_6 ++ (hostOps0_7 ++ hostOps0_8))
/-- The operations from the run ends to the weights. -/
def winC : List (HloOp τ sig (Elt Ideal)) := hostOps0_9 ++ (hostOps0_10 ++ hostOps0_11)

theorem flat_eq : List.flatten [hostOps0 (F := Ideal), hostOps0_1, hostOps0_2, hostOps0_3, hostOps0_4, hostOps0_5, hostOps0_6, hostOps0_7,
    hostOps0_8, hostOps0_9, hostOps0_10, hostOps0_11] = winA ++ (winB ++ winC) := by
  simp only [winA, winB, winC, List.flatten_cons, List.flatten_nil, List.append_nil, List.append_assoc]

section WinA
variable (V : Valuation τ sig (Elt Ideal))

theorem A_v5 : StableHlo.after winA V (Proc.devRef .tc main_v5) = validT (V (Proc.devRef .tc main_arg4)) := by
  simp only [winA, Gen.hostOps0, Gen.hostOps0_1, Gen.hostOps0_2, Gen.hostOps0_3, Gen.hostOps0_4, List.cons_append, List.nil_append]
  after_results_simp
  rfl
theorem A_v11 : StableHlo.after winA V (Proc.devRef .tc main_v11) = bndT (V (Proc.devRef .tc main_arg3)) (V (Proc.devRef .tc main_arg4)) := by
  simp only [winA, Gen.hostOps0, Gen.hostOps0_1, Gen.hostOps0_2, Gen.hostOps0_3, Gen.hostOps0_4, List.cons_append, List.nil_append]
  after_results_simp
  rfl
attribute [local irreducible] Host.reduceWindow in
theorem A_v15 : StableHlo.after winA V (Proc.devRef .tc main_v15) = startT (V (Proc.devRef .tc main_arg3)) (V (Proc.devRef .tc main_arg4)) := by
  simp only [winA, Gen.hostOps0, Gen.hostOps0_1, Gen.hostOps0_2, Gen.hostOps0_3, Gen.hostOps0_4, List.cons_append, List.nil_append]
  after_results_simp
  rfl
theorem A_v16 : StableHlo.after winA V (Proc.devRef .tc main_v16) = markHiT (V (Proc.devRef .tc main_arg3)) (V (Proc.devRef .tc main_arg4)) := by
  simp only [winA, Gen.hostOps0, Gen.hostOps0_1, Gen.hostOps0_2, Gen.hostOps0_3, Gen.hostOps0_4, List.cons_append, List.nil_append]
  after_results_simp
  rfl
theorem A_arg4 : StableHlo.after winA V (Proc.devRef .tc main_arg4) = V (Proc.devRef .tc main_arg4) := by
  simp only [winA, Gen.hostOps0, Gen.hostOps0_1, Gen.hostOps0_2, Gen.hostOps0_3, Gen.hostOps0_4, List.cons_append, List.nil_append]
  after_results_simp
end WinA

/-- The run ends from the array of marked frame numbers. -/
def endOf (x16 : 𝕋[S128x1496, .i32]) : 𝕋[S128x1496, .i32] :=
  Host.reverse [1]
    (Host.reduceWindow IntOp.minsi ![1, 1496] ![1, 1] ![0, 1495] ![0, 0]
      (Host.reverse [1]
        (concatenate S128x1496 1
          [⟨S128x1495, extractStridedSlice S128x1495 ![0, 1] x16 Gen.slices_S128x1496_S128x1495_0_1⟩,
           ⟨S128x1, broadcastInDim S128x1 ![] Gen.bcast_S_S128x1 (constantI S_ 32 1496#32)⟩]
          Gen.concatenates_S128x1495_S128x1_S128x1496_d1))
      (broadcastInDim S_ ![] Gen.bcast_S_S_ (constantI S_ 32 2147483647#32))
      Gen.reduceWindows_S128x1496_S128x1496_w1s1p0_0_w1496s1p1495_0 Gen.h_S_)

theorem endT_eq (a3 : 𝕋[S128x1496, .i32]) (a4 : 𝕋[S128, .i32]) : endT a3 a4 = endOf (markHiT a3 a4) := rfl

/-- The weights from the lengths, the run ends, the run starts and the two masks. -/
def wOf (a4 : 𝕋[S128, .i32]) (x22 x15 : 𝕋[S128x1496, .i32]) (x11 x5 : 𝕋[S128x1496, .i1]) : 𝕋[S128x1496x1, .f32] :=
  broadcastInDim S128x1496x1 ![0, 1] Gen.bcast_S128x1496_S128x1496x1_0_1
    (select x5
      (Host.divf (F := Ideal) (broadcastInDim S128x1496 ![] Gen.bcast_S_S128x1496 (constant (F := Ideal) S_ .f32 0x3F800000#32))
        (maximumf (F := Ideal)
          (mulf (F := Ideal) (sitofp (F := Ideal) .f32 (subi (minsi x22 (lenT a4)) x15))
            (broadcastInDim S128x1496 ![0, 1] Gen.bcast_S128x1_S128x1496_0_1
              (broadcastInDim S128x1 ![0] Gen.bcast_S128_S128x1_0
                (Host.reduceAdd (F := Ideal) (uitofp (F := Ideal) .f32 x11) (constant (F := Ideal) S_ .f32 0x00000000#32)
                  Gen.reducesTo_S128x1496_S128_d1 Gen.h_S_))))
          (broadcastInDim S128x1496 ![] Gen.bcast_S_S128x1496 (constant (F := Ideal) S_ .f32 0x3F800000#32))))
      (broadcastInDim S128x1496 ![] Gen.bcast_S_S128x1496 (constant (F := Ideal) S_ .f32 0x00000000#32)))

theorem wTerm_eq (a3 : 𝕋[S128x1496, .i32]) (a4 : 𝕋[S128, .i32]) :
    wTerm a3 a4 = wOf a4 (endT a3 a4) (startT a3 a4) (bndT a3 a4) (validT a4) := rfl

end Cert.KernelIdeal.HostW
end
-- ==== Proof.LibCumWindow.lean ====
/-
  CUMULATIVE SCANS ALONG THE LAST AXIS OF A RANK-2 ARRAY, WRITTEN AS A SLIDING WINDOW.

  A running sum / maximum / minimum along axis 1 of an [M, N] array is written as a window reduction with a window
  of 1 × N, stride 1, and N - 1 positions of padding below on axis 1: the window at (b, t) covers columns
  t - (N - 1) … t, of which the negative ones are padding and hold the initial value v. The fold visits the window's
  positions in increasing column order, so it first combines N - 1 - t copies of v (which stay v when f v v = v)
  and then x (b, 0), …, x (b, t) in turn:

      result (b, t) = f (… f (f v (x (b, 0))) (x (b, 1)) …) (x (b, t)).                       (reduceWindow_cum)

  Consequences at 32-bit words:
    * sum of a 0/1-valued row: the number of ones among columns 0 … t                          (cumsum_zero_one)
    * running signed maximum from the least word: an upper bound of x (b, 0 … t) attained at
      one of them                                                                                (cummax_spec)
    * running signed minimum from the greatest word: dually                                     (cummin_spec)
-/
import Idealize.ShloMosaic.PureOps
import Idealize.ShloMosaic.Lib.ValueIdx

namespace Idealize.ShloMosaic.LibCumWindow

open Idealize.ShloMosaic Idealize.ShloMosaic.ValueIdx

/-- A window of shape 1 × N has N positions. -/
theorem window_numel (N : Nat) : (⟨2, ![1, N]⟩ : Shape).numel = N := by
  simp [Shape.numel, Fin.prod_univ_two]

/-- The n-th position of a 1 × N window in row-major order is (0, n). -/
theorem window_pos (N : Nat) (n : Fin (⟨2, ![1, N]⟩ : Shape).numel) :
    (((⟨2, ![1, N]⟩ : Shape).rowMajor.symm n) 0).val = 0 ∧
      (((⟨2, ![1, N]⟩ : Shape).rowMajor.symm n) 1).val = n.val := by
  have key := Shape.rowMajor_val_two (d := ![1, N]) ((⟨2, ![1, N]⟩ : Shape).rowMajor.symm n)
  rw [Equiv.apply_symm_apply] at key
  have h0 : (((⟨2, ![1, N]⟩ : Shape).rowMajor.symm n) 0).val < 1 :=
    (((⟨2, ![1, N]⟩ : Shape).rowMajor.symm n) 0).isLt
  have h0' : (((⟨2, ![1, N]⟩ : Shape).rowMajor.symm n) 0).val = 0 := by omega
  refine ⟨h0', ?_⟩
  rw [h0'] at key
  omega

/-- A left fold whose every step leaves v fixed returns v. -/
theorem foldl_const {α β : Type} (g : α → β → α) (v : α) :
    ∀ l : List β, (∀ m ∈ l, g v m = v) → l.foldl g v = v
  | [], _ => rfl
  | m :: l, h => by
    rw [List.foldl_cons, h m (List.mem_cons_self ..)]
    exact foldl_const g v l fun m' hm' => h m' (List.mem_cons_of_mem _ hm')

/-- The scan along axis 1 written as a 1 × N window padded L = N - 1 below: at (b, t) it is the left fold of f from
    the initial value v over x (b, 0), …, x (b, t), provided f v v = v (the N - 1 - t padding positions that come
    first each combine v with v). -/
theorem reduceWindow_cum {α : Type} {M N L : Nat} (hL : L + 1 = N) (f : α → α → α)
    (x : (⟨2, ![M, N]⟩ : Shape).Idx → α) (init : (⟨0, ![]⟩ : Shape).Idx → α)
    (h : (⟨2, ![M, N]⟩ : Shape).ReduceWindows ![1, N] ![1, 1] ![0, L] ![0, 0] ⟨2, ![M, N]⟩)
    (hu : 0 < (⟨0, ![]⟩ : Shape).numel)
    (hv : f (init ix0) (init ix0) = init ix0) (b : Fin M) (t : Fin N) :
    Host.reduceWindow f ![1, N] ![1, 1] ![0, L] ![0, 0] x init h hu (ix2 b t)
      = (List.range (t.val + 1)).foldl
          (fun r k => f r (if hk : k < N then x (ix2 b ⟨k, hk⟩) else init ix0)) (init ix0) := by
  have hfirst : Shape.Idx.first hu = ix0 := eq_ix0 _
  have htL : t.val ≤ L := by have := t.isLt; omega
  unfold Host.reduceWindow
  simp only [hfirst]
  let g : α → Nat → α := fun r m =>
    f r (if hm : L ≤ t.val + m ∧ t.val + m - L < N then x (ix2 b ⟨t.val + m - L, hm.2⟩) else init ix0)
  refine (List.foldl_ext _ (fun r n => g r n.val) _ (fun r n _ => ?_)).trans ?_
  · obtain ⟨hp0, hp1⟩ := window_pos N n
    show f r _ = f r _
    congr 1
    by_cases hc : L ≤ t.val + n.val ∧ t.val + n.val - L < N
    · rw [dif_pos hc]
      split
      · congr 1
        funext a
        fin_cases a
        · apply Fin.ext
          show b.val * 1 + ((⟨2, ![1, N]⟩ : Shape).rowMajor.symm n 0).val - 0 = b.val
          rw [hp0]; omega
        · apply Fin.ext
          show t.val * 1 + ((⟨2, ![1, N]⟩ : Shape).rowMajor.symm n 1).val - L = t.val + n.val - L
          rw [hp1]; omega
      · rename_i hn
        exfalso; apply hn
        intro a; fin_cases a
        · show 0 ≤ b.val * 1 + ((⟨2, ![1, N]⟩ : Shape).rowMajor.symm n 0).val ∧
            b.val * 1 + ((⟨2, ![1, N]⟩ : Shape).rowMajor.symm n 0).val - 0 < M
          rw [hp0]; have := b.isLt; omega
        · show L ≤ t.val * 1 + ((⟨2, ![1, N]⟩ : Shape).rowMajor.symm n 1).val ∧
            t.val * 1 + ((⟨2, ![1, N]⟩ : Shape).rowMajor.symm n 1).val - L < N
          rw [hp1]; omega
    · rw [dif_neg hc]
      split
      · rename_i hall
        exfalso; apply hc
        have h1 : L ≤ t.val * 1 + ((⟨2, ![1, N]⟩ : Shape).rowMajor.symm n 1).val ∧
            t.val * 1 + ((⟨2, ![1, N]⟩ : Shape).rowMajor.symm n 1).val - L < N := hall 1
        rw [hp1] at h1; omega
      · rfl
  · rw [← List.foldl_map (f := fun n : Fin _ => n.val) (g := g), List.map_coe_finRange_eq_range, window_numel]
    have hr : List.range N = List.range (L - t.val) ++ (List.range (t.val + 1)).map (L - t.val + ·) := by
      rw [← List.range_add]; congr 1; omega
    have hconst : ∀ m ∈ List.range (L - t.val), g (init ix0) m = init ix0 := by
      intro m hm
      have hm' : m < L - t.val := List.mem_range.1 hm
      show f _ (dite _ _ _) = _
      rw [dif_neg (by omega)]; exact hv
    rw [hr, List.foldl_append, foldl_const g _ _ hconst, List.foldl_map]
    refine List.foldl_ext _ _ _ (fun r k hk => ?_)
    have hk' : k < t.val + 1 := List.mem_range.1 hk
    have hkN : k < N := by have := t.isLt; omega
    have e : t.val + (L - t.val + k) - L = k := by omega
    show f r (dite _ _ _) = f r (dite _ _ _)
    rw [dif_pos hkN, dif_pos ⟨by omega, by omega⟩]
    exact congrArg (fun z => f r (x (ix2 b z))) (Fin.ext e)

/-- The running sum of a 0/1-valued sequence counts its ones: after n terms, the number of k < n with y k = 1. -/
theorem foldl_addi_card {N : Nat} (y : Fin N → BitVec 32) (n : Nat) (hn : n ≤ N)
    (h01 : ∀ k : Fin N, k.val < n → y k = 0#32 ∨ y k = 1#32) :
    (List.range n).foldl (fun r k => IntOp.addi r (if hk : k < N then y ⟨k, hk⟩ else 0#32)) 0#32
      = BitVec.ofNat 32 (Finset.univ.filter (fun k : Fin N => k.val < n ∧ y k = 1#32)).card := by
  induction n with
  | zero => simp
  | succ n ih =>
    have hnN : n < N := hn
    rw [List.range_succ, List.foldl_append, ih (by omega) (fun k hk => h01 k (by omega))]
    simp only [List.foldl_cons, List.foldl_nil, dif_pos hnN]
    have hnotin : (⟨n, hnN⟩ : Fin N) ∉ Finset.univ.filter (fun k : Fin N => k.val < n ∧ y k = 1#32) := by
      simp
    rcases h01 ⟨n, hnN⟩ (Nat.lt_succ_self n) with h0 | h1
    · have hset : Finset.univ.filter (fun k : Fin N => k.val < n + 1 ∧ y k = 1#32)
          = Finset.univ.filter (fun k : Fin N => k.val < n ∧ y k = 1#32) := by
        ext k
        simp only [Finset.mem_filter, Finset.mem_univ, true_and]
        constructor
        · rintro ⟨hk, hy⟩
          refine ⟨?_, hy⟩
          rcases Nat.lt_succ_iff_lt_or_eq.1 hk with hlt | heq
          · exact hlt
          · exfalso
            have hkn : k = ⟨n, hnN⟩ := Fin.ext heq
            rw [hkn, h0] at hy
            exact absurd hy (by decide)
        · rintro ⟨hk, hy⟩; exact ⟨by omega, hy⟩
      rw [hset, h0]
      show BitVec.ofNat 32 _ + 0#32 = _
      rw [BitVec.add_zero]
    · have hset : Finset.univ.filter (fun k : Fin N => k.val < n + 1 ∧ y k = 1#32)
          = insert ⟨n, hnN⟩ (Finset.univ.filter (fun k : Fin N => k.val < n ∧ y k = 1#32)) := by
        ext k
        simp only [Finset.mem_insert, Finset.mem_filter, Finset.mem_univ, true_and]
        constructor
        · rintro ⟨hk, hy⟩
          rcases Nat.lt_succ_iff_lt_or_eq.1 hk with hlt | heq
          · exact Or.inr ⟨hlt, hy⟩
          · exact Or.inl (Fin.ext heq)
        · rintro (rfl | ⟨hk, hy⟩)
          · exact ⟨Nat.lt_succ_self n, h1⟩
          · exact ⟨by omega, hy⟩
      rw [hset, Finset.card_insert_of_notMem hnotin, h1, BitVec.ofNat_add]
      rfl

/-- Running sum of a 0/1-valued row: the window scan with + from 0 at (b, t) is the number of columns k ≤ t
    with x (b, k) = 1, as a 32-bit word. -/
theorem cumsum_zero_one {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 0#32) (b : Fin M) (t : Fin N)
    (h01 : ∀ k : Fin N, k.val ≤ t.val → x (ix2 b k) = 0#32 ∨ x (ix2 b k) = 1#32) :
    Host.reduceWindow IntOp.addi ![1, N] ![1, 1] ![0, L] ![0, 0] x init h hu (ix2 b t)
      = BitVec.ofNat 32
          (Finset.univ.filter (fun k : Fin N => k.val ≤ t.val ∧ x (ix2 b k) = 1#32)).card := by
  rw [reduceWindow_cum hL IntOp.addi x init h hu (by rw [hinit]; rfl) b t, hinit]
  rw [foldl_addi_card (fun k => x (ix2 b k)) (t.val + 1) t.isLt (fun k hk => h01 k (by omega))]
  congr 2
  ext k
  simp [Nat.lt_succ_iff]

/-- No word is below the least signed word, so a signed maximum with it returns the other argument. -/
theorem maxsi_intMin (a : BitVec 32) : IntOp.maxsi 2147483648#32 a = a := by
  unfold IntOp.maxsi
  have hlo := BitVec.le_toInt a
  have hm : (2147483648#32 : BitVec 32).toInt = -2147483648 := by decide
  have hn : ¬ (a.slt 2147483648#32 = true) := by
    rw [BitVec.slt_iff_toInt_lt, hm]; norm_num at hlo; omega
  rw [if_neg hn]

/-- No word is above the greatest signed word, so a signed minimum with it returns the other argument. -/
theorem minsi_intMax (a : BitVec 32) : IntOp.minsi 2147483647#32 a = a := by
  unfold IntOp.minsi
  have hhi := BitVec.toInt_le (x := a)
  have hm : (2147483647#32 : BitVec 32).toInt = 2147483647 := by decide
  have hn : ¬ ((2147483647#32 : BitVec 32).slt a = true) := by
    rw [BitVec.slt_iff_toInt_lt, hm]; norm_num at hhi; omega
  rw [if_neg hn]

/-- The running signed maximum, from the least word, of y 0, …, y n is one of them and is at least each of them. -/
theorem foldl_maxsi_spec {N : Nat} (y : Fin N → BitVec 32) (n : Nat) (hn : n + 1 ≤ N) :
    ∃ k : Fin N, k.val ≤ n ∧
      (List.range (n + 1)).foldl
          (fun r k => IntOp.maxsi r (if hk : k < N then y ⟨k, hk⟩ else 2147483648#32)) 2147483648#32 = y k ∧
      ∀ k' : Fin N, k'.val ≤ n → (y k').toInt ≤ (y k).toInt := by
  induction n with
  | zero =>
    have h0 : 0 < N := hn
    refine ⟨⟨0, h0⟩, le_refl _, ?_, ?_⟩
    · simp only [Nat.zero_add, List.range_one, List.foldl_cons, List.foldl_nil, dif_pos h0]
      exact maxsi_intMin _
    · intro k' hk'
      have hk0 : k' = ⟨0, h0⟩ := Fin.ext (by simpa using hk')
      rw [hk0]
  | succ n ih =>
    have hnN : n + 1 < N := hn
    obtain ⟨k, hk, hr, hdom⟩ := ih (by omega)
    rw [List.range_succ, List.foldl_append, hr]
    simp only [List.foldl_cons, List.foldl_nil, dif_pos hnN]
    by_cases hlt : (y ⟨n + 1, hnN⟩).slt (y k) = true
    · refine ⟨k, by omega, ?_, ?_⟩
      · unfold IntOp.maxsi; rw [if_pos hlt]
      · intro k' hk'
        rcases Nat.lt_or_ge k'.val (n + 1) with hlt' | hge'
        · exact hdom k' (by omega)
        · have hkn : k' = ⟨n + 1, hnN⟩ := Fin.ext (by simp only; omega)
          rw [hkn]; exact le_of_lt (BitVec.slt_iff_toInt_lt.1 hlt)
    · refine ⟨⟨n + 1, hnN⟩, le_refl _, ?_, ?_⟩
      · unfold IntOp.maxsi; rw [if_neg hlt]
      · intro k' hk'
        have hge : (y k).toInt ≤ (y ⟨n + 1, hnN⟩).toInt := by
          rw [BitVec.slt_iff_toInt_lt] at hlt; omega
        rcases Nat.lt_or_ge k'.val (n + 1) with hlt' | hge'
        · exact le_trans (hdom k' (by omega)) hge
        · have hkn : k' = ⟨n + 1, hnN⟩ := Fin.ext (by simp only; omega)
          rw [hkn]

/-- The running signed minimum, from the greatest word, of y 0, …, y n is one of them and is at most each of them. -/
theorem foldl_minsi_spec {N : Nat} (y : Fin N → BitVec 32) (n : Nat) (hn : n + 1 ≤ N) :
    ∃ k : Fin N, k.val ≤ n ∧
      (List.range (n + 1)).foldl
          (fun r k => IntOp.minsi r (if hk : k < N then y ⟨k, hk⟩ else 2147483647#32)) 2147483647#32 = y k ∧
      ∀ k' : Fin N, k'.val ≤ n → (y k).toInt ≤ (y k').toInt := by
  induction n with
  | zero =>
    have h0 : 0 < N := hn
    refine ⟨⟨0, h0⟩, le_refl _, ?_, ?_⟩
    · simp only [Nat.zero_add, List.range_one, List.foldl_cons, List.foldl_nil, dif_pos h0]
      exact minsi_intMax _
    · intro k' hk'
      have hk0 : k' = ⟨0, h0⟩ := Fin.ext (by simpa using hk')
      rw [hk0]
  | succ n ih =>
    have hnN : n + 1 < N := hn
    obtain ⟨k, hk, hr, hdom⟩ := ih (by omega)
    rw [List.range_succ, List.foldl_append, hr]
    simp only [List.foldl_cons, List.foldl_nil, dif_pos hnN]
    by_cases hlt : (y k).slt (y ⟨n + 1, hnN⟩) = true
    · refine ⟨k, by omega, ?_, ?_⟩
      · unfold IntOp.minsi; rw [if_pos hlt]
      · intro k' hk'
        rcases Nat.lt_or_ge k'.val (n + 1) with hlt' | hge'
        · exact hdom k' (by omega)
        · have hkn : k' = ⟨n + 1, hnN⟩ := Fin.ext (by simp only; omega)
          rw [hkn]; exact le_of_lt (BitVec.slt_iff_toInt_lt.1 hlt)
    · refine ⟨⟨n + 1, hnN⟩, le_refl _, ?_, ?_⟩
      · unfold IntOp.minsi; rw [if_neg hlt]
      · intro k' hk'
        have hge : (y ⟨n + 1, hnN⟩).toInt ≤ (y k).toInt := by
          rw [BitVec.slt_iff_toInt_lt] at hlt; omega
        rcases Nat.lt_or_ge k'.val (n + 1) with hlt' | hge'
        · exact le_trans hge (hdom k' (by omega))
        · have hkn : k' = ⟨n + 1, hnN⟩ := Fin.ext (by simp only; omega)
          rw [hkn]

/-- Running signed maximum along a row, from the least word: the window scan at (b, t) is x (b, k) for some column
    k ≤ t, and that value is at least every x (b, k') with k' ≤ t. -/
theorem cummax_attained {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483648#32) (b : Fin M) (t : Fin N) :
    ∃ k : Fin N, k.val ≤ t.val ∧
      Host.reduceWindow IntOp.maxsi ![1, N] ![1, 1] ![0, L] ![0, 0] x init h hu (ix2 b t) = x (ix2 b k) ∧
      ∀ k' : Fin N, k'.val ≤ t.val → (x (ix2 b k')).toInt ≤ (x (ix2 b k)).toInt := by
  rw [reduceWindow_cum hL IntOp.maxsi x init h hu (by rw [hinit]; exact maxsi_intMin _) b t, hinit]
  exact foldl_maxsi_spec (fun k => x (ix2 b k)) t.val t.isLt

/-- The same, as a bound and an attainment: the running signed maximum at (b, t) is at least every x (b, k), k ≤ t,
    and equals one of them. -/
theorem cummax_spec {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483648#32) (b : Fin M) (t : Fin N) :
    (∀ k : Fin N, k.val ≤ t.val → (x (ix2 b k)).toInt
        ≤ (Host.reduceWindow IntOp.maxsi ![1, N] ![1, 1] ![0, L] ![0, 0] x init h hu (ix2 b t)).toInt) ∧
      ∃ k : Fin N, k.val ≤ t.val ∧
        Host.reduceWindow IntOp.maxsi ![1, N] ![1, 1] ![0, L] ![0, 0] x init h hu (ix2 b t) = x (ix2 b k) := by
  obtain ⟨k, hk, hr, hdom⟩ := cummax_attained hL x init h hu hinit b t
  rw [hr]
  exact ⟨hdom, k, hk, rfl⟩

/-- Running signed minimum along a row, from the greatest word: the window scan at (b, t) is x (b, k) for some
    column k ≤ t, and that value is at most every x (b, k') with k' ≤ t. -/
theorem cummin_attained {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483647#32) (b : Fin M) (t : Fin N) :
    ∃ k : Fin N, k.val ≤ t.val ∧
      Host.reduceWindow IntOp.minsi ![1, N] ![1, 1] ![0, L] ![0, 0] x init h hu (ix2 b t) = x (ix2 b k) ∧
      ∀ k' : Fin N, k'.val ≤ t.val → (x (ix2 b k)).toInt ≤ (x (ix2 b k')).toInt := by
  rw [reduceWindow_cum hL IntOp.minsi x init h hu (by rw [hinit]; exact minsi_intMax _) b t, hinit]
  exact foldl_minsi_spec (fun k => x (ix2 b k)) t.val t.isLt

/-- The same, as a bound and an attainment: the running signed minimum at (b, t) is at most every x (b, k), k ≤ t,
    and equals one of them. -/
theorem cummin_spec {M N L : Nat} (hL : L + 1 = N)
    (x : (⟨2, ![M, N]⟩ : Shape).Idx → BitVec 32) (init : (⟨0, ![]⟩ : Shape).Idx → BitVec 32)
    (h : (⟨2, ![M, N]⟩ : Shape).ReduceWindows ![1, N] ![1, 1] ![0, L] ![0, 0] ⟨2, ![M, N]⟩)
    (hu : 0 < (⟨0, ![]⟩ : Shape).numel) (hinit : init ix0 = 2147483647#32) (b : Fin M) (t : Fin N) :
    (∀ k : Fin N, k.val ≤ t.val →
        (Host.reduceWindow IntOp.minsi ![1, N] ![1, 1] ![0, L] ![0, 0] x init h hu (ix2 b t)).toInt
          ≤ (x (ix2 b k)).toInt) ∧
      ∃ k : Fin N, k.val ≤ t.val ∧
        Host.reduceWindow IntOp.minsi ![1, N] ![1, 1] ![0, L] ![0, 0] x init h hu (ix2 b t) = x (ix2 b k) := by
  obtain ⟨k, hk, hr, hdom⟩ := cummin_attained hL x init h hu hinit b t
  rw [hr]
  exact ⟨hdom, k, hk, rfl⟩

end Idealize.ShloMosaic.LibCumWindow
-- ==== Proof.KernelHostStart.lean ====
/-
  The start of a frame's run, as the kernel's host code computes it.

  For a row b, a frame k is a boundary when it is valid and is frame 0 or carries an id different from frame k - 1's.
  The low mark of frame k is the word k at a boundary and the word -1 elsewhere; the start array is the running signed
  maximum of the low marks along the row. In a row with at least one valid frame, frame 0 is a boundary with mark 0,
  so the maximum over frames 0 … t is attained at a boundary (a non-boundary's mark -1 is below 0); a boundary's mark is
  its frame number, so the maximum is the frame number of the last boundary at or before t.
  Also here: the masks, the frame number and the broadcast length read at an entry, and the two marks by cases.
-/
import proofs.«132348_j86689619902579_2_alg».proof.Proof.KernelHostTerm
import proofs.«132348_j86689619902579_2_alg».proof.Proof.RowDefs
import proofs.«132348_j86689619902579_2_alg».proof.Proof.MaskFacts
import proofs.«132348_j86689619902579_2_alg».proof.Proof.LibCumWindow
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HostW

open Cert.KernelIdeal Cert.KernelIdeal.Gen
open Idealize.ShloMosaic Idealize.ShloMosaic.TcCoe Idealize.SL.Sem Idealize.ShloMosaic.StableHlo

open Idealize.ShloMosaic.ValueIdx

/-! ## The masks, the frame number and the length read at an entry -/

/-- The frame number at (b, t) is the word t. -/
theorem posT_apply (b : Fin 128) (t : Fin 1496) : posT (ix2 b t) = BitVec.ofNat 32 t.val := by
  unfold posT
  rw [Cert.Mask.bcast_row, Cert.Mask.bcast_vec_row, iotaInDim_apply]

/-- The broadcast length at (b, t) is the length of row b. -/
theorem lenT_apply (a4 : IVec S128 32) (b : Fin 128) (t : Fin 1496) : lenT a4 (ix2 b t) = a4 (ix1 b) := by
  unfold lenT
  rw [Cert.Mask.bcast_col, Cert.Mask.bcast_vec_col]

/-- The validity bit at (b, t) is set exactly when t is below the clipped length. -/
theorem validT_iff (a4 : IVec S128 32) (b : Fin 128) (t : Fin 1496) :
    validT a4 (ix2 b t) = 1#1 ↔ t.val < Cert.Row.L a4 b := by
  unfold validT posT lenT
  exact Cert.Mask.valid_iff a4 _ _ _ _ b t

/-- The boundary bit at (b, t) is set exactly when frame t starts a run. -/
theorem bndT_iff (a3 : IVec S128x1496 32) (a4 : IVec S128 32) (b : Fin 128) (t : Fin 1496) :
    bndT a3 a4 (ix2 b t) = 1#1 ↔ Cert.Row.bnd a3 a4 b t.val := by
  unfold bndT validT posT lenT
  exact Cert.Mask.boundary_iff a3 a4 _ _ _ _ _ _ _ _ b t

/-- At a boundary the low mark is the frame number. -/
theorem markLoT_of_bnd (a3 : IVec S128x1496 32) (a4 : IVec S128 32) (b : Fin 128) (t : Fin 1496)
    (h : Cert.Row.bnd a3 a4 b t.val) : markLoT a3 a4 (ix2 b t) = BitVec.ofNat 32 t.val := by
  unfold markLoT
  rw [select_apply, (bndT_iff a3 a4 b t).mpr h, select_one, posT_apply]

/-- Off a boundary the low mark is the word -1. -/
theorem markLoT_of_not_bnd (a3 : IVec S128x1496 32) (a4 : IVec S128 32) (b : Fin 128) (t : Fin 1496)
    (h : ¬ Cert.Row.bnd a3 a4 b t.val) : markLoT a3 a4 (ix2 b t) = 4294967295#32 := by
  unfold markLoT
  rw [select_apply, eq_zero_of_ne_one (mt (bndT_iff a3 a4 b t).mp h), select_zero, broadcastInDim_scalar_apply,
    constantI_apply]

/-- At a boundary the high mark is the frame number. -/
theorem markHiT_of_bnd (a3 : IVec S128x1496 32) (a4 : IVec S128 32) (b : Fin 128) (t : Fin 1496)
    (h : Cert.Row.bnd a3 a4 b t.val) : markHiT a3 a4 (ix2 b t) = BitVec.ofNat 32 t.val := by
  unfold markHiT
  rw [select_apply, (bndT_iff a3 a4 b t).mpr h, select_one, posT_apply]

/-- Off a boundary the high mark is the word 1496. -/
theorem markHiT_of_not_bnd (a3 : IVec S128x1496 32) (a4 : IVec S128 32) (b : Fin 128) (t : Fin 1496)
    (h : ¬ Cert.Row.bnd a3 a4 b t.val) : markHiT a3 a4 (ix2 b t) = 1496#32 := by
  unfold markHiT
  rw [select_apply, eq_zero_of_ne_one (mt (bndT_iff a3 a4 b t).mp h), select_zero, broadcastInDim_scalar_apply,
    constantI_apply]

/-! ## The start of a frame's run -/

/-- The running maximum of the low marks at (b, t) is the word of the last boundary at or before t: frame 0 is a
    boundary of a row with a valid frame, so the maximum is attained at a boundary, whose mark is its frame number,
    and it dominates every boundary's frame number up to t. -/
theorem startT_spec (a3 : IVec S128x1496 32) (a4 : IVec S128 32) (b : Fin 128) (hL : 1 ≤ Cert.Row.L a4 b)
    (t : Fin 1496) :
    ∃ k : ℕ, k ≤ t.val ∧ Cert.Row.bnd a3 a4 b k ∧ (∀ k', k' ≤ t.val → Cert.Row.bnd a3 a4 b k' → k' ≤ k) ∧
      startT a3 a4 (ix2 b t) = BitVec.ofNat 32 k := by
  unfold startT
  obtain ⟨k, hk, hr, hdom⟩ := Idealize.ShloMosaic.LibCumWindow.cummax_attained (by norm_num) (markLoT a3 a4)
    (broadcastInDim S_ ![] Gen.bcast_S_S_ (constantI S_ 32 2147483648#32))
    Gen.reduceWindows_S128x1496_S128x1496_w1s1p0_0_w1496s1p1495_0 Gen.h_S_
    (by rw [broadcastInDim_scalar_apply, constantI_apply]) b t
  have hβ0 : Cert.Row.bnd a3 a4 b ((⟨0, by norm_num⟩ : Fin 1496)).val := ⟨hL, Or.inl rfl⟩
  have h0 := hdom ⟨0, by norm_num⟩ (Nat.zero_le _)
  rw [markLoT_of_bnd a3 a4 b ⟨0, by norm_num⟩ hβ0, Cert.Mask.toInt_frame 0 (by norm_num)] at h0
  by_cases hbk : Cert.Row.bnd a3 a4 b k.val
  · refine ⟨k.val, hk, hbk, ?_, by rw [hr, markLoT_of_bnd a3 a4 b k hbk]⟩
    intro k' hk' hb'
    have hk'lt : k' < 1496 := by have := t.isLt; omega
    have hle := hdom ⟨k', hk'lt⟩ hk'
    rw [markLoT_of_bnd a3 a4 b ⟨k', hk'lt⟩ hb', markLoT_of_bnd a3 a4 b k hbk, Cert.Mask.toInt_frame k' hk'lt,
      Cert.Mask.toInt_frame k.val k.isLt] at hle
    exact_mod_cast hle
  · exfalso
    rw [markLoT_of_not_bnd a3 a4 b k hbk] at h0
    have hm1 : (4294967295#32 : BitVec 32).toInt = -1 := by decide
    rw [hm1] at h0
    omega

end Cert.KernelIdeal.HostW
end
-- ==== Proof.SegFacts.lean ====
/-
The running count of run starts as a word, and the table row a frame is accumulated into.

The windowed sum, from zero, of the 0/1 widening of the boundary mask along a row is, at frame t, the number
C t of boundaries at positions ≤ t, as a 32-bit word.  The table row of frame t of batch row b is
max (C t - 1) 0 + 1496 · b on 32-bit words; since C t ≤ 1496 and b < 128 nothing wraps, and read signed it is
b · 1496 + seg t with seg t = C t - 1 (truncated subtraction, which is what the maximum with zero computes).
-/
import proofs.«132348_j86689619902579_2_alg».proof.Proof.RowDefs
import proofs.«132348_j86689619902579_2_alg».proof.Proof.LibCumWindow
import Idealize.ShloMosaic.PureOps
import Idealize.ShloMosaic.Lib.ValueIdx

noncomputable section

namespace Cert.Seg

open Idealize.ShloMosaic Idealize.ShloMosaic.ValueIdx
open scoped BigOperators

/-- A natural number below 2³¹, as a 32-bit word, reads itself signed. -/
theorem toInt_small (n : ℕ) (hn : n < 2 ^ 31) : (BitVec.ofNat 32 n).toInt = (n : ℤ) := by
  rw [BitVec.toInt_eq_toNat_of_lt (by rw [BitVec.toNat_ofNat]; omega), BitVec.toNat_ofNat]
  omega

/-- The widening of a one-bit word is the word 1 exactly when the bit is 1. -/
theorem setWidth_eq_one (c : BitVec 1) : c.setWidth 32 = 1#32 ↔ c = 1#1 := by
  rcases BitVec.eq_zero_or_eq_one c with h | h <;> subst h <;> decide

/-- The widening of a one-bit word is 0 or 1. -/
theorem setWidth_zero_or_one (c : BitVec 1) : c.setWidth 32 = 0#32 ∨ c.setWidth 32 = 1#32 := by
  rcases BitVec.eq_zero_or_eq_one c with h | h <;> subst h
  · left; decide
  · right; decide

/-- The windowed sum of the widened boundary mask is the count of boundaries so far. -/
theorem cumsum_of_mask (a3 : IVec ⟨2, ![128, 1496]⟩ 32) (a4 : IVec ⟨1, ![128]⟩ 32)
    (B : IVec ⟨2, ![128, 1496]⟩ 1)
    (hB : ∀ (b : Fin 128) (t : Fin 1496), B (ix2 b t) = 1#1 ↔ Cert.Row.bnd a3 a4 b t.val)
    (hlt : 1 < 32) (init : (⟨0, ![]⟩ : Shape).Idx → BitVec 32) (hinit : init ix0 = 0#32)
    (h : (⟨2, ![128, 1496]⟩ : Shape).ReduceWindows ![1, 1496] ![1, 1] ![0, 1495] ![0, 0] ⟨2, ![128, 1496]⟩)
    (hu : 0 < (⟨0, ![]⟩ : Shape).numel) (b : Fin 128) (t : Fin 1496) :
    Host.reduceWindow IntOp.addi ![1, 1496] ![1, 1] ![0, 1495] ![0, 0] (extui 32 B hlt) init h hu (ix2 b t)
      = BitVec.ofNat 32 (Cert.RunMath.C (Cert.Row.bnd a3 a4 b) t.val) := by
  rw [LibCumWindow.cumsum_zero_one (by norm_num : 1495 + 1 = 1496) _ init h hu hinit b t
    (fun k _ => setWidth_zero_or_one (B (ix2 b k)))]
  congr 1
  unfold Cert.RunMath.C
  apply Finset.card_bij (fun k _ => k.val)
  · intro k hk
    simp only [Finset.mem_filter, Finset.mem_univ, true_and] at hk
    simp only [Finset.mem_filter, Finset.mem_range]
    refine ⟨by omega, ?_⟩
    have h1 : (B (ix2 b k)).setWidth 32 = 1#32 := hk.2
    exact (hB b k).mp ((setWidth_eq_one _).mp h1)
  · intro k _ k' _ hkk
    exact Fin.ext hkk
  · intro n hn
    simp only [Finset.mem_filter, Finset.mem_range] at hn
    have hnlt : n < 1496 := by have := t.isLt; omega
    refine ⟨⟨n, hnlt⟩, ?_, rfl⟩
    simp only [Finset.mem_filter, Finset.mem_univ, true_and]
    refine ⟨by show n ≤ t.val; omega, ?_⟩
    show (B (ix2 b ⟨n, hnlt⟩)).setWidth 32 = 1#32
    exact (setWidth_eq_one _).mpr ((hB b ⟨n, hnlt⟩).mpr hn.2)

/-- The count at a frame of the row is at most the number of frames. -/
theorem C_le (β : ℕ → Prop) [DecidablePred β] (t : ℕ) : Cert.RunMath.C β t ≤ t + 1 := by
  unfold Cert.RunMath.C
  calc ((Finset.range (t + 1)).filter β).card ≤ (Finset.range (t + 1)).card := Finset.card_filter_le _ _
    _ = t + 1 := Finset.card_range _

/-- `max (c - 1) 0` on words, for a count `c ≤ 1496`, is the word of the truncated predecessor. -/
theorem maxsi_pred (c : ℕ) (hc : c ≤ 1496) :
    IntOp.maxsi (IntOp.subi (BitVec.ofNat 32 c) 1#32) 0#32 = BitVec.ofNat 32 (c - 1) := by
  unfold IntOp.maxsi IntOp.subi
  rcases Nat.eq_zero_or_pos c with h0 | hpos
  · subst h0; decide
  · have hx : BitVec.ofNat 32 c - 1#32 = BitVec.ofNat 32 (c - 1) := by
      apply BitVec.eq_of_toNat_eq
      rw [BitVec.toNat_sub, BitVec.toNat_ofNat, BitVec.toNat_ofNat, BitVec.toNat_ofNat]
      omega
    rw [hx]
    split
    · rfl
    · rename_i hns
      rw [BitVec.slt_iff_toInt_lt] at hns
      have h1 : (BitVec.ofNat 32 (c - 1)).toInt = ((c - 1 : ℕ) : ℤ) := toInt_small (c - 1) (by omega)
      have h2 : (0#32 : BitVec 32).toInt = 0 := by decide
      rw [h1, h2] at hns
      have h3 : c - 1 = 0 := by omega
      rw [h3]

/-- The table row of a frame: no wrap, and read signed it is `b · 1496 + (c - 1)`. -/
theorem segword_toInt (c b : ℕ) (hc : c ≤ 1496) (hb : b < 128) :
    (IntOp.addi (IntOp.maxsi (IntOp.subi (BitVec.ofNat 32 c) 1#32) 0#32)
        (IntOp.muli (BitVec.ofNat 32 b) 1496#32)).toInt = ((b * 1496 + (c - 1) : ℕ) : ℤ) := by
  rw [maxsi_pred c hc]
  unfold IntOp.addi IntOp.muli
  rw [show (1496#32 : BitVec 32) = BitVec.ofNat 32 1496 from rfl, ← BitVec.ofNat_mul, ← BitVec.ofNat_add,
    toInt_small _ (by omega)]
  congr 1
  omega

end Cert.Seg
-- ==== Proof.LibReverse.lean ====
/-
  A reversal along the second axis of a rank-2 array, read at one element: `reverse [1] x (b, t) = x (b, N - 1 - t)`.
  (`Host.reverse axes x j = x (fun a => if a ∈ axes then (j a).rev else j a)`, and `Fin.rev t` has value `N - 1 - t`,
  written `N - (t + 1)`.)
-/
import Idealize.ShloMosaic.Lib.ValueIdx
import Idealize.ShloMosaic.PureOps.ShapeOps

namespace Idealize.ShloMosaic.LibReverse

open Idealize.ShloMosaic Idealize.ShloMosaic.ValueIdx

variable {M N : Nat} {α : Type}

/-- Reversing the second axis reads the mirrored column (as `Fin.rev`). -/
theorem reverse1_apply_rev (x : (⟨2, ![M, N]⟩ : Shape).Idx → α) (b : Fin M) (t : Fin N) :
    Host.reverse (s := ⟨2, ![M, N]⟩) [1] x (ix2 b t) = x (ix2 b t.rev) := by
  unfold Host.reverse
  congr 1
  funext a
  match a with
  | ⟨0, _⟩ => rfl
  | ⟨1, _⟩ => rfl

/-- Reversing the second axis reads column `N - 1 - t`. -/
theorem reverse1_apply (x : (⟨2, ![M, N]⟩ : Shape).Idx → α) (b : Fin M) (t : Fin N) :
    Host.reverse (s := ⟨2, ![M, N]⟩) [1] x (ix2 b t) = x (ix2 b ⟨N - 1 - t.val, by have := t.isLt; omega⟩) := by
  rw [reverse1_apply_rev]
  congr 2
  apply Fin.ext
  simp only [Fin.val_rev]
  omega

end Idealize.ShloMosaic.LibReverse
-- ==== Proof.KernelHostEnd.lean ====
/-
  The exclusive end of a frame's run, as the kernel's host code computes it.

  The high mark of frame k is the word k at a boundary and the word 1496 elsewhere. The shifted row holds at column j
  the high mark of frame j + 1, and 1496 in the last column: read signed, j + 1 when frame j + 1 exists and is a
  boundary, 1496 otherwise. The end array is the reversal of the running signed minimum of the reversed shifted row,
  so at (b, t) it is the minimum of the shifted row over the columns j ≥ t: the frame number of the first boundary
  after t, or 1496 when there is none. Every term of the minimum exceeds t, so t < end ≤ 1496; a boundary k with
  t < k contributes the term k (at column k - 1), so no boundary lies strictly between t and the end.
-/
import proofs.«132348_j86689619902579_2_alg».proof.Proof.KernelHostStart
import proofs.«132348_j86689619902579_2_alg».proof.Proof.SegFacts
import proofs.«132348_j86689619902579_2_alg».proof.Proof.LibReverse

noncomputable section

namespace Cert.KernelIdeal.HostW

open Cert.KernelIdeal Cert.KernelIdeal.Gen
open Idealize.ShloMosaic Idealize.ShloMosaic.TcCoe Idealize.SL.Sem Idealize.ShloMosaic.StableHlo

open Idealize.ShloMosaic.ValueIdx

/-! ## The shifted high marks -/

/-- Before the last column the shifted row reads the high mark one frame later. -/
theorem shiftT_apply_lt (a3 : IVec S128x1496 32) (a4 : IVec S128 32) (b : Fin 128) (j : Fin 1496)
    (hj : j.val + 1 < 1496) : shiftT a3 a4 (ix2 b j) = markHiT a3 a4 (ix2 b ⟨j.val + 1, hj⟩) := by
  unfold shiftT
  have hj' : j.val < 1495 := by omega
  refine (concatenate_pair_apply_left (t := S128x1496) (s₁ := S128x1495) (s₂ := S128x1) 1 _ _ _ (ix2 b j) rfl
    (ix2 b ⟨j.val, hj'⟩) ?_).trans ?_
  · intro a
    match a with
    | ⟨0, _⟩ => rfl
    | ⟨1, _⟩ => rfl
  · exact slice2_axis1_apply 1 (markHiT a3 a4) _ b ⟨j.val, hj'⟩ ⟨j.val + 1, hj⟩ (by show j.val + 1 = 1 + j.val; omega)

/-- The last column of the shifted row is the word 1496. -/
theorem shiftT_apply_last (a3 : IVec S128x1496 32) (a4 : IVec S128 32) (b : Fin 128) (j : Fin 1496)
    (hj : j.val = 1495) : shiftT a3 a4 (ix2 b j) = 1496#32 := by
  unfold shiftT
  refine (concatenate_pair_apply_right (t := S128x1496) (s₁ := S128x1495) (s₂ := S128x1) 1 _ _ _ (ix2 b j) rfl rfl
    (ix2 b 0) ?_ ?_).trans ?_
  · intro a ha
    match a with
    | ⟨0, _⟩ => rfl
    | ⟨1, _⟩ => exact absurd rfl ha
  · show (0 : ℕ) + 1495 = j.val
    omega
  · rw [broadcastInDim_scalar_apply, constantI_apply]

/-- The shifted row at j, read signed: j + 1 when frame j + 1 exists and is a boundary, else 1496. -/
theorem shiftT_toInt_of_bnd (a3 : IVec S128x1496 32) (a4 : IVec S128 32) (b : Fin 128) (j : Fin 1496)
    (hj : j.val + 1 < 1496) (hb : Cert.Row.bnd a3 a4 b (j.val + 1)) :
    shiftT a3 a4 (ix2 b j) = BitVec.ofNat 32 (j.val + 1) := by
  rw [shiftT_apply_lt a3 a4 b j hj, markHiT_of_bnd a3 a4 b ⟨j.val + 1, hj⟩ hb]

theorem shiftT_of_not_bnd (a3 : IVec S128x1496 32) (a4 : IVec S128 32) (b : Fin 128) (j : Fin 1496)
    (hb : ¬ (j.val + 1 < 1496 ∧ Cert.Row.bnd a3 a4 b (j.val + 1))) : shiftT a3 a4 (ix2 b j) = 1496#32 := by
  by_cases hj : j.val + 1 < 1496
  · rw [shiftT_apply_lt a3 a4 b j hj, markHiT_of_not_bnd a3 a4 b ⟨j.val + 1, hj⟩ (fun h => hb ⟨hj, h⟩)]
  · exact shiftT_apply_last a3 a4 b j (by have := j.isLt; omega)

/-! ## The end of a frame's run -/

/-- The reversed running minimum of the reversed shifted row at (b, t) is the minimum of the shifted row over the
    columns j ≥ t: the word of the first boundary after t, or 1496 when there is none. -/
theorem endT_spec (a3 : IVec S128x1496 32) (a4 : IVec S128 32) (b : Fin 128) (t : Fin 1496) :
    ∃ e : ℕ, t.val < e ∧ e ≤ 1496 ∧ (e < 1496 → Cert.Row.bnd a3 a4 b e) ∧
      (∀ k, t.val < k → k < e → ¬ Cert.Row.bnd a3 a4 b k) ∧ endT a3 a4 (ix2 b t) = BitVec.ofNat 32 e := by
  unfold endT
  rw [Idealize.ShloMosaic.LibReverse.reverse1_apply_rev]
  obtain ⟨k, hk, hr, hdom⟩ := Idealize.ShloMosaic.LibCumWindow.cummin_attained (by norm_num)
    (Host.reverse (s := S128x1496) [1] (shiftT a3 a4))
    (broadcastInDim S_ ![] Gen.bcast_S_S_ (constantI S_ 32 2147483647#32))
    Gen.reduceWindows_S128x1496_S128x1496_w1s1p0_0_w1496s1p1495_0 Gen.h_S_
    (by rw [broadcastInDim_scalar_apply, constantI_apply]) b t.rev
  rw [hr, Idealize.ShloMosaic.LibReverse.reverse1_apply_rev]
  have ht := t.isLt
  have hkv : k.val ≤ 1496 - (t.val + 1) := by simpa [Fin.val_rev] using hk
  have hjv : (k.rev).val = 1496 - (k.val + 1) := Fin.val_rev k
  have hjt : t.val ≤ (k.rev).val := by have := k.isLt; omega
  -- the minimum is below the shifted row at every column from t on
  have hdom' : ∀ j0 : Fin 1496, t.val ≤ j0.val →
      (shiftT a3 a4 (ix2 b k.rev)).toInt ≤ (shiftT a3 a4 (ix2 b j0)).toInt := by
    intro j0 hj0
    have h1 := hdom j0.rev (by rw [Fin.val_rev, Fin.val_rev]; have := j0.isLt; omega)
    rw [Idealize.ShloMosaic.LibReverse.reverse1_apply_rev, Idealize.ShloMosaic.LibReverse.reverse1_apply_rev,
      Fin.rev_rev] at h1
    exact h1
  have h1496 : (1496#32 : BitVec 32).toInt = 1496 := by decide
  -- a boundary strictly after t bounds the minimum
  have hbound : ∀ k0, t.val < k0 → k0 < 1496 → Cert.Row.bnd a3 a4 b k0 →
      (shiftT a3 a4 (ix2 b k.rev)).toInt ≤ (k0 : ℤ) := by
    intro k0 h0 h1 hb0
    have hj0 : k0 - 1 < 1496 := by omega
    have hk0 : (k0 - 1) + 1 = k0 := by omega
    have h2 := hdom' ⟨k0 - 1, hj0⟩ (by show t.val ≤ k0 - 1; omega)
    rw [shiftT_toInt_of_bnd a3 a4 b ⟨k0 - 1, hj0⟩ (by show (k0 - 1) + 1 < 1496; omega) (by show Cert.Row.bnd a3 a4 b ((k0 - 1) + 1); rw [hk0]; exact hb0)] at h2
    rw [show ((⟨k0 - 1, hj0⟩ : Fin 1496).val + 1) = k0 from hk0, Cert.Seg.toInt_small k0 (by omega)] at h2
    exact h2
  by_cases hc : (k.rev).val + 1 < 1496 ∧ Cert.Row.bnd a3 a4 b ((k.rev).val + 1)
  · have hval := shiftT_toInt_of_bnd a3 a4 b k.rev hc.1 hc.2
    refine ⟨(k.rev).val + 1, by omega, by omega, fun _ => hc.2, ?_, hval⟩
    intro k0 h0 h1 hb0
    have h2 := hbound k0 h0 (by omega) hb0
    rw [hval, Cert.Seg.toInt_small _ (by omega)] at h2
    omega
  · have hval := shiftT_of_not_bnd a3 a4 b k.rev hc
    refine ⟨1496, ht, le_refl _, fun h => absurd h (lt_irrefl _), ?_, hval⟩
    intro k0 h0 h1 hb0
    have h2 := hbound k0 h0 h1 hb0
    rw [hval, h1496] at h2
    omega

end Cert.KernelIdeal.HostW
end
-- ==== Proof.KernelHostWeight.lean ====
/-
  The weight of a frame, as the kernel's host code computes it, in closed form.

  With s the start and e the exclusive end of the run frame t of row b lies in, L the row's clipped length and R the
  number of boundary frames of the row:
    * min (e, length) - s on 32-bit words does not wrap (e ≤ 1496, 1 ≤ length, s ≤ t < min (e, L)) and, read signed,
      is the natural number min (e, L) - s; its conversion to a float at the ideal values is that number exactly;
    * the sum from zero of the boundary bits as floats is R;
    * max (count · R, 1) ≥ 1 is not zero, so the quotient 1 / max (count · R, 1) is real division;
    * a frame outside the length gets the weight 0.
  Hence weight (b, t) = 1 / max ((min (e, L) - s) · R, 1) at a valid frame and 0 elsewhere, where s and e have the
  defining properties of a run's start and end (weight_eq).
-/
import proofs.«132348_j86689619902579_2_alg».proof.Proof.KernelHostEnd
import proofs.«132348_j86689619902579_2_alg».proof.Proof.LibERealSum

noncomputable section

namespace Cert.KernelIdeal.HostW

open Cert.KernelIdeal Cert.KernelIdeal.Gen
open Idealize.ShloMosaic Idealize.ShloMosaic.TcCoe Idealize.SL.Sem Idealize.ShloMosaic.StableHlo

open Idealize.ShloMosaic.ValueIdx

open scoped BigOperators

/-! ## The count word, the number of runs, and the weight -/

/-- min (e, length) - start on 32-bit words, read signed, is the natural number min (e, L) - s: nothing wraps, since
    e ≤ 1496, the length is at least 1 and the start is at most the minimum. -/
theorem cnt_word (e s : ℕ) (l : BitVec 32) (he : e ≤ 1496) (hl : 1 ≤ l.toInt)
    (hs : s ≤ min e (min l.toInt.toNat 1496)) :
    (IntOp.subi (IntOp.minsi (BitVec.ofNat 32 e) l) (BitVec.ofNat 32 s)).toInt
      = ((min e (min l.toInt.toNat 1496) - s : ℕ) : ℤ) := by
  have hmin : IntOp.minsi (BitVec.ofNat 32 e) l = BitVec.ofNat 32 (min e (min l.toInt.toNat 1496)) := by
    unfold IntOp.minsi
    have hee : (BitVec.ofNat 32 e).toInt = (e : ℤ) := Cert.Seg.toInt_small e (by omega)
    split
    · rename_i hlt
      rw [BitVec.slt_iff_toInt_lt, hee] at hlt
      congr 1
      omega
    · rename_i hnlt
      rw [BitVec.slt_iff_toInt_lt, hee] at hnlt
      have hm : min e (min l.toInt.toNat 1496) = l.toInt.toNat := by omega
      rw [hm]
      apply BitVec.toInt_inj.mp
      rw [Cert.Seg.toInt_small _ (by omega)]
      omega
  rw [hmin]
  unfold IntOp.subi
  have hx : BitVec.ofNat 32 (min e (min l.toInt.toNat 1496)) - BitVec.ofNat 32 s
      = BitVec.ofNat 32 (min e (min l.toInt.toNat 1496) - s) := by
    apply BitVec.eq_of_toNat_eq
    rw [BitVec.toNat_sub, BitVec.toNat_ofNat, BitVec.toNat_ofNat, BitVec.toNat_ofNat]
    omega
  rw [hx, Cert.Seg.toInt_small _ (by omega)]

/-- The number of runs of row b: the sum from zero of the boundary bits, the number of boundary frames. -/
theorem runsT_apply (a3 : IVec S128x1496 32) (a4 : IVec S128 32) (b : Fin 128) :
    runsT a3 a4 (ix1 b) = (((((Finset.range 1496).filter (Cert.Row.bnd a3 a4 b)).card : ℕ) : ℝ) : EReal) := by
  unfold runsT
  have hR : S128x1496.Reduces [1] S128 := by decide
  have hl : ∀ k : Fin 1496, hR.lift (ix1 b) k = ix2 b k := fun k => funext fun a => by
    match a with
    | ⟨0, _⟩ => exact Fin.ext rfl
    | ⟨1, _⟩ => exact Fin.ext rfl
  rw [hostReduceAdd_apply, Ideal.hostReduceAdd_single Gen.reducesTo_S128x1496_S128_d1 hR]
  have hterm : ∀ k : Fin 1496, uitofp (F := Ideal) .f32 (bndT a3 a4) (hR.lift (ix1 b) k)
      = (((if Cert.Row.bnd a3 a4 b k.val then (1 : ℝ) else 0) : ℝ) : EReal) := by
    intro k
    rw [hl k]
    show ((((bndT a3 a4 (ix2 b k)).toNat : ℕ) : ℝ) : EReal) = _
    by_cases hb : Cert.Row.bnd a3 a4 b k.val
    · rw [(bndT_iff a3 a4 b k).mpr hb, if_pos hb]; norm_num
    · rw [eq_zero_of_ne_one (mt (bndT_iff a3 a4 b k).mp hb), if_neg hb]; norm_num
  show Ideal.ofBits .f32 0x00000000#32 + ∑ k : Fin 1496, uitofp (F := Ideal) .f32 (bndT a3 a4) (hR.lift (ix1 b) k) = _
  rw [Ideal.ofBits_zero_f32, zero_add, Finset.sum_congr rfl (fun k _ => hterm k), ← Cert.ERealSum.coe_sum]
  congr 1
  rw [Fin.sum_univ_eq_sum_range (fun i => if Cert.Row.bnd a3 a4 b i then (1 : ℝ) else 0) 1496, Finset.sum_boole]

/-- The weight array with its unit axis, read at (b, t, 0), is the weight at (b, t). -/
theorem wTerm_apply (a3 : IVec S128x1496 32) (a4 : IVec S128 32) (b : Fin 128) (t : Fin 1496) :
    wTerm a3 a4 (ix3 b t (0 : Fin 1)) = wT a3 a4 (ix2 b t) := by
  unfold wTerm
  apply broadcastInDim_apply
  intro a
  match a with
  | ⟨0, _⟩ => rfl
  | ⟨1, _⟩ => rfl

/-- The weight at a frame outside the row's length is zero. -/
theorem wT_of_not_valid (a3 : IVec S128x1496 32) (a4 : IVec S128 32) (b : Fin 128) (t : Fin 1496)
    (h : ¬ t.val < Cert.Row.L a4 b) : wT a3 a4 (ix2 b t) = ((0 : ℝ) : EReal) := by
  unfold wT
  rw [select_apply, eq_zero_of_ne_one (mt (validT_iff a4 b t).mp h), select_zero, broadcastInDim_scalar_apply,
    constant_apply, Ideal.ofBits_zero_f32, EReal.coe_zero]

/-- The weight at a valid frame: the reciprocal of max (count · runs, 1), the count being min (e, L) - s for the
    start s and the end e of the frame's run. -/
theorem wT_of_valid (a3 : IVec S128x1496 32) (a4 : IVec S128 32) (b : Fin 128) (t : Fin 1496)
    (hl : 1 ≤ (a4 (ix1 b)).toInt) (h : t.val < Cert.Row.L a4 b) (s e : ℕ)
    (hs : startT a3 a4 (ix2 b t) = BitVec.ofNat 32 s) (hst : s ≤ t.val)
    (he : endT a3 a4 (ix2 b t) = BitVec.ofNat 32 e) (hte : t.val < e) (he' : e ≤ 1496) :
    wT a3 a4 (ix2 b t) = (((1 / max ((((min e (Cert.Row.L a4 b) - s : ℕ) : ℝ)) *
        ((((Finset.range 1496).filter (Cert.Row.bnd a3 a4 b)).card : ℕ) : ℝ)) 1 : ℝ)) : EReal) := by
  unfold wT
  rw [select_apply, (validT_iff a4 b t).mpr h, select_one]
  unfold recT
  rw [hostDivf_apply, maximumf_apply, mulf_apply, broadcastInDim_scalar_apply, constant_apply, Ideal.ofBits_one_f32,
    Cert.Mask.bcast_col, Cert.Mask.bcast_vec_col, runsT_apply]
  have hcnt : cntT a3 a4 (ix2 b t) = ((((min e (Cert.Row.L a4 b) - s : ℕ) : ℝ)) : EReal) := by
    unfold cntT
    show ((((IntOp.subi (IntOp.minsi (endT a3 a4 (ix2 b t)) (lenT a4 (ix2 b t))) (startT a3 a4 (ix2 b t))).toInt : ℤ) : ℝ) : EReal) = _
    rw [hs, he, lenT_apply]
    have hL : Cert.Row.L a4 b = min (a4 (ix1 b)).toInt.toNat 1496 := rfl
    rw [hL] at h ⊢
    rw [cnt_word e s (a4 (ix1 b)) he' hl (by omega), Int.cast_natCast]
  rw [hcnt]
  have hy : max ((((min e (Cert.Row.L a4 b) - s : ℕ) : ℝ)) *
      ((((Finset.range 1496).filter (Cert.Row.bnd a3 a4 b)).card : ℕ) : ℝ)) 1 ≠ 0 := by
    have : (1 : ℝ) ≤ max ((((min e (Cert.Row.L a4 b) - s : ℕ) : ℝ)) *
      ((((Finset.range 1496).filter (Cert.Row.bnd a3 a4 b)).card : ℕ) : ℝ)) 1 := le_max_right _ _
    intro h0; rw [h0] at this; norm_num at this
  have hmax : ∀ x : ℝ, max (x : EReal) ((1 : ℝ) : EReal) = ((max x 1 : ℝ) : EReal) :=
    fun x => (EReal.coe_strictMono.monotone.map_max).symm
  rw [← EReal.coe_mul, ← EReal.coe_one, hmax, Ideal.div_coe hy, EReal.coe_one, one_mul]

/-- THE WEIGHTS: there are a start s and an exclusive end e of each valid frame's run, with their defining
    properties, such that the weight of frame t of row b is 1 / max ((min (e t, L) - s t) · runs, 1) at a valid frame
    and 0 elsewhere. -/
theorem weight_eq (a3 : IVec S128x1496 32) (a4 : IVec S128 32) (h4 : ∀ i, 1 ≤ (a4 i).toInt) (b : Fin 128) :
    ∃ s e : ℕ → ℕ,
      (∀ t, t < Cert.Row.L a4 b → Cert.Row.bnd a3 a4 b (s t) ∧ s t ≤ t ∧ ∀ k, k ≤ t → Cert.Row.bnd a3 a4 b k → k ≤ s t) ∧
      (∀ t, t < Cert.Row.L a4 b → t < e t ∧ e t ≤ 1496 ∧ (e t < 1496 → Cert.Row.bnd a3 a4 b (e t)) ∧ ∀ k, t < k → k < e t → ¬ Cert.Row.bnd a3 a4 b k) ∧
      ∀ t : Fin 1496, wTerm a3 a4 (ix3 b t (0 : Fin 1)) =
        (((if t.val < Cert.Row.L a4 b then 1 / max ((((min (e t.val) (Cert.Row.L a4 b) - s t.val : ℕ) : ℝ)) * ((((Finset.range 1496).filter (Cert.Row.bnd a3 a4 b)).card : ℕ) : ℝ)) 1 else 0) : ℝ) : EReal) := by
  have hl : 1 ≤ (a4 (ix1 b)).toInt := h4 (ix1 b)
  have hL1 : 1 ≤ Cert.Row.L a4 b := by
    show 1 ≤ min (a4 (ix1 b)).toInt.toNat 1496
    omega
  have hLT : Cert.Row.L a4 b ≤ 1496 := min_le_right _ _
  refine ⟨fun t => if ht : t < 1496 then Classical.choose (startT_spec a3 a4 b hL1 ⟨t, ht⟩) else 0,
    fun t => if ht : t < 1496 then Classical.choose (endT_spec a3 a4 b ⟨t, ht⟩) else 0, ?_, ?_, ?_⟩
  · intro t ht
    have ht' : t < 1496 := by omega
    simp only [dif_pos ht']
    obtain ⟨h1, h2, h3, -⟩ := Classical.choose_spec (startT_spec a3 a4 b hL1 ⟨t, ht'⟩)
    exact ⟨h2, h1, h3⟩
  · intro t ht
    have ht' : t < 1496 := by omega
    simp only [dif_pos ht']
    obtain ⟨h1, h2, h3, h5, -⟩ := Classical.choose_spec (endT_spec a3 a4 b ⟨t, ht'⟩)
    exact ⟨h1, h2, h3, h5⟩
  · intro t
    rw [wTerm_apply]
    simp only [dif_pos t.isLt]
    by_cases hv : t.val < Cert.Row.L a4 b
    · rw [if_pos hv]
      obtain ⟨h1, -, -, hsv⟩ := Classical.choose_spec (startT_spec a3 a4 b hL1 ⟨t.val, t.isLt⟩)
      obtain ⟨g1, g2, -, -, hev⟩ := Classical.choose_spec (endT_spec a3 a4 b ⟨t.val, t.isLt⟩)
      exact wT_of_valid a3 a4 b t hl hv _ _ hsv h1 hev g1 g2
    · rw [if_neg hv]
      exact wT_of_not_valid a3 a4 b t hv

end Cert.KernelIdeal.HostW
end
-- ==== Proof.KernelHostTermBC.lean ====
/-
  The second and third stretches of the host program before the region: from the marked frame numbers to the run ends (the other arrays pass through unchanged), and from the run ends, run starts and masks to the weights.
-/
import proofs.«132348_j86689619902579_2_alg».proof.Proof.KernelHostTerm

noncomputable section

namespace Cert.KernelIdeal.HostW

open Cert.KernelIdeal Cert.KernelIdeal.Gen
open Idealize.ShloMosaic Idealize.ShloMosaic.TcCoe Idealize.SL.Sem Idealize.ShloMosaic.StableHlo

local notation "𝕋[" s ", " e "]" => BufTy.Contents (Elt Ideal) (BufTy.mk s e)

section WinB
variable (V : Valuation τ sig (Elt Ideal))

theorem S5 : StableHlo.after (hostOps0_5 (F := Ideal)) V (Proc.devRef .tc main_v19)
    = concatenate S128x1496 1
        [⟨S128x1495, extractStridedSlice S128x1495 ![0, 1] (V (Proc.devRef .tc main_v16)) Gen.slices_S128x1496_S128x1495_0_1⟩,
         ⟨S128x1, broadcastInDim S128x1 ![] Gen.bcast_S_S128x1 (constantI S_ 32 1496#32)⟩]
        Gen.concatenates_S128x1495_S128x1_S128x1496_d1 := by
  simp only [Gen.hostOps0_5]
  after_results
theorem S6 : StableHlo.after (hostOps0_6 (F := Ideal)) V (Proc.devRef .tc main_v20) = Host.reverse [1] (V (Proc.devRef .tc main_v19) : 𝕋[S128x1496, .i32]) := by
  simp only [Gen.hostOps0_6]
  after_results
  rfl
attribute [local irreducible] Host.reduceWindow in
theorem S7 : StableHlo.after (hostOps0_7 (F := Ideal)) V (Proc.devRef .tc main_v21)
    = Host.reduceWindow IntOp.minsi ![1, 1496] ![1, 1] ![0, 1495] ![0, 0] (V (Proc.devRef .tc main_v20) : 𝕋[S128x1496, .i32])
        (broadcastInDim S_ ![] Gen.bcast_S_S_ (constantI S_ 32 2147483647#32))
        Gen.reduceWindows_S128x1496_S128x1496_w1s1p0_0_w1496s1p1495_0 Gen.h_S_ := by
  simp only [Gen.hostOps0_7]
  after_results
  rfl
theorem S8 : StableHlo.after (hostOps0_8 (F := Ideal)) V (Proc.devRef .tc main_v22) = Host.reverse [1] (V (Proc.devRef .tc main_v21) : 𝕋[S128x1496, .i32]) := by
  simp only [Gen.hostOps0_8]
  after_results
  rfl
attribute [local irreducible] Host.reduceWindow in
theorem B_v22 : StableHlo.after winB V (Proc.devRef .tc main_v22) = endOf (V (Proc.devRef .tc main_v16)) := by
  rw [winB, after_append, after_append, after_append, S8, S7, S6, S5]
  rfl
theorem B_v5 : StableHlo.after winB V (Proc.devRef .tc main_v5) = V (Proc.devRef .tc main_v5) := by
  simp only [winB, Gen.hostOps0_5, Gen.hostOps0_6, Gen.hostOps0_7, Gen.hostOps0_8, List.cons_append, List.nil_append]
  after_results_simp
theorem B_v11 : StableHlo.after winB V (Proc.devRef .tc main_v11) = V (Proc.devRef .tc main_v11) := by
  simp only [winB, Gen.hostOps0_5, Gen.hostOps0_6, Gen.hostOps0_7, Gen.hostOps0_8, List.cons_append, List.nil_append]
  after_results_simp
theorem B_v15 : StableHlo.after winB V (Proc.devRef .tc main_v15) = V (Proc.devRef .tc main_v15) := by
  simp only [winB, Gen.hostOps0_5, Gen.hostOps0_6, Gen.hostOps0_7, Gen.hostOps0_8, List.cons_append, List.nil_append]
  after_results_simp
theorem B_arg4 : StableHlo.after winB V (Proc.devRef .tc main_arg4) = V (Proc.devRef .tc main_arg4) := by
  simp only [winB, Gen.hostOps0_5, Gen.hostOps0_6, Gen.hostOps0_7, Gen.hostOps0_8, List.cons_append, List.nil_append]
  after_results_simp
end WinB

section WinC
variable (V : Valuation τ sig (Elt Ideal))

attribute [local irreducible] Host.reduceWindow Host.reduceAdd Host.reverse concatenate extractStridedSlice broadcastInDim select sitofp uitofp mulf maximumf Host.divf minsi subi constant constantI in
theorem C_v38 : StableHlo.after winC V (Proc.devRef .tc main_v38)
    = wOf (V (Proc.devRef .tc main_arg4)) (V (Proc.devRef .tc main_v22)) (V (Proc.devRef .tc main_v15))
        (V (Proc.devRef .tc main_v11)) (V (Proc.devRef .tc main_v5)) := by
  simp only [winC, Gen.hostOps0_9, Gen.hostOps0_10, Gen.hostOps0_11, List.cons_append, List.nil_append]
  after_results_simp
  rfl
end WinC

end Cert.KernelIdeal.HostW
end
-- ==== Proof.KernelHostTermV.lean ====
/-
  The three stretches composed: the weight array the region stages is the composed term of the two integer arguments.
-/
import proofs.«132348_j86689619902579_2_alg».proof.Proof.KernelHostTermBC

noncomputable section

namespace Cert.KernelIdeal.HostW

open Cert.KernelIdeal Cert.KernelIdeal.Gen
open Idealize.ShloMosaic Idealize.ShloMosaic.TcCoe Idealize.SL.Sem Idealize.ShloMosaic.StableHlo

local notation "𝕋[" s ", " e "]" => BufTy.Contents (Elt Ideal) (BufTy.mk s e)

attribute [local irreducible] Host.reduceWindow in
/-- What the weight buffer holds when the region is entered: `wTerm` of the two integer arguments at launch. -/
theorem V38_eq (m : (ℓ : Loc nD τ sig) → Buf (Elt Ideal) ℓ) (c : Dev nD) :
    V m c main_v38 = wTerm (m ((c.tc : Thread nD τ).loc main_arg3)) (m ((c.tc : Thread nD τ).loc main_arg4)) := by
  dsimp only [Gen.V, Gen.V0]
  rw [flat_eq, after_append, after_append, C_v38, B_v22, B_v15, B_v11, B_v5, B_arg4, A_v16, A_v15, A_v11, A_v5, A_arg4, wTerm_eq, endT_eq]

end Cert.KernelIdeal.HostW
end
-- ==== Proof.RefStages.lean ====
/-
  The stages of the reference program's value, as pure functions of its five argument arrays: each is the
  composition of the printed operations of `Cert.ReferenceIdeal.main` that compute one buffer, the operands being
  earlier stages or the arguments `a0 … a4` (`main_arg0 … main_arg4`).

  The mathematics, for a batch row `b < 128`, a position `t < 1496` and a feature `d < 768`
  (`x = a0`, `w = a1`, `β = a2`, `id = a3`, `len = a4`):
    valid b t    = [t < len b]                                       (signed comparison of 32-bit words)
    boundary b t = (t = 0 ∨ id b t ≠ id b (t-1)) ∧ valid b t
    cumsum b t   = Σ_{t' ≤ t} boundary b t'                          (32-bit words)
    segIds b t   = max (cumsum b t - 1) 0 + 1496 · b                 (a row of the flattened 191488-row table)
    sums r d     = Σ_{(b,t) : segIds b t = r} x b t d · valid b t    (float scatter-add from zero)
    counts r     = Σ_{(b,t) : segIds b t = r} valid b t
    means b t d  = sums (1496·b+t) d / max (counts (1496·b+t)) 1
    occ b t      = [counts (1496·b+t) > 0]
    runs b       = Σ_t occ b t
    feat b d     = (Σ_t means b t d · occ b t) / runs b
    out b        = Σ_d feat b d · w d + β
-/
import proofs.«132348_j86689619902579_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The contents of a buffer of shape `s` and element type `e`. -/
local notation "𝕋[" s ", " e "]" => BufTy.Contents (Elt F) (BufTy.mk s e)

/-- `main_v5`: position `t` of row `b` is inside the row's length, `[t < a4 b]` (signed, on 32-bit words). -/
def valid (a4 : 𝕋[S128, .i32]) : 𝕋[S128x1496, .i1] :=
  cmpi .slt
    (broadcastInDim S128x1496 ![0, 1] bcast_S1x1496_S128x1496_0_1
      (broadcastInDim S1x1496 ![1] bcast_S1496_S1x1496_1 (iotaInDim S1496 32 0)))
    (broadcastInDim S128x1496 ![0, 1] bcast_S128x1_S128x1496_0_1 (broadcastInDim S128x1 ![0] bcast_S128_S128x1_0 a4))

/-- `main_v11`: a run starts at `(b, t)` — `t = 0` or the identifier differs from the one before — and the
    position is valid. -/
def boundary (a3 : 𝕋[S128x1496, .i32]) (a4 : 𝕋[S128, .i32]) : 𝕋[S128x1496, .i1] :=
  andi
    (concatenate S128x1496 1
      [⟨S128x1, broadcastInDim S128x1 ![] bcast_S_S128x1 (constantI S_ 1 1#1)⟩,
       ⟨S128x1495, cmpi .ne (extractStridedSlice S128x1495 ![0, 1] a3 slices_S128x1496_S128x1495_0_1)
          (extractStridedSlice S128x1495 ![0, 0] a3 slices_S128x1496_S128x1495_0_0)⟩]
      concatenates_S128x1_S128x1495_S128x1496_d1)
    (valid a4)

/-- `main_v13`: the running count of run starts along a row, `Σ_{t' ≤ t} boundary b t'` as 32-bit words (the
    windowed sum of width 1496 padded 1495 low, from zero). -/
def cumsum (a3 : 𝕋[S128x1496, .i32]) (a4 : 𝕋[S128, .i32]) : 𝕋[S128x1496, .i32] :=
  Host.reduceWindow IntOp.addi ![1, 1496] ![1, 1] ![0, 1495] ![0, 0] (extui 32 (boundary a3 a4) natLt_1_32)
    (broadcastInDim S_ ![] bcast_S_S_ (constantI S_ 32 0#32))
    reduceWindows_S128x1496_S128x1496_w1s1p0_0_w1496s1p1495_0 h_S_

/-- `main_v24`: the row of the flattened table a position is accumulated into,
    `max (cumsum b t - 1) 0 + 1496 · b`, read at the flat index `1496 · b + t`. -/
def segIds (a3 : 𝕋[S128x1496, .i32]) (a4 : 𝕋[S128, .i32]) : 𝕋[S191488, .i32] :=
  shapeCast S191488
    (addi
      (maxsi (subi (cumsum a3 a4) (broadcastInDim S128x1496 ![] bcast_S_S128x1496 (constantI S_ 32 1#32)))
        (broadcastInDim S128x1496 ![] bcast_S_S128x1496 (constantI S_ 32 0#32)))
      (broadcastInDim S128x1496 ![0, 1] bcast_S128x1_S128x1496_0_1
        (muli (broadcastInDim S128x1 ![0] bcast_S128_S128x1_0 (iotaInDim S128 32 0))
          (broadcastInDim S128x1 ![] bcast_S_S128x1 (constantI S_ 32 1496#32)))))
    shapeCasts_S128x1496_S191488

/-- `main_v25`: the valid mask as a float, `1` or `0`. -/
def validF (a4 : 𝕋[S128, .i32]) : 𝕋[S128x1496, .f32] := uitofp .f32 (valid a4)

/-- `main_v32`: per table row and feature, the sum of the masked inputs accumulated there (a float scatter-add
    from zero of the flattened `a0 · validF` at the rows `segIds`). -/
def sums (a0 : 𝕋[S128x1496x768, .f32]) (a3 : 𝕋[S128x1496, .i32]) (a4 : 𝕋[S128, .i32]) : 𝕋[S191488x768, .f32] :=
  Host.scatterAdd scatter_S191488x768_S191488x1_S191488x768_1_0_0_1
    (broadcastInDim S191488x768 ![] bcast_S_S191488x768 (constant S_ .f32 0x00000000#32))
    (broadcastInDim S191488x1 ![0] bcast_S191488_S191488x1_0 (segIds a3 a4))
    (shapeCast S191488x768
      (mulf a0
        (broadcastInDim S128x1496x768 ![0, 1, 2] bcast_S128x1496x1_S128x1496x768_0_1_2
          (broadcastInDim S128x1496x1 ![0, 1] bcast_S128x1496_S128x1496x1_0_1 (validF a4))))
      shapeCasts_S128x1496x768_S191488x768)

/-- `main_v36`: per table row, how many valid positions are accumulated there (the same scatter-add of
    `validF`). -/
def counts (a3 : 𝕋[S128x1496, .i32]) (a4 : 𝕋[S128, .i32]) : 𝕋[S191488, .f32] :=
  Host.scatterAdd scatter_S191488_S191488x1_S191488_n_0_0_1
    (broadcastInDim S191488 ![] bcast_S_S191488 (constant S_ .f32 0x00000000#32))
    (broadcastInDim S191488x1 ![0] bcast_S191488_S191488x1_0 (segIds a3 a4))
    (shapeCast S191488 (validF a4) shapeCasts_S128x1496_S191488)

/-- `main_v42`: the per-run means, `sums / max counts 1`, back at shape `128 × 1496 × 768`. -/
def means (a0 : 𝕋[S128x1496x768, .f32]) (a3 : 𝕋[S128x1496, .i32]) (a4 : 𝕋[S128, .i32]) : 𝕋[S128x1496x768, .f32] :=
  shapeCast S128x1496x768
    (Host.divf (sums a0 a3 a4)
      (broadcastInDim S191488x768 ![0, 1] bcast_S191488x1_S191488x768_0_1
        (broadcastInDim S191488x1 ![0] bcast_S191488_S191488x1_0
          (maximumf (counts a3 a4) (broadcastInDim S191488 ![] bcast_S_S191488 (constant S_ .f32 0x3F800000#32))))))
    shapeCasts_S191488x768_S128x1496x768

/-- `main_v46`: a table row is occupied, `[counts > 0]` as a float, at shape `128 × 1496`. -/
def occ (a3 : 𝕋[S128x1496, .i32]) (a4 : 𝕋[S128, .i32]) : 𝕋[S128x1496, .f32] :=
  uitofp .f32
    (cmpf .ogt (shapeCast S128x1496 (counts a3 a4) shapeCasts_S191488_S128x1496)
      (broadcastInDim S128x1496 ![] bcast_S_S128x1496 (constant S_ .f32 0x00000000#32)))

/-- `main_v47`: the number of occupied rows of a batch row, `Σ_t occ b t`. -/
def runs (a3 : 𝕋[S128x1496, .i32]) (a4 : 𝕋[S128, .i32]) : 𝕋[S128, .f32] :=
  Host.reduceAdd (occ a3 a4) (constant S_ .f32 0x00000000#32) reducesTo_S128x1496_S128_d1 h_S_

/-- `main_v54`: the mean over the occupied rows of the per-run means, `(Σ_t means b t d · occ b t) / runs b`. -/
def feat (a0 : 𝕋[S128x1496x768, .f32]) (a3 : 𝕋[S128x1496, .i32]) (a4 : 𝕋[S128, .i32]) : 𝕋[S128x768, .f32] :=
  Host.divf
    (Host.reduceAdd
      (mulf (means a0 a3 a4)
        (broadcastInDim S128x1496x768 ![0, 1, 2] bcast_S128x1496x1_S128x1496x768_0_1_2
          (broadcastInDim S128x1496x1 ![0, 1] bcast_S128x1496_S128x1496x1_0_1 (occ a3 a4))))
      (constant S_ .f32 0x00000000#32) reducesTo_S128x1496x768_S128x768_d1 h_S_)
    (broadcastInDim S128x768 ![0, 1] bcast_S128x1_S128x768_0_1
      (broadcastInDim S128x1 ![0] bcast_S128_S128x1_0 (runs a3 a4)))

/-- `main_v59`, the result: `feat` contracted with the weight row, plus the bias, `Σ_d feat b d · a1 d + a2`. -/
def out (a0 : 𝕋[S128x1496x768, .f32]) (a1 : 𝕋[S1x768, .f32]) (a2 : 𝕋[S1, .f32]) (a3 : 𝕋[S128x1496, .i32])
    (a4 : 𝕋[S128, .i32]) : 𝕋[S128x1, .f32] :=
  addf
    (Host.dotGeneral dot_S128x768_S768x1_S128x1_1_0_0_1_n_n none (feat a0 a3 a4)
      (transpose S768x1 [1, 0] a1 transposes_S1x768_S768x1_1_0))
    (broadcastInDim S128x1 ![0, 1] bcast_S1x1_S128x1_0_1 (broadcastInDim S1x1 ![1] bcast_S1_S1x1_1 a2))

end Cert.ReferenceIdeal.RefRun

end
-- ==== Proof.RefRun.lean ====
/-
  The run of the reference program, written out: `Cert.ReferenceIdeal.main` is a straight line of 72 host
  operations — the 69 of @main's own and, at the one call `%13 = func.call @cumsum(%12)`, the three of
  `@cumsum_0` (the scalar zero, its rank-zero broadcast, the windowed integer sum along axis 1) over the call's
  buffer record, `@cumsum` itself being only that call. Every weakly fair execution of it terminates, and each
  buffer ends at the fold of the operations' functions over the contents at launch. Read at the result buffer
  that fold is `out` of the five argument arrays (the stages of `RefStages`): the line is read in four
  consecutive windows, each window's live results stated as stages of the arguments given the previous
  window's, so that a stage several later operations read is computed once.
    window 1 (operations 1 … 17): the valid mask, the run starts, their running count      → `valid`, `cumsum`
    window 2 (operations 18 … 45): the table rows, the two scatter-adds                     → `sums`, `counts`
    window 3 (operations 46 … 59): the per-run means, the occupancy, the run count          → `means`, `occ`, `runs`
    window 4 (operations 60 … 72): the mean over runs, the contraction with the weights, the bias → `out`
-/
import proofs.«132348_j86689619902579_2_alg».proof.Defs
import proofs.«132348_j86689619902579_2_alg».proof.Proof.Gen.ReferenceIdeal
import proofs.«132348_j86689619902579_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 72 operations in order, the call unfolded: after the fourteenth (the boundary mask widened to
    32-bit words, `main_v12`) come `@cumsum_0`'s three over the record `main_call0.call0`, whose last writes
    `main_v13`. -/
abbrev ops : List (HloOp τ sig (Elt F)) :=
  [ nullary main_v0 (iotaInDim S1496 32 0),
    unary main_v0 main_v1 (broadcastInDim S1x1496 ![1] bcast_S1496_S1x1496_1 : (⟨S1496, .i32⟩ : BufTy).Contents (Elt F) → (⟨S1x1496, .i32⟩ : BufTy).Contents (Elt F)),
    unary main_arg4 main_v2 (broadcastInDim S128x1 ![0] bcast_S128_S128x1_0 : (⟨S128, .i32⟩ : BufTy).Contents (Elt F) → (⟨S128x1, .i32⟩ : BufTy).Contents (Elt F)),
    unary main_v1 main_v3 (broadcastInDim S128x1496 ![0, 1] bcast_S1x1496_S128x1496_0_1 : (⟨S1x1496, .i32⟩ : BufTy).Contents (Elt F) → (⟨S128x1496, .i32⟩ : BufTy).Contents (Elt F)),
    unary main_v2 main_v4 (broadcastInDim S128x1496 ![0, 1] bcast_S128x1_S128x1496_0_1 : (⟨S128x1, .i32⟩ : BufTy).Contents (Elt F) → (⟨S128x1496, .i32⟩ : BufTy).Contents (Elt F)),
    binary main_v3 main_v4 main_v5 (cmpi .slt : (⟨S128x1496, .i32⟩ : BufTy).Contents (Elt F) → (⟨S128x1496, .i32⟩ : BufTy).Contents (Elt F) → (⟨S128x1496, .i1⟩ : BufTy).Contents (Elt F)),
    unary main_arg3 main_v6 ((extractStridedSlice S128x1495 ![0, 1] · slices_S128x1496_S128x1495_0_1) : (⟨S128x1496, .i32⟩ : BufTy).Contents (Elt F) → (⟨S128x1495, .i32⟩ : BufTy).Contents (Elt F)),
    unary main_arg3 main_v7 ((extractStridedSlice S128x1495 ![0, 0] · slices_S128x1496_S128x1495_0_0) : (⟨S128x1496, .i32⟩ : BufTy).Contents (Elt F) → (⟨S128x1495, .i32⟩ : BufTy).Contents (Elt F)),
    binary main_v6 main_v7 main_v8 (cmpi .ne : (⟨S128x1495, .i32⟩ : BufTy).Contents (Elt F) → (⟨S128x1495, .i32⟩ : BufTy).Contents (Elt F) → (⟨S128x1495, .i1⟩ : BufTy).Contents (Elt F)),
    nullary main_c (constantI S_ 1 1#1),
    unary main_c main_v9 (broadcastInDim S128x1 ![] bcast_S_S128x1 : (⟨S_, .i1⟩ : BufTy).Contents (Elt F) → (⟨S128x1, .i1⟩ : BufTy).Contents (Elt F)),
    binary main_v9 main_v8 main_v10 ((fun a b => concatenate S128x1496 1 [⟨S128x1, a⟩, ⟨S128x1495, b⟩] concatenates_S128x1_S128x1495_S128x1496_d1) : (⟨S128x1, .i1⟩ : BufTy).Contents (Elt F) → (⟨S128x1495, .i1⟩ : BufTy).Contents (Elt F) → (⟨S128x1496, .i1⟩ : BufTy).Contents (Elt F)),
    binary main_v10 main_v5 main_v11 (andi : (⟨S128x1496, .i1⟩ : BufTy).Contents (Elt F) → (⟨S128x1496, .i1⟩ : BufTy).Contents (Elt F) → (⟨S128x1496, .i1⟩ : BufTy).Contents (Elt F)),
    unary main_v11 main_v12 ((extui 32 · natLt_1_32) : (⟨S128x1496, .i1⟩ : BufTy).Contents (Elt F) → (⟨S128x1496, .i32⟩ : BufTy).Contents (Elt F)),
    TRef.nullary main_call0.call0.c (constantI S_ 32 0#32),
    TRef.unary main_call0.call0.c main_call0.call0.v0 (broadcastInDim S_ ![] bcast_S_S_),
    TRef.binary (.of main_v12) main_call0.call0.v0 main_call0.call0.v1 (fun x v => Host.reduceWindow IntOp.addi ![1, 1496] ![1, 1] ![0, 1495] ![0, 0] x v reduceWindows_S128x1496_S128x1496_w1s1p0_0_w1496s1p1495_0 h_S_),
    nullary main_c_0 (constantI S_ 32 1#32),
    unary main_c_0 main_v14 (broadcastInDim S128x1496 ![] bcast_S_S128x1496 : (⟨S_, .i32⟩ : BufTy).Contents (Elt F) → (⟨S128x1496, .i32⟩ : BufTy).Contents (Elt F)),
    binary main_v13 main_v14 main_v15 (subi : (⟨S128x1496, .i32⟩ : BufTy).Contents (Elt F) → (⟨S128x1496, .i32⟩ : BufTy).Contents (Elt F) → (⟨S128x1496, .i32⟩ : BufTy).Contents (Elt F)),
    nullary main_c_1 (constantI S_ 32 0#32),
    unary main_c_1 main_v16 (broadcastInDim S128x1496 ![] bcast_S_S128x1496 : (⟨S_, .i32⟩ : BufTy).Contents (Elt F) → (⟨S128x1496, .i32⟩ : BufTy).Contents (Elt F)),
    binary main_v15 main_v16 main_v17 (maxsi : (⟨S128x1496, .i32⟩ : BufTy).Contents (Elt F) → (⟨S128x1496, .i32⟩ : BufTy).Contents (Elt F) → (⟨S128x1496, .i32⟩ : BufTy).Contents (Elt F)),
    nullary main_v18 (iotaInDim S128 32 0),
    unary main_v18 main_v19 (broadcastInDim S128x1 ![0] bcast_S128_S128x1_0 : (⟨S128, .i32⟩ : BufTy).Contents (Elt F) → (⟨S128x1, .i32⟩ : BufTy).Contents (Elt F)),
    nullary main_c_2 (constantI S_ 32 1496#32),
    unary main_c_2 main_v20 (broadcastInDim S128x1 ![] bcast_S_S128x1 : (⟨S_, .i32⟩ : BufTy).Contents (Elt F) → (⟨S128x1, .i32⟩ : BufTy).Contents (Elt F)),
    binary main_v19 main_v20 main_v21 (muli : (⟨S128x1, .i32⟩ : BufTy).Contents (Elt F) → (⟨S128x1, .i32⟩ : BufTy).Contents (Elt F) → (⟨S128x1, .i32⟩ : BufTy).Contents (Elt F)),
    unary main_v21 main_v22 (broadcastInDim S128x1496 ![0, 1] bcast_S128x1_S128x1496_0_1 : (⟨S128x1, .i32⟩ : BufTy).Contents (Elt F) → (⟨S128x1496, .i32⟩ : BufTy).Contents (Elt F)),
    binary main_v17 main_v22 main_v23 (addi : (⟨S128x1496, .i32⟩ : BufTy).Contents (Elt F) → (⟨S128x1496, .i32⟩ : BufTy).Contents (Elt F) → (⟨S128x1496, .i32⟩ : BufTy).Contents (Elt F)),
    reshape main_v23 main_v24 rfl shapeCasts_S128x1496_S191488,
    unary main_v5 main_v25 (uitofp .f32 : (⟨S128x1496, .i1⟩ : BufTy).Contents (Elt F) → (⟨S128x1496, .f32⟩ : BufTy).Contents (Elt F)),
    unary main_v25 main_v26 (broadcastInDim S128x1496x1 ![0, 1] bcast_S128x1496_S128x1496x1_0_1 : (⟨S128x1496, .f32⟩ : BufTy).Contents (Elt F) → (⟨S128x1496x1, .f32⟩ : BufTy).Contents (Elt F)),
    unary main_v26 main_v27 (broadcastInDim S128x1496x768 ![0, 1, 2] bcast_S128x1496x1_S128x1496x768_0_1_2 : (⟨S128x1496x1, .f32⟩ : BufTy).Contents (Elt F) → (⟨S128x1496x768, .f32⟩ : BufTy).Contents (Elt F)),
    binary main_arg0 main_v27 main_v28 (mulf : (⟨S128x1496x768, .f32⟩ : BufTy).Contents (Elt F) → (⟨S128x1496x768, .f32⟩ : BufTy).Contents (Elt F) → (⟨S128x1496x768, .f32⟩ : BufTy).Contents (Elt F)),
    reshape main_v28 main_v29 rfl shapeCasts_S128x1496x768_S191488x768,
    nullary main_cst (constant S_ .f32 0x00000000#32),
    unary main_cst main_v30 (broadcastInDim S191488x768 ![] bcast_S_S191488x768 : (⟨S_, .f32⟩ : BufTy).Contents (Elt F) → (⟨S191488x768, .f32⟩ : BufTy).Contents (Elt F)),
    unary main_v24 main_v31 (broadcastInDim S191488x1 ![0] bcast_S191488_S191488x1_0 : (⟨S191488, .i32⟩ : BufTy).Contents (Elt F) → (⟨S191488x1, .i32⟩ : BufTy).Contents (Elt F)),
    ternary main_v30 main_v31 main_v29 main_v32 ((fun x i u => Host.scatterAdd scatter_S191488x768_S191488x1_S191488x768_1_0_0_1 x i u) : (⟨S191488x768, .f32⟩ : BufTy).Contents (Elt F) → (⟨S191488x1, .i32⟩ : BufTy).Contents (Elt F) → (⟨S191488x768, .f32⟩ : BufTy).Contents (Elt F) → (⟨S191488x768, .f32⟩ : BufTy).Contents (Elt F)),
    reshape main_v25 main_v33 rfl shapeCasts_S128x1496_S191488,
    nullary main_cst_3 (constant S_ .f32 0x00000000#32),
    unary main_cst_3 main_v34 (broadcastInDim S191488 ![] bcast_S_S191488 : (⟨S_, .f32⟩ : BufTy).Contents (Elt F) → (⟨S191488, .f32⟩ : BufTy).Contents (Elt F)),
    unary main_v24 main_v35 (broadcastInDim S191488x1 ![0] bcast_S191488_S191488x1_0 : (⟨S191488, .i32⟩ : BufTy).Contents (Elt F) → (⟨S191488x1, .i32⟩ : BufTy).Contents (Elt F)),
    ternary main_v34 main_v35 main_v33 main_v36 ((fun x i u => Host.scatterAdd scatter_S191488_S191488x1_S191488_n_0_0_1 x i u) : (⟨S191488, .f32⟩ : BufTy).Contents (Elt F) → (⟨S191488x1, .i32⟩ : BufTy).Contents (Elt F) → (⟨S191488, .f32⟩ : BufTy).Contents (Elt F) → (⟨S191488, .f32⟩ : BufTy).Contents (Elt F)),
    nullary main_cst_4 (constant S_ .f32 0x3F800000#32),
    unary main_cst_4 main_v37 (broadcastInDim S191488 ![] bcast_S_S191488 : (⟨S_, .f32⟩ : BufTy).Contents (Elt F) → (⟨S191488, .f32⟩ : BufTy).Contents (Elt F)),
    binary main_v36 main_v37 main_v38 (maximumf : (⟨S191488, .f32⟩ : BufTy).Contents (Elt F) → (⟨S191488, .f32⟩ : BufTy).Contents (Elt F) → (⟨S191488, .f32⟩ : BufTy).Contents (Elt F)),
    unary main_v38 main_v39 (broadcastInDim S191488x1 ![0] bcast_S191488_S191488x1_0 : (⟨S191488, .f32⟩ : BufTy).Contents (Elt F) → (⟨S191488x1, .f32⟩ : BufTy).Contents (Elt F)),
    unary main_v39 main_v40 (broadcastInDim S191488x768 ![0, 1] bcast_S191488x1_S191488x768_0_1 : (⟨S191488x1, .f32⟩ : BufTy).Contents (Elt F) → (⟨S191488x768, .f32⟩ : BufTy).Contents (Elt F)),
    binary main_v32 main_v40 main_v41 (Host.divf : (⟨S191488x768, .f32⟩ : BufTy).Contents (Elt F) → (⟨S191488x768, .f32⟩ : BufTy).Contents (Elt F) → (⟨S191488x768, .f32⟩ : BufTy).Contents (Elt F)),
    reshape main_v41 main_v42 rfl shapeCasts_S191488x768_S128x1496x768,
    reshape main_v36 main_v43 rfl shapeCasts_S191488_S128x1496,
    nullary main_cst_5 (constant S_ .f32 0x00000000#32),
    unary main_cst_5 main_v44 (broadcastInDim S128x1496 ![] bcast_S_S128x1496 : (⟨S_, .f32⟩ : BufTy).Contents (Elt F) → (⟨S128x1496, .f32⟩ : BufTy).Contents (Elt F)),
    binary main_v43 main_v44 main_v45 (cmpf .ogt : (⟨S128x1496, .f32⟩ : BufTy).Contents (Elt F) → (⟨S128x1496, .f32⟩ : BufTy).Contents (Elt F) → (⟨S128x1496, .i1⟩ : BufTy).Contents (Elt F)),
    unary main_v45 main_v46 (uitofp .f32 : (⟨S128x1496, .i1⟩ : BufTy).Contents (Elt F) → (⟨S128x1496, .f32⟩ : BufTy).Contents (Elt F)),
    nullary main_cst_6 (constant S_ .f32 0x00000000#32),
    binary main_v46 main_cst_6 main_v47 ((fun x v => Host.reduceAdd x v reducesTo_S128x1496_S128_d1 h_S_) : (⟨S128x1496, .f32⟩ : BufTy).Contents (Elt F) → (⟨S_, .f32⟩ : BufTy).Contents (Elt F) → (⟨S128, .f32⟩ : BufTy).Contents (Elt F)),
    unary main_v46 main_v48 (broadcastInDim S128x1496x1 ![0, 1] bcast_S128x1496_S128x1496x1_0_1 : (⟨S128x1496, .f32⟩ : BufTy).Contents (Elt F) → (⟨S128x1496x1, .f32⟩ : BufTy).Contents (Elt F)),
    unary main_v48 main_v49 (broadcastInDim S128x1496x768 ![0, 1, 2] bcast_S128x1496x1_S128x1496x768_0_1_2 : (⟨S128x1496x1, .f32⟩ : BufTy).Contents (Elt F) → (⟨S128x1496x768, .f32⟩ : BufTy).Contents (Elt F)),
    binary main_v42 main_v49 main_v50 (mulf : (⟨S128x1496x768, .f32⟩ : BufTy).Contents (Elt F) → (⟨S128x1496x768, .f32⟩ : BufTy).Contents (Elt F) → (⟨S128x1496x768, .f32⟩ : BufTy).Contents (Elt F)),
    nullary main_cst_7 (constant S_ .f32 0x00000000#32),
    binary main_v50 main_cst_7 main_v51 ((fun x v => Host.reduceAdd x v reducesTo_S128x1496x768_S128x768_d1 h_S_) : (⟨S128x1496x768, .f32⟩ : BufTy).Contents (Elt F) → (⟨S_, .f32⟩ : BufTy).Contents (Elt F) → (⟨S128x768, .f32⟩ : BufTy).Contents (Elt F)),
    unary main_v47 main_v52 (broadcastInDim S128x1 ![0] bcast_S128_S128x1_0 : (⟨S128, .f32⟩ : BufTy).Contents (Elt F) → (⟨S128x1, .f32⟩ : BufTy).Contents (Elt F)),
    unary main_v52 main_v53 (broadcastInDim S128x768 ![0, 1] bcast_S128x1_S128x768_0_1 : (⟨S128x1, .f32⟩ : BufTy).Contents (Elt F) → (⟨S128x768, .f32⟩ : BufTy).Contents (Elt F)),
    binary main_v51 main_v53 main_v54 (Host.divf : (⟨S128x768, .f32⟩ : BufTy).Contents (Elt F) → (⟨S128x768, .f32⟩ : BufTy).Contents (Elt F) → (⟨S128x768, .f32⟩ : BufTy).Contents (Elt F)),
    unary main_arg1 main_v55 ((transpose S768x1 [1, 0] · transposes_S1x768_S768x1_1_0) : (⟨S1x768, .f32⟩ : BufTy).Contents (Elt F) → (⟨S768x1, .f32⟩ : BufTy).Contents (Elt F)),
    binary main_v54 main_v55 main_v56 ((fun l r => Host.dotGeneral dot_S128x768_S768x1_S128x1_1_0_0_1_n_n none l r) : (⟨S128x768, .f32⟩ : BufTy).Contents (Elt F) → (⟨S768x1, .f32⟩ : BufTy).Contents (Elt F) → (⟨S128x1, .f32⟩ : BufTy).Contents (Elt F)),
    unary main_arg2 main_v57 (broadcastInDim S1x1 ![1] bcast_S1_S1x1_1 : (⟨S1, .f32⟩ : BufTy).Contents (Elt F) → (⟨S1x1, .f32⟩ : BufTy).Contents (Elt F)),
    unary main_v57 main_v58 (broadcastInDim S128x1 ![0, 1] bcast_S1x1_S128x1_0_1 : (⟨S1x1, .f32⟩ : BufTy).Contents (Elt F) → (⟨S128x1, .f32⟩ : BufTy).Contents (Elt F)),
    binary main_v56 main_v58 main_v59 (addf : (⟨S128x1, .f32⟩ : BufTy).Contents (Elt F) → (⟨S128x1, .f32⟩ : BufTy).Contents (Elt F) → (⟨S128x1, .f32⟩ : BufTy).Contents (Elt F)) ]

-- seventy-two binds re-associated: the rewrite under the chain recurses once per statement
set_option maxRecDepth 8192 in
set_option maxHeartbeats 4000000 in
/-- @main is that straight line: its two windows and the two functions' bodies unfolded at the call and the
    record at its fields, both sides are one chain of steps once sequencing is re-associated. -/
theorem main_eq (c : Dev nD) : main (F := F) c = seq ops := by
  simp only [main, main_part0, main_part1, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., unary_bufs_sub .., binary_bufs_sub .., reshape_bufs_sub .., unary_bufs_sub .., unary_bufs_sub .., unary_bufs_sub .., binary_bufs_sub .., reshape_bufs_sub .., nullary_bufs_sub .., unary_bufs_sub .., unary_bufs_sub .., ternary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., reshape_bufs_sub .., reshape_bufs_sub .., nullary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., unary_bufs_sub .., binary_bufs_sub .., unary_bufs_sub .., binary_bufs_sub .., unary_bufs_sub .., unary_bufs_sub .., binary_bufs_sub ..⟩

/-! ## The line in four windows -/

/-- Operations 1 … 17: up to the running count of run starts (`main_v13`). -/
abbrev w1 : List (HloOp τ sig (Elt F)) :=
  [ nullary main_v0 (iotaInDim S1496 32 0),
    unary main_v0 main_v1 (broadcastInDim S1x1496 ![1] bcast_S1496_S1x1496_1 : (⟨S1496, .i32⟩ : BufTy).Contents (Elt F) → (⟨S1x1496, .i32⟩ : BufTy).Contents (Elt F)),
    unary main_arg4 main_v2 (broadcastInDim S128x1 ![0] bcast_S128_S128x1_0 : (⟨S128, .i32⟩ : BufTy).Contents (Elt F) → (⟨S128x1, .i32⟩ : BufTy).Contents (Elt F)),
    unary main_v1 main_v3 (broadcastInDim S128x1496 ![0, 1] bcast_S1x1496_S128x1496_0_1 : (⟨S1x1496, .i32⟩ : BufTy).Contents (Elt F) → (⟨S128x1496, .i32⟩ : BufTy).Contents (Elt F)),
    unary main_v2 main_v4 (broadcastInDim S128x1496 ![0, 1] bcast_S128x1_S128x1496_0_1 : (⟨S128x1, .i32⟩ : BufTy).Contents (Elt F) → (⟨S128x1496, .i32⟩ : BufTy).Contents (Elt F)),
    binary main_v3 main_v4 main_v5 (cmpi .slt : (⟨S128x1496, .i32⟩ : BufTy).Contents (Elt F) → (⟨S128x1496, .i32⟩ : BufTy).Contents (Elt F) → (⟨S128x1496, .i1⟩ : BufTy).Contents (Elt F)),
    unary main_arg3 main_v6 ((extractStridedSlice S128x1495 ![0, 1] · slices_S128x1496_S128x1495_0_1) : (⟨S128x1496, .i32⟩ : BufTy).Contents (Elt F) → (⟨S128x1495, .i32⟩ : BufTy).Contents (Elt F)),
    unary main_arg3 main_v7 ((extractStridedSlice S128x1495 ![0, 0] · slices_S128x1496_S128x1495_0_0) : (⟨S128x1496, .i32⟩ : BufTy).Contents (Elt F) → (⟨S128x1495, .i32⟩ : BufTy).Contents (Elt F)),
    binary main_v6 main_v7 main_v8 (cmpi .ne : (⟨S128x1495, .i32⟩ : BufTy).Contents (Elt F) → (⟨S128x1495, .i32⟩ : BufTy).Contents (Elt F) → (⟨S128x1495, .i1⟩ : BufTy).Contents (Elt F)),
    nullary main_c (constantI S_ 1 1#1),
    unary main_c main_v9 (broadcastInDim S128x1 ![] bcast_S_S128x1 : (⟨S_, .i1⟩ : BufTy).Contents (Elt F) → (⟨S128x1, .i1⟩ : BufTy).Contents (Elt F)),
    binary main_v9 main_v8 main_v10 ((fun a b => concatenate S128x1496 1 [⟨S128x1, a⟩, ⟨S128x1495, b⟩] concatenates_S128x1_S128x1495_S128x1496_d1) : (⟨S128x1, .i1⟩ : BufTy).Contents (Elt F) → (⟨S128x1495, .i1⟩ : BufTy).Contents (Elt F) → (⟨S128x1496, .i1⟩ : BufTy).Contents (Elt F)),
    binary main_v10 main_v5 main_v11 (andi : (⟨S128x1496, .i1⟩ : BufTy).Contents (Elt F) → (⟨S128x1496, .i1⟩ : BufTy).Contents (Elt F) → (⟨S128x1496, .i1⟩ : BufTy).Contents (Elt F)),
    unary main_v11 main_v12 ((extui 32 · natLt_1_32) : (⟨S128x1496, .i1⟩ : BufTy).Contents (Elt F) → (⟨S128x1496, .i32⟩ : BufTy).Contents (Elt F)),
    TRef.nullary main_call0.call0.c (constantI S_ 32 0#32),
    TRef.unary main_call0.call0.c main_call0.call0.v0 (broadcastInDim S_ ![] bcast_S_S_),
    TRef.binary (.of main_v12) main_call0.call0.v0 main_call0.call0.v1 (fun x v => Host.reduceWindow IntOp.addi ![1, 1496] ![1, 1] ![0, 1495] ![0, 0] x v reduceWindows_S128x1496_S128x1496_w1s1p0_0_w1496s1p1495_0 h_S_) ]

/-- Operations 18 … 45: the table rows and the two scatter-adds (`main_v32`, `main_v36`). -/
abbrev w2 : List (HloOp τ sig (Elt F)) :=
  [ nullary main_c_0 (constantI S_ 32 1#32),
    unary main_c_0 main_v14 (broadcastInDim S128x1496 ![] bcast_S_S128x1496 : (⟨S_, .i32⟩ : BufTy).Contents (Elt F) → (⟨S128x1496, .i32⟩ : BufTy).Contents (Elt F)),
    binary main_v13 main_v14 main_v15 (subi : (⟨S128x1496, .i32⟩ : BufTy).Contents (Elt F) → (⟨S128x1496, .i32⟩ : BufTy).Contents (Elt F) → (⟨S128x1496, .i32⟩ : BufTy).Contents (Elt F)),
    nullary main_c_1 (constantI S_ 32 0#32),
    unary main_c_1 main_v16 (broadcastInDim S128x1496 ![] bcast_S_S128x1496 : (⟨S_, .i32⟩ : BufTy).Contents (Elt F) → (⟨S128x1496, .i32⟩ : BufTy).Contents (Elt F)),
    binary main_v15 main_v16 main_v17 (maxsi : (⟨S128x1496, .i32⟩ : BufTy).Contents (Elt F) → (⟨S128x1496, .i32⟩ : BufTy).Contents (Elt F) → (⟨S128x1496, .i32⟩ : BufTy).Contents (Elt F)),
    nullary main_v18 (iotaInDim S128 32 0),
    unary main_v18 main_v19 (broadcastInDim S128x1 ![0] bcast_S128_S128x1_0 : (⟨S128, .i32⟩ : BufTy).Contents (Elt F) → (⟨S128x1, .i32⟩ : BufTy).Contents (Elt F)),
    nullary main_c_2 (constantI S_ 32 1496#32),
    unary main_c_2 main_v20 (broadcastInDim S128x1 ![] bcast_S_S128x1 : (⟨S_, .i32⟩ : BufTy).Contents (Elt F) → (⟨S128x1, .i32⟩ : BufTy).Contents (Elt F)),
    binary main_v19 main_v20 main_v21 (muli : (⟨S128x1, .i32⟩ : BufTy).Contents (Elt F) → (⟨S128x1, .i32⟩ : BufTy).Contents (Elt F) → (⟨S128x1, .i32⟩ : BufTy).Contents (Elt F)),
    unary main_v21 main_v22 (broadcastInDim S128x1496 ![0, 1] bcast_S128x1_S128x1496_0_1 : (⟨S128x1, .i32⟩ : BufTy).Contents (Elt F) → (⟨S128x1496, .i32⟩ : BufTy).Contents (Elt F)),
    binary main_v17 main_v22 main_v23 (addi : (⟨S128x1496, .i32⟩ : BufTy).Contents (Elt F) → (⟨S128x1496, .i32⟩ : BufTy).Contents (Elt F) → (⟨S128x1496, .i32⟩ : BufTy).Contents (Elt F)),
    reshape main_v23 main_v24 rfl shapeCasts_S128x1496_S191488,
    unary main_v5 main_v25 (uitofp .f32 : (⟨S128x1496, .i1⟩ : BufTy).Contents (Elt F) → (⟨S128x1496, .f32⟩ : BufTy).Contents (Elt F)),
    unary main_v25 main_v26 (broadcastInDim S128x1496x1 ![0, 1] bcast_S128x1496_S128x1496x1_0_1 : (⟨S128x1496, .f32⟩ : BufTy).Contents (Elt F) → (⟨S128x1496x1, .f32⟩ : BufTy).Contents (Elt F)),
    unary main_v26 main_v27 (broadcastInDim S128x1496x768 ![0, 1, 2] bcast_S128x1496x1_S128x1496x768_0_1_2 : (⟨S128x1496x1, .f32⟩ : BufTy).Contents (Elt F) → (⟨S128x1496x768, .f32⟩ : BufTy).Contents (Elt F)),
    binary main_arg0 main_v27 main_v28 (mulf : (⟨S128x1496x768, .f32⟩ : BufTy).Contents (Elt F) → (⟨S128x1496x768, .f32⟩ : BufTy).Contents (Elt F) → (⟨S128x1496x768, .f32⟩ : BufTy).Contents (Elt F)),
    reshape main_v28 main_v29 rfl shapeCasts_S128x1496x768_S191488x768,
    nullary main_cst (constant S_ .f32 0x00000000#32),
    unary main_cst main_v30 (broadcastInDim S191488x768 ![] bcast_S_S191488x768 : (⟨S_, .f32⟩ : BufTy).Contents (Elt F) → (⟨S191488x768, .f32⟩ : BufTy).Contents (Elt F)),
    unary main_v24 main_v31 (broadcastInDim S191488x1 ![0] bcast_S191488_S191488x1_0 : (⟨S191488, .i32⟩ : BufTy).Contents (Elt F) → (⟨S191488x1, .i32⟩ : BufTy).Contents (Elt F)),
    ternary main_v30 main_v31 main_v29 main_v32 ((fun x i u => Host.scatterAdd scatter_S191488x768_S191488x1_S191488x768_1_0_0_1 x i u) : (⟨S191488x768, .f32⟩ : BufTy).Contents (Elt F) → (⟨S191488x1, .i32⟩ : BufTy).Contents (Elt F) → (⟨S191488x768, .f32⟩ : BufTy).Contents (Elt F) → (⟨S191488x768, .f32⟩ : BufTy).Contents (Elt F)),
    reshape main_v25 main_v33 rfl shapeCasts_S128x1496_S191488,
    nullary main_cst_3 (constant S_ .f32 0x00000000#32),
    unary main_cst_3 main_v34 (broadcastInDim S191488 ![] bcast_S_S191488 : (⟨S_, .f32⟩ : BufTy).Contents (Elt F) → (⟨S191488, .f32⟩ : BufTy).Contents (Elt F)),
    unary main_v24 main_v35 (broadcastInDim S191488x1 ![0] bcast_S191488_S191488x1_0 : (⟨S191488, .i32⟩ : BufTy).Contents (Elt F) → (⟨S191488x1, .i32⟩ : BufTy).Contents (Elt F)),
    ternary main_v34 main_v35 main_v33 main_v36 ((fun x i u => Host.scatterAdd scatter_S191488_S191488x1_S191488_n_0_0_1 x i u) : (⟨S191488, .f32⟩ : BufTy).Contents (Elt F) → (⟨S191488x1, .i32⟩ : BufTy).Contents (Elt F) → (⟨S191488, .f32⟩ : BufTy).Contents (Elt F) → (⟨S191488, .f32⟩ : BufTy).Contents (Elt F)) ]

/-- Operations 46 … 59: the per-run means, the occupancy and the run count (`main_v42`, `main_v46`, `main_v47`). -/
abbrev w3 : List (HloOp τ sig (Elt F)) :=
  [ nullary main_cst_4 (constant S_ .f32 0x3F800000#32),
    unary main_cst_4 main_v37 (broadcastInDim S191488 ![] bcast_S_S191488 : (⟨S_, .f32⟩ : BufTy).Contents (Elt F) → (⟨S191488, .f32⟩ : BufTy).Contents (Elt F)),
    binary main_v36 main_v37 main_v38 (maximumf : (⟨S191488, .f32⟩ : BufTy).Contents (Elt F) → (⟨S191488, .f32⟩ : BufTy).Contents (Elt F) → (⟨S191488, .f32⟩ : BufTy).Contents (Elt F)),
    unary main_v38 main_v39 (broadcastInDim S191488x1 ![0] bcast_S191488_S191488x1_0 : (⟨S191488, .f32⟩ : BufTy).Contents (Elt F) → (⟨S191488x1, .f32⟩ : BufTy).Contents (Elt F)),
    unary main_v39 main_v40 (broadcastInDim S191488x768 ![0, 1] bcast_S191488x1_S191488x768_0_1 : (⟨S191488x1, .f32⟩ : BufTy).Contents (Elt F) → (⟨S191488x768, .f32⟩ : BufTy).Contents (Elt F)),
    binary main_v32 main_v40 main_v41 (Host.divf : (⟨S191488x768, .f32⟩ : BufTy).Contents (Elt F) → (⟨S191488x768, .f32⟩ : BufTy).Contents (Elt F) → (⟨S191488x768, .f32⟩ : BufTy).Contents (Elt F)),
    reshape main_v41 main_v42 rfl shapeCasts_S191488x768_S128x1496x768,
    reshape main_v36 main_v43 rfl shapeCasts_S191488_S128x1496,
    nullary main_cst_5 (constant S_ .f32 0x00000000#32),
    unary main_cst_5 main_v44 (broadcastInDim S128x1496 ![] bcast_S_S128x1496 : (⟨S_, .f32⟩ : BufTy).Contents (Elt F) → (⟨S128x1496, .f32⟩ : BufTy).Contents (Elt F)),
    binary main_v43 main_v44 main_v45 (cmpf .ogt : (⟨S128x1496, .f32⟩ : BufTy).Contents (Elt F) → (⟨S128x1496, .f32⟩ : BufTy).Contents (Elt F) → (⟨S128x1496, .i1⟩ : BufTy).Contents (Elt F)),
    unary main_v45 main_v46 (uitofp .f32 : (⟨S128x1496, .i1⟩ : BufTy).Contents (Elt F) → (⟨S128x1496, .f32⟩ : BufTy).Contents (Elt F)),
    nullary main_cst_6 (constant S_ .f32 0x00000000#32),
    binary main_v46 main_cst_6 main_v47 ((fun x v => Host.reduceAdd x v reducesTo_S128x1496_S128_d1 h_S_) : (⟨S128x1496, .f32⟩ : BufTy).Contents (Elt F) → (⟨S_, .f32⟩ : BufTy).Contents (Elt F) → (⟨S128, .f32⟩ : BufTy).Contents (Elt F)) ]

/-- Operations 60 … 72: the mean over runs, the contraction and the bias (`main_v59`). -/
abbrev w4 : List (HloOp τ sig (Elt F)) :=
  [ unary main_v46 main_v48 (broadcastInDim S128x1496x1 ![0, 1] bcast_S128x1496_S128x1496x1_0_1 : (⟨S128x1496, .f32⟩ : BufTy).Contents (Elt F) → (⟨S128x1496x1, .f32⟩ : BufTy).Contents (Elt F)),
    unary main_v48 main_v49 (broadcastInDim S128x1496x768 ![0, 1, 2] bcast_S128x1496x1_S128x1496x768_0_1_2 : (⟨S128x1496x1, .f32⟩ : BufTy).Contents (Elt F) → (⟨S128x1496x768, .f32⟩ : BufTy).Contents (Elt F)),
    binary main_v42 main_v49 main_v50 (mulf : (⟨S128x1496x768, .f32⟩ : BufTy).Contents (Elt F) → (⟨S128x1496x768, .f32⟩ : BufTy).Contents (Elt F) → (⟨S128x1496x768, .f32⟩ : BufTy).Contents (Elt F)),
    nullary main_cst_7 (constant S_ .f32 0x00000000#32),
    binary main_v50 main_cst_7 main_v51 ((fun x v => Host.reduceAdd x v reducesTo_S128x1496x768_S128x768_d1 h_S_) : (⟨S128x1496x768, .f32⟩ : BufTy).Contents (Elt F) → (⟨S_, .f32⟩ : BufTy).Contents (Elt F) → (⟨S128x768, .f32⟩ : BufTy).Contents (Elt F)),
    unary main_v47 main_v52 (broadcastInDim S128x1 ![0] bcast_S128_S128x1_0 : (⟨S128, .f32⟩ : BufTy).Contents (Elt F) → (⟨S128x1, .f32⟩ : BufTy).Contents (Elt F)),
    unary main_v52 main_v53 (broadcastInDim S128x768 ![0, 1] bcast_S128x1_S128x768_0_1 : (⟨S128x1, .f32⟩ : BufTy).Contents (Elt F) → (⟨S128x768, .f32⟩ : BufTy).Contents (Elt F)),
    binary main_v51 main_v53 main_v54 (Host.divf : (⟨S128x768, .f32⟩ : BufTy).Contents (Elt F) → (⟨S128x768, .f32⟩ : BufTy).Contents (Elt F) → (⟨S128x768, .f32⟩ : BufTy).Contents (Elt F)),
    unary main_arg1 main_v55 ((transpose S768x1 [1, 0] · transposes_S1x768_S768x1_1_0) : (⟨S1x768, .f32⟩ : BufTy).Contents (Elt F) → (⟨S768x1, .f32⟩ : BufTy).Contents (Elt F)),
    binary main_v54 main_v55 main_v56 ((fun l r => Host.dotGeneral dot_S128x768_S768x1_S128x1_1_0_0_1_n_n none l r) : (⟨S128x768, .f32⟩ : BufTy).Contents (Elt F) → (⟨S768x1, .f32⟩ : BufTy).Contents (Elt F) → (⟨S128x1, .f32⟩ : BufTy).Contents (Elt F)),
    unary main_arg2 main_v57 (broadcastInDim S1x1 ![1] bcast_S1_S1x1_1 : (⟨S1, .f32⟩ : BufTy).Contents (Elt F) → (⟨S1x1, .f32⟩ : BufTy).Contents (Elt F)),
    unary main_v57 main_v58 (broadcastInDim S128x1 ![0, 1] bcast_S1x1_S128x1_0_1 : (⟨S1x1, .f32⟩ : BufTy).Contents (Elt F) → (⟨S128x1, .f32⟩ : BufTy).Contents (Elt F)),
    binary main_v56 main_v58 main_v59 (addf : (⟨S128x1, .f32⟩ : BufTy).Contents (Elt F) → (⟨S128x1, .f32⟩ : BufTy).Contents (Elt F) → (⟨S128x1, .f32⟩ : BufTy).Contents (Elt F)) ]

set_option maxRecDepth 8192 in
/-- The line is its four windows one after the other. -/
theorem ops_eq : (ops : List (HloOp τ sig (Elt F))) = w1 ++ (w2 ++ (w3 ++ w4)) := rfl

/-- The contents after two lines run one after the other: the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The device's buffer contents after window 1, 2, 3, 4. -/
def val1 (V0 : Valuation τ sig (Elt F)) : Valuation τ sig (Elt F) := after w1 V0
@[inherit_doc val1] def val2 (V0 : Valuation τ sig (Elt F)) : Valuation τ sig (Elt F) := after w2 (val1 V0)
@[inherit_doc val1] def val3 (V0 : Valuation τ sig (Elt F)) : Valuation τ sig (Elt F) := after w3 (val2 V0)
@[inherit_doc val1] def val4 (V0 : Valuation τ sig (Elt F)) : Valuation τ sig (Elt F) := after w4 (val3 V0)

theorem after_ops (V0 : Valuation τ sig (Elt F)) : after ops V0 = val4 V0 := by
  rw [ops_eq, after_app, after_app, after_app]; rfl

/-! ### Window 1 -/

set_option maxRecDepth 8192 in
set_option maxHeartbeats 2000000 in
theorem val1_main_v5 (V0 : Valuation τ sig (Elt F)) : val1 V0 (no_index (Proc.devRef .tc main_v5)) = valid (V0 (Proc.devRef .tc main_arg4)) := by
  unfold val1; simp only [w1]; after_results_simp <;> rfl
-- the windowed sum stays folded while the two sides are compared: its body is a fold over the 1496 window positions,
-- which the comparison never needs to open (the two sides apply it to the same operands)
attribute [local irreducible] Host.reduceWindow in
set_option maxRecDepth 8192 in
set_option maxHeartbeats 2000000 in
theorem val1_main_v13 (V0 : Valuation τ sig (Elt F)) : val1 V0 (no_index (Proc.devRef .tc main_v13)) = cumsum (V0 (Proc.devRef .tc main_arg3)) (V0 (Proc.devRef .tc main_arg4)) := by
  unfold val1; simp only [w1]; after_results_simp <;> rfl
set_option maxRecDepth 8192 in
theorem val1_main_arg0 (V0 : Valuation τ sig (Elt F)) : val1 V0 (no_index (Proc.devRef .tc main_arg0)) = (V0 (Proc.devRef .tc main_arg0)) := by
  unfold val1; simp only [w1]; after_results_simp
set_option maxRecDepth 8192 in
theorem val1_main_arg1 (V0 : Valuation τ sig (Elt F)) : val1 V0 (no_index (Proc.devRef .tc main_arg1)) = (V0 (Proc.devRef .tc main_arg1)) := by
  unfold val1; simp only [w1]; after_results_simp
set_option maxRecDepth 8192 in
theorem val1_main_arg2 (V0 : Valuation τ sig (Elt F)) : val1 V0 (no_index (Proc.devRef .tc main_arg2)) = (V0 (Proc.devRef .tc main_arg2)) := by
  unfold val1; simp only [w1]; after_results_simp

/-! ### Window 2 -/

set_option maxRecDepth 8192 in
set_option maxHeartbeats 2000000 in
theorem val2_main_v32 (V0 : Valuation τ sig (Elt F)) : val2 V0 (no_index (Proc.devRef .tc main_v32)) = sums (V0 (Proc.devRef .tc main_arg0)) (V0 (Proc.devRef .tc main_arg3)) (V0 (Proc.devRef .tc main_arg4)) := by
  unfold val2; simp only [w2]; after_results_simp
  simp only [val1_main_v5, val1_main_v13, val1_main_arg0] <;> rfl
set_option maxRecDepth 8192 in
set_option maxHeartbeats 2000000 in
theorem val2_main_v36 (V0 : Valuation τ sig (Elt F)) : val2 V0 (no_index (Proc.devRef .tc main_v36)) = counts (V0 (Proc.devRef .tc main_arg3)) (V0 (Proc.devRef .tc main_arg4)) := by
  unfold val2; simp only [w2]; after_results_simp
  simp only [val1_main_v5, val1_main_v13] <;> rfl
set_option maxRecDepth 8192 in
theorem val2_main_arg1 (V0 : Valuation τ sig (Elt F)) : val2 V0 (no_index (Proc.devRef .tc main_arg1)) = (V0 (Proc.devRef .tc main_arg1)) := by
  unfold val2; simp only [w2]; after_results_simp; exact val1_main_arg1 V0
set_option maxRecDepth 8192 in
theorem val2_main_arg2 (V0 : Valuation τ sig (Elt F)) : val2 V0 (no_index (Proc.devRef .tc main_arg2)) = (V0 (Proc.devRef .tc main_arg2)) := by
  unfold val2; simp only [w2]; after_results_simp; exact val1_main_arg2 V0

/-! ### Window 3 -/

set_option maxRecDepth 8192 in
set_option maxHeartbeats 2000000 in
theorem val3_main_v42 (V0 : Valuation τ sig (Elt F)) : val3 V0 (no_index (Proc.devRef .tc main_v42)) = means (V0 (Proc.devRef .tc main_arg0)) (V0 (Proc.devRef .tc main_arg3)) (V0 (Proc.devRef .tc main_arg4)) := by
  unfold val3; simp only [w3]; after_results_simp
  simp only [val2_main_v32, val2_main_v36] <;> rfl
set_option maxRecDepth 8192 in
set_option maxHeartbeats 2000000 in
theorem val3_main_v46 (V0 : Valuation τ sig (Elt F)) : val3 V0 (no_index (Proc.devRef .tc main_v46)) = occ (V0 (Proc.devRef .tc main_arg3)) (V0 (Proc.devRef .tc main_arg4)) := by
  unfold val3; simp only [w3]; after_results_simp
  simp only [val2_main_v36] <;> rfl
set_option maxRecDepth 8192 in
set_option maxHeartbeats 2000000 in
theorem val3_main_v47 (V0 : Valuation τ sig (Elt F)) : val3 V0 (no_index (Proc.devRef .tc main_v47)) = runs (V0 (Proc.devRef .tc main_arg3)) (V0 (Proc.devRef .tc main_arg4)) := by
  unfold val3; simp only [w3]; after_results_simp
  simp only [val2_main_v36] <;> rfl
set_option maxRecDepth 8192 in
theorem val3_main_arg1 (V0 : Valuation τ sig (Elt F)) : val3 V0 (no_index (Proc.devRef .tc main_arg1)) = (V0 (Proc.devRef .tc main_arg1)) := by
  unfold val3; simp only [w3]; after_results_simp; exact val2_main_arg1 V0
set_option maxRecDepth 8192 in
theorem val3_main_arg2 (V0 : Valuation τ sig (Elt F)) : val3 V0 (no_index (Proc.devRef .tc main_arg2)) = (V0 (Proc.devRef .tc main_arg2)) := by
  unfold val3; simp only [w3]; after_results_simp; exact val2_main_arg2 V0

/-! ### Window 4 -/

set_option maxRecDepth 8192 in
set_option maxHeartbeats 2000000 in
theorem val4_main_v59 (V0 : Valuation τ sig (Elt F)) :
    val4 V0 (no_index (Proc.devRef .tc main_v59)) = out (V0 (Proc.devRef .tc main_arg0)) (V0 (Proc.devRef .tc main_arg1)) (V0 (Proc.devRef .tc main_arg2)) (V0 (Proc.devRef .tc main_arg3)) (V0 (Proc.devRef .tc main_arg4)) := by
  unfold val4; simp only [w4]; after_results_simp
  simp only [val3_main_v42, val3_main_v46, val3_main_v47, val3_main_arg1, val3_main_arg2] <;> rfl

/-! ## The run -/

set_option maxRecDepth 8192 in
set_option maxHeartbeats 8000000 in
/-- On every device, for any float values, from any memory with zero counters: every weakly fair execution of
    @main terminates with the result buffer at `out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v59).trans (by simp only [after_ops]; exact val4_main_v59 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

/-- The reference's frame: it runs, and its five argument arrays end as they began (no precondition is used:
    host operations never fault). -/
theorem frame [hPre_finite_inputs : Cert.Pre_finite_inputs.Facts] : Cert.frame_ReferenceIdeal :=
  fun m ρ _ => (θ_run _ _ _).mono (fun _ h c => (h c).2) (run m ρ)

end Cert.ReferenceIdeal.RefRun

end
-- ==== Proof.LibScatterRows.lean ====
/-
  The host's accumulating scatter read at one element, at the ideal instance (floats are extended reals), for the two
  shapes a segment sum lowers to.

  ROWS. Operand `x : G × C`, scatter indices `i : K × 1`, updates `u : K × C`, with dimension numbers
  update_window_dims = [1], inserted_window_dims = [0], scatter_dims_to_operand_dims = [0], index_vector_dim = 1.
  Update element `(k, c')` lands at operand element `(t, c')` where `t` is the index word `i (k, 0)` READ SIGNED
  (`BitVec.toInt`), not clamped; when `t` is negative or `≥ G` the update is dropped. Hence

      scatterAdd x i u (g, c) = x (g, c) + ∑ k, if (i (k, 0)).toInt = g then u (k, c) else 0.

  SCALARS. Operand `x : G`, scatter indices `i : K × 1`, updates `u : K`, with update_window_dims = [],
  inserted_window_dims = [0], scatter_dims_to_operand_dims = [0], index_vector_dim = 1: likewise

      scatterAdd x i u g = x g + ∑ k, if (i (k, 0)).toInt = g then u k else 0.

  When the number of rows `G` is at most `2 ^ (w - 1)` (`w` the index width) the signed reading meets `g` exactly when
  the unsigned one does (`toInt_eq_iff_toNat_eq`), which gives the `toNat` forms.
-/
import Idealize.ShloMosaic.Lib.ValueIdx
import Idealize.ShloMosaic.PureOps.Contract

noncomputable section

open scoped BigOperators

namespace Idealize.ShloMosaic.LibScatterRows

open Idealize.ShloMosaic Idealize.ShloMosaic.ValueIdx

variable {G K C w : Nat}

/-! ## Rows: a `G × C` operand, `K × 1` indices, `K × C` updates -/

/-- The rows scatter's dimension numbers, with any proof of their well-formedness. -/
abbrev rowsD (G K C : Nat) (wf : ScatterDims.WF ⟨2, ![G, C]⟩ ⟨2, ![K, 1]⟩ ⟨2, ![K, C]⟩ [1] [0] [0] 1) :
    ScatterDims ⟨2, ![G, C]⟩ ⟨2, ![K, 1]⟩ ⟨2, ![K, C]⟩ := ⟨[1], [0], [0], 1, wf⟩

/-- On the row axis the window starts at the index word of the update's row, read signed. -/
theorem rows_start0 (wf) (idx : IVec ⟨2, ![K, 1]⟩ w) (j : (⟨2, ![K, C]⟩ : Shape).Idx) :
    (rowsD G K C wf).start j idx 0 = (idx (ix2 (j 0) 0)).toInt := by
  unfold ScatterDims.start
  simp
  congr 2
  funext b
  match b with
  | ⟨0, _⟩ => rfl
  | ⟨1, _⟩ => rfl

/-- On the column axis the window starts at `0`. -/
theorem rows_start1 (wf) (idx : IVec ⟨2, ![K, 1]⟩ w) (j : (⟨2, ![K, C]⟩ : Shape).Idx) :
    (rowsD G K C wf).start j idx 1 = 0 := by
  unfold ScatterDims.start
  simp

/-- The row axis is inserted: its window coordinate is `0`. -/
theorem rows_window0 (wf) (j : (⟨2, ![K, C]⟩ : Shape).Idx) :
    (rowsD G K C wf).window j 0 = 0 := by
  unfold ScatterDims.window
  rw [dif_neg]
  show (0 : Fin 2) ∉ (List.finRange 2).filter (· ∉ [0])
  decide

/-- The column axis carries the update's column. -/
theorem rows_window1 (wf) (j : (⟨2, ![K, C]⟩ : Shape).Idx) :
    (rowsD G K C wf).window j 1 = (j 1).val := by
  unfold ScatterDims.window
  have hm : (1 : Fin 2) ∈ (rowsD G K C wf).sKept := by
    show (1 : Fin 2) ∈ (List.finRange 2).filter (· ∉ [0])
    decide
  rw [dif_pos hm]
  rfl

/-- Update element `(k, c')` lands on operand element `(g, c)` exactly when its row's index word, read signed, is `g`
    and the columns agree. (A negative index word, or one `≥ G`, lands nowhere.) -/
theorem rows_resultIdx_iff (wf) (idx : IVec ⟨2, ![K, 1]⟩ w) (k : Fin K) (c' c : Fin C) (g : Fin G) :
    (rowsD G K C wf).resultIdx? (ix2 k c') idx = some (ix2 g c)
      ↔ (idx (ix2 k 0)).toInt = (g.val : Int) ∧ c' = c := by
  have h0 : (rowsD G K C wf).start (ix2 k c') idx 0 = (idx (ix2 k 0)).toInt := rows_start0 (G := G) wf idx (ix2 k c')
  have h1 := rows_start1 (G := G) wf idx (ix2 k c')
  have w0 := rows_window0 (G := G) wf (ix2 k c')
  have w1 : (rowsD G K C wf).window (ix2 k c') 1 = c'.val := rows_window1 (G := G) wf (ix2 k c')
  have hg : g.val < G := g.isLt
  have hc : c'.val < C := c'.isLt
  unfold ScatterDims.resultIdx?
  split_ifs with h
  · rw [Option.some.injEq]
    constructor
    · intro he
      have e0 : ((rowsD G K C wf).start (ix2 k c') idx 0 + ((rowsD G K C wf).window (ix2 k c') 0 : Nat)).toNat = g.val :=
        congrArg Fin.val (congrFun he 0)
      have e1 : ((rowsD G K C wf).start (ix2 k c') idx 1 + ((rowsD G K C wf).window (ix2 k c') 1 : Nat)).toNat = c.val :=
        congrArg Fin.val (congrFun he 1)
      have hh : 0 ≤ (rowsD G K C wf).start (ix2 k c') idx 0 + ((rowsD G K C wf).window (ix2 k c') 0 : Nat) := (h 0).1
      rw [h0, w0] at e0 hh
      rw [h1, w1] at e1
      refine ⟨?_, Fin.ext ?_⟩
      · omega
      · omega
    · rintro ⟨ht, rfl⟩
      have e0 : ((rowsD G K C wf).start (ix2 k c') idx 0 + ((rowsD G K C wf).window (ix2 k c') 0 : Nat)).toNat = g.val := by
        rw [h0, w0]; omega
      have e1 : ((rowsD G K C wf).start (ix2 k c') idx 1 + ((rowsD G K C wf).window (ix2 k c') 1 : Nat)).toNat = c'.val := by
        rw [h1, w1]; omega
      funext a
      match a with
      | ⟨0, _⟩ => exact Fin.ext e0
      | ⟨1, _⟩ => exact Fin.ext e1
  · constructor
    · intro he; exact absurd he (by simp)
    · rintro ⟨ht, rfl⟩
      exfalso
      apply h
      have a0 : 0 ≤ (rowsD G K C wf).start (ix2 k c') idx 0 + ((rowsD G K C wf).window (ix2 k c') 0 : Nat) ∧
          (rowsD G K C wf).start (ix2 k c') idx 0 + ((rowsD G K C wf).window (ix2 k c') 0 : Nat) < (G : Int) := by
        rw [h0, w0]; omega
      have a1 : 0 ≤ (rowsD G K C wf).start (ix2 k c') idx 1 + ((rowsD G K C wf).window (ix2 k c') 1 : Nat) ∧
          (rowsD G K C wf).start (ix2 k c') idx 1 + ((rowsD G K C wf).window (ix2 k c') 1 : Nat) < (C : Int) := by
        rw [h1, w1]; omega
      intro a
      match a with
      | ⟨0, _⟩ => exact a0
      | ⟨1, _⟩ => exact a1

/-- ROWS. The accumulating scatter at element `(g, c)`: the operand's element plus the sum of the updates' column-`c`
    elements over the rows `k` whose index word, read signed, is `g`. For ANY dimension-numbers record whose four lists
    are the literals (whatever its well-formedness proof). -/
theorem scatterAdd_rows {φ : FTy} (d : ScatterDims ⟨2, ![G, C]⟩ ⟨2, ![K, 1]⟩ ⟨2, ![K, C]⟩)
    (hd1 : d.updateWindowDims = [1]) (hd2 : d.insertedWindowDims = [0])
    (hd3 : d.scatterDimsToOperandDims = [0]) (hd4 : d.indexVectorDim = 1)
    (x : FVec Ideal ⟨2, ![G, C]⟩ φ) (i : IVec ⟨2, ![K, 1]⟩ w) (u : FVec Ideal ⟨2, ![K, C]⟩ φ)
    (g : Fin G) (c : Fin C) :
    Host.scatterAdd (F := Ideal) d x i u (ix2 g c)
      = x (ix2 g c) + ∑ k : Fin K, if (i (ix2 k 0)).toInt = (g.val : Int) then u (ix2 k c) else 0 := by
  obtain ⟨uw, iw, sd, iv, wf⟩ := d
  simp only at hd1 hd2 hd3 hd4
  subst hd1 hd2 hd3 hd4
  show Ideal.hostScatterAdd (rowsD G K C wf) x i u (ix2 g c) = _
  unfold Ideal.hostScatterAdd
  congr 1
  rw [Finset.sum_filter, sum_idx2]
  refine Finset.sum_congr rfl fun k _ => ?_
  simp only [rows_resultIdx_iff]
  by_cases hP : (i (ix2 k 0)).toInt = (g.val : Int)
  · simp [hP]
  · simp [hP]

/-! ## Scalars: a length-`G` operand, `K × 1` indices, length-`K` updates -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scalars scatter's dimension numbers, with any proof of their well-formedness. -/
abbrev scalD (G K : Nat) (wf : ScatterDims.WF ⟨1, ![G]⟩ ⟨2, ![K, 1]⟩ ⟨1, ![K]⟩ [] [0] [0] 1) :
    ScatterDims ⟨1, ![G]⟩ ⟨2, ![K, 1]⟩ ⟨1, ![K]⟩ := ⟨[], [0], [0], 1, wf⟩

/-- The window starts at the index word of the update's position, read signed. -/
theorem scal_start0 (wf) (idx : IVec ⟨2, ![K, 1]⟩ w) (j : (⟨1, ![K]⟩ : Shape).Idx) :
    (scalD G K wf).start j idx 0 = (idx (ix2 (j 0) 0)).toInt := by
  unfold ScatterDims.start
  simp
  congr 2
  funext b
  match b with
  | ⟨0, _⟩ => rfl
  | ⟨1, _⟩ => rfl

/-- The operand's one axis is inserted: its window coordinate is `0`. -/
theorem scal_window0 (wf) (j : (⟨1, ![K]⟩ : Shape).Idx) :
    (scalD G K wf).window j 0 = 0 := by
  unfold ScatterDims.window
  rw [dif_neg]
  show (0 : Fin 1) ∉ (List.finRange 1).filter (· ∉ [0])
  decide

/-- Update element `k` lands on operand element `g` exactly when its index word, read signed, is `g`. (A negative
    index word, or one `≥ G`, lands nowhere.) -/
theorem scal_resultIdx_iff (wf) (idx : IVec ⟨2, ![K, 1]⟩ w) (k : Fin K) (g : Fin G) :
    (scalD G K wf).resultIdx? (ix1 k) idx = some (ix1 g) ↔ (idx (ix2 k 0)).toInt = (g.val : Int) := by
  have h0 : (scalD G K wf).start (ix1 k) idx 0 = (idx (ix2 k 0)).toInt := scal_start0 (G := G) wf idx (ix1 k)
  have w0 := scal_window0 (G := G) wf (ix1 k)
  have hg : g.val < G := g.isLt
  unfold ScatterDims.resultIdx?
  split_ifs with h
  · rw [Option.some.injEq]
    constructor
    · intro he
      have e0 : ((scalD G K wf).start (ix1 k) idx 0 + ((scalD G K wf).window (ix1 k) 0 : Nat)).toNat = g.val :=
        congrArg Fin.val (congrFun he 0)
      have hh : 0 ≤ (scalD G K wf).start (ix1 k) idx 0 + ((scalD G K wf).window (ix1 k) 0 : Nat) := (h 0).1
      rw [h0, w0] at e0 hh
      omega
    · intro ht
      have e0 : ((scalD G K wf).start (ix1 k) idx 0 + ((scalD G K wf).window (ix1 k) 0 : Nat)).toNat = g.val := by
        rw [h0, w0]; omega
      funext a
      match a with
      | ⟨0, _⟩ => exact Fin.ext e0
  · constructor
    · intro he; exact absurd he (by simp)
    · intro ht
      exfalso
      apply h
      have a0 : 0 ≤ (scalD G K wf).start (ix1 k) idx 0 + ((scalD G K wf).window (ix1 k) 0 : Nat) ∧
          (scalD G K wf).start (ix1 k) idx 0 + ((scalD G K wf).window (ix1 k) 0 : Nat) < (G : Int) := by
        rw [h0, w0]; omega
      intro a
      match a with
      | ⟨0, _⟩ => exact a0

/-- SCALARS. The accumulating scatter at element `g`: the operand's element plus the sum of the updates over the
    positions `k` whose index word, read signed, is `g`. For ANY dimension-numbers record whose four lists are the
    literals (whatever its well-formedness proof). -/
theorem scatterAdd_scalars {φ : FTy} (d : ScatterDims ⟨1, ![G]⟩ ⟨2, ![K, 1]⟩ ⟨1, ![K]⟩)
    (hd1 : d.updateWindowDims = []) (hd2 : d.insertedWindowDims = [0])
    (hd3 : d.scatterDimsToOperandDims = [0]) (hd4 : d.indexVectorDim = 1)
    (x : FVec Ideal ⟨1, ![G]⟩ φ) (i : IVec ⟨2, ![K, 1]⟩ w) (u : FVec Ideal ⟨1, ![K]⟩ φ) (g : Fin G) :
    Host.scatterAdd (F := Ideal) d x i u (ix1 g)
      = x (ix1 g) + ∑ k : Fin K, if (i (ix2 k 0)).toInt = (g.val : Int) then u (ix1 k) else 0 := by
  obtain ⟨uw, iw, sd, iv, wf⟩ := d
  simp only at hd1 hd2 hd3 hd4
  subst hd1 hd2 hd3 hd4
  show Ideal.hostScatterAdd (scalD G K wf) x i u (ix1 g) = _
  unfold Ideal.hostScatterAdd
  congr 1
  rw [Finset.sum_filter, sum_idx1]
  refine Finset.sum_congr rfl fun k _ => ?_
  simp only [scal_resultIdx_iff]

/-! ## The signed and the unsigned reading of an index word -/

/-- For `g` below `2 ^ (w - 1)` (in particular below any row count `G ≤ 2 ^ (w - 1)`), an index word reads `g` signed
    exactly when it reads `g` unsigned. -/
theorem toInt_eq_iff_toNat_eq (b : BitVec w) (g : Nat) (hg : 2 * g < 2 ^ w) :
    b.toInt = (g : Int) ↔ b.toNat = g := by
  have hb := b.isLt
  rw [BitVec.toInt_eq_toNat_cond]
  split_ifs with h <;> omega

/-- ROWS, unsigned form: when `2 * G ≤ 2 ^ w` the signed reading may be replaced by `toNat`. -/
theorem scatterAdd_rows_toNat {φ : FTy} (d : ScatterDims ⟨2, ![G, C]⟩ ⟨2, ![K, 1]⟩ ⟨2, ![K, C]⟩)
    (hd1 : d.updateWindowDims = [1]) (hd2 : d.insertedWindowDims = [0])
    (hd3 : d.scatterDimsToOperandDims = [0]) (hd4 : d.indexVectorDim = 1) (hG : 2 * G ≤ 2 ^ w)
    (x : FVec Ideal ⟨2, ![G, C]⟩ φ) (i : IVec ⟨2, ![K, 1]⟩ w) (u : FVec Ideal ⟨2, ![K, C]⟩ φ)
    (g : Fin G) (c : Fin C) :
    Host.scatterAdd (F := Ideal) d x i u (ix2 g c)
      = x (ix2 g c) + ∑ k : Fin K, if (i (ix2 k 0)).toNat = g.val then u (ix2 k c) else 0 := by
  rw [scatterAdd_rows d hd1 hd2 hd3 hd4]
  have hg : 2 * g.val < 2 ^ w := by have := g.isLt; omega
  simp only [toInt_eq_iff_toNat_eq _ _ hg]

/-- SCALARS, unsigned form: when `2 * G ≤ 2 ^ w` the signed reading may be replaced by `toNat`. -/
theorem scatterAdd_scalars_toNat {φ : FTy} (d : ScatterDims ⟨1, ![G]⟩ ⟨2, ![K, 1]⟩ ⟨1, ![K]⟩)
    (hd1 : d.updateWindowDims = []) (hd2 : d.insertedWindowDims = [0])
    (hd3 : d.scatterDimsToOperandDims = [0]) (hd4 : d.indexVectorDim = 1) (hG : 2 * G ≤ 2 ^ w)
    (x : FVec Ideal ⟨1, ![G]⟩ φ) (i : IVec ⟨2, ![K, 1]⟩ w) (u : FVec Ideal ⟨1, ![K]⟩ φ) (g : Fin G) :
    Host.scatterAdd (F := Ideal) d x i u (ix1 g)
      = x (ix1 g) + ∑ k : Fin K, if (i (ix2 k 0)).toNat = g.val then u (ix1 k) else 0 := by
  rw [scatterAdd_scalars d hd1 hd2 hd3 hd4]
  have hg : 2 * g.val < 2 ^ w := by have := g.isLt; omega
  simp only [toInt_eq_iff_toNat_eq _ _ hg]

end Idealize.ShloMosaic.LibScatterRows
-- ==== Proof.LibSegSum.lean ====
/-
  Flat row-major indexing of an `M × N` grid by `P = M * N` positions, `(b, t) ↦ b * N + t`:
  · the position is below `P` (`flat`), and two positions agree exactly when both coordinates do (`flat_eq_iff`);
  · a sum over the `P` positions is the double sum over the grid (`sum_flat`);
  · a reshape between `M × N` and `P`, or `M × N × C` and `P × C`, read at a flat position, is the operand at the
    grid coordinates (`shapeCast_flat2` …);
  · SEGMENT SUMS. An accumulating scatter of `P` update rows into `P` operand rows whose index word at position
    `(b', t)` reads `b' * N + σ b' t` with `σ b' t < N` (every update of grid row `b'` lands inside block `b'`) has, at
    operand row `(b, r)`, the operand's element plus the sum of the updates of grid row `b` alone whose `σ` is `r`
    (`scatterAdd_rows_seg`, `scatterAdd_scalars_seg`).
-/
import Idealize.ShloMosaic.Lib.ValueIdx
import Idealize.ShloMosaic.Lib.Pipeline.Value
import proofs.«132348_j86689619902579_2_alg».proof.Proof.LibScatterRows

noncomputable section

open scoped BigOperators

namespace Idealize.ShloMosaic.LibSegSum

open Idealize.ShloMosaic Idealize.ShloMosaic.ValueIdx Idealize.ShloMosaic.LibScatterRows

variable {M N P C w : Nat}

/-! ## The flat position -/

/-- `b * N + t` is a position of the flattened grid. -/
theorem flat_lt (hP : M * N = P) (b : Fin M) (t : Fin N) : b.val * N + t.val < P := by
  subst hP
  have h1 : b.val * N + t.val < b.val * N + N := Nat.add_lt_add_left t.isLt _
  have h2 : b.val * N + N = (b.val + 1) * N := by rw [Nat.add_mul, Nat.one_mul]
  have h3 : (b.val + 1) * N ≤ M * N := Nat.mul_le_mul_right _ b.isLt
  omega

/-- The flat position of grid coordinates `(b, t)`: `b * N + t`. -/
def flat (hP : M * N = P) (b : Fin M) (t : Fin N) : Fin P := ⟨b.val * N + t.val, flat_lt hP b t⟩

@[simp] theorem flat_val (hP : M * N = P) (b : Fin M) (t : Fin N) : (flat hP b t).val = b.val * N + t.val := rfl

/-- Two flat positions with column parts below `N` agree exactly when the rows and the columns agree. -/
theorem flat_eq_iff {b b' r r' : Nat} (hr : r < N) (hr' : r' < N) :
    b' * N + r' = b * N + r ↔ b' = b ∧ r' = r := by
  constructor
  · intro h
    have hN : 0 < N := by omega
    have h1 : (N * b' + r') / N = (N * b + r) / N := by rw [Nat.mul_comm N b', Nat.mul_comm N b, h]
    have h2 : (N * b' + r') % N = (N * b + r) % N := by rw [Nat.mul_comm N b', Nat.mul_comm N b, h]
    rw [Nat.mul_add_div hN, Nat.mul_add_div hN, Nat.div_eq_of_lt hr, Nat.div_eq_of_lt hr'] at h1
    rw [Nat.mul_add_mod, Nat.mul_add_mod, Nat.mod_eq_of_lt hr, Nat.mod_eq_of_lt hr'] at h2
    exact ⟨by omega, h2⟩
  · rintro ⟨rfl, rfl⟩; rfl

/-- Two flat positions agree exactly when their grid coordinates do. -/
theorem flat_inj (hP : M * N = P) (b b' : Fin M) (t t' : Fin N) : flat hP b' t' = flat hP b t ↔ b' = b ∧ t' = t := by
  rw [Fin.ext_iff, flat_val, flat_val, flat_eq_iff t.isLt t'.isLt, Fin.ext_iff, Fin.ext_iff]

/-! ## A sum over the flat positions -/

/-- The grid is the flat range: `(b, t) ↦ b * N + t` is a bijection. -/
def flatEquiv (hP : M * N = P) : Fin M × Fin N ≃ Fin P :=
  (finProdFinEquiv (m := M) (n := N)).trans (finCongr hP)

theorem flatEquiv_apply (hP : M * N = P) (b : Fin M) (t : Fin N) : flatEquiv hP (b, t) = flat hP b t := by
  apply Fin.ext
  simp [flatEquiv, flat, Nat.mul_comm, Nat.add_comm]

/-- A sum over the `P = M * N` flat positions is the double sum over the grid. -/
theorem sum_flat {α : Type*} [AddCommMonoid α] (hP : M * N = P) (f : Fin P → α) :
    ∑ k : Fin P, f k = ∑ b : Fin M, ∑ t : Fin N, f (flat hP b t) := by
  rw [← Equiv.sum_comp (flatEquiv hP) f, Fintype.sum_prod_type]
  simp only [flatEquiv_apply]

/-! ## Reshapes read at a flat position -/

section Reshape
variable {α : Type}

/-- `M × N` flattened to `P`, read at `b * N + t`, is the operand at `(b, t)`. -/
theorem shapeCast_flat2 (hP : M * N = P) (x : (⟨2, ![M, N]⟩ : Shape).Idx → α)
    (h : (⟨2, ![M, N]⟩ : Shape).ShapeCasts ⟨1, ![P]⟩) (b : Fin M) (t : Fin N) :
    shapeCast ⟨1, ![P]⟩ x h (ix1 (flat hP b t)) = x (ix2 b t) :=
  shapeCast_apply x h _ _ (by rw [Shape.rowMajor_val_two, Shape.rowMajor_val_one]; rfl)

/-- `P` unflattened to `M × N`, read at `(b, t)`, is the operand at `b * N + t`. -/
theorem shapeCast_unflat2 (hP : M * N = P) (y : (⟨1, ![P]⟩ : Shape).Idx → α)
    (h : (⟨1, ![P]⟩ : Shape).ShapeCasts ⟨2, ![M, N]⟩) (b : Fin M) (t : Fin N) :
    shapeCast ⟨2, ![M, N]⟩ y h (ix2 b t) = y (ix1 (flat hP b t)) :=
  shapeCast_apply y h _ _ (by rw [Shape.rowMajor_val_two, Shape.rowMajor_val_one]; rfl)

/-- `M × N × C` flattened to `P × C`, read at `(b * N + t, c)`, is the operand at `(b, t, c)`. -/
theorem shapeCast_flat3 (hP : M * N = P) (x : (⟨3, ![M, N, C]⟩ : Shape).Idx → α)
    (h : (⟨3, ![M, N, C]⟩ : Shape).ShapeCasts ⟨2, ![P, C]⟩) (b : Fin M) (t : Fin N) (c : Fin C) :
    shapeCast ⟨2, ![P, C]⟩ x h (ix2 (flat hP b t) c) = x (ix3 b t c) :=
  shapeCast_apply x h _ _ (by rw [Shape.rowMajor_val_three, Shape.rowMajor_val_two]; rfl)

/-- `P × C` unflattened to `M × N × C`, read at `(b, t, c)`, is the operand at `(b * N + t, c)`. -/
theorem shapeCast_unflat3 (hP : M * N = P) (y : (⟨2, ![P, C]⟩ : Shape).Idx → α)
    (h : (⟨2, ![P, C]⟩ : Shape).ShapeCasts ⟨3, ![M, N, C]⟩) (b : Fin M) (t : Fin N) (c : Fin C) :
    shapeCast ⟨3, ![M, N, C]⟩ y h (ix3 b t c) = y (ix2 (flat hP b t) c) :=
  shapeCast_apply y h _ _ (by rw [Shape.rowMajor_val_three, Shape.rowMajor_val_two]; rfl)

end Reshape

/-! ## Segment sums: the accumulating scatter when every update of grid row `b'` lands inside block `b'` -/

section Seg
variable {φ : FTy}

/-- ROWS, by blocks (signed reading). If the index word at flat position `(b', t)` reads `b' * N + σ b' t` with
    `σ b' t < N`, then at operand row `(b, r)` only grid row `b` contributes: the operand's element plus the sum of the
    updates `(b, t)` with `σ b t = r`. -/
theorem scatterAdd_rows_seg (hP : M * N = P) (d : ScatterDims ⟨2, ![P, C]⟩ ⟨2, ![P, 1]⟩ ⟨2, ![P, C]⟩)
    (hd1 : d.updateWindowDims = [1]) (hd2 : d.insertedWindowDims = [0])
    (hd3 : d.scatterDimsToOperandDims = [0]) (hd4 : d.indexVectorDim = 1)
    (x : FVec Ideal ⟨2, ![P, C]⟩ φ) (i : IVec ⟨2, ![P, 1]⟩ w) (u : FVec Ideal ⟨2, ![P, C]⟩ φ)
    (σ : Fin M → Fin N → Nat) (hσ : ∀ b t, σ b t < N)
    (hi : ∀ b t, (i (ix2 (flat hP b t) 0)).toInt = ((b.val * N + σ b t : Nat) : Int))
    (b : Fin M) (r : Fin N) (c : Fin C) :
    Host.scatterAdd (F := Ideal) d x i u (ix2 (flat hP b r) c)
      = x (ix2 (flat hP b r) c) + ∑ t : Fin N, if σ b t = r.val then u (ix2 (flat hP b t) c) else 0 := by
  rw [scatterAdd_rows d hd1 hd2 hd3 hd4, sum_flat hP]
  congr 1
  have hcond : ∀ (b' : Fin M) (t : Fin N),
      ((i (ix2 (flat hP b' t) 0)).toInt = (((flat hP b r).val : Nat) : Int)) ↔ (b' = b ∧ σ b' t = r.val) := by
    intro b' t
    rw [hi, flat_val, Nat.cast_inj, flat_eq_iff r.isLt (hσ b' t), Fin.ext_iff]
  simp only [hcond]
  rw [Finset.sum_eq_single b]
  · simp
  · intro b' _ hb'; simp [hb']
  · intro h; exact absurd (Finset.mem_univ b) h

/-- SCALARS, by blocks (signed reading): as `scatterAdd_rows_seg`, for a length-`P` operand and updates. -/
theorem scatterAdd_scalars_seg (hP : M * N = P) (d : ScatterDims ⟨1, ![P]⟩ ⟨2, ![P, 1]⟩ ⟨1, ![P]⟩)
    (hd1 : d.updateWindowDims = []) (hd2 : d.insertedWindowDims = [0])
    (hd3 : d.scatterDimsToOperandDims = [0]) (hd4 : d.indexVectorDim = 1)
    (x : FVec Ideal ⟨1, ![P]⟩ φ) (i : IVec ⟨2, ![P, 1]⟩ w) (u : FVec Ideal ⟨1, ![P]⟩ φ)
    (σ : Fin M → Fin N → Nat) (hσ : ∀ b t, σ b t < N)
    (hi : ∀ b t, (i (ix2 (flat hP b t) 0)).toInt = ((b.val * N + σ b t : Nat) : Int))
    (b : Fin M) (r : Fin N) :
    Host.scatterAdd (F := Ideal) d x i u (ix1 (flat hP b r))
      = x (ix1 (flat hP b r)) + ∑ t : Fin N, if σ b t = r.val then u (ix1 (flat hP b t)) else 0 := by
  rw [scatterAdd_scalars d hd1 hd2 hd3 hd4, sum_flat hP]
  congr 1
  have hcond : ∀ (b' : Fin M) (t : Fin N),
      ((i (ix2 (flat hP b' t) 0)).toInt = (((flat hP b r).val : Nat) : Int)) ↔ (b' = b ∧ σ b' t = r.val) := by
    intro b' t
    rw [hi, flat_val, Nat.cast_inj, flat_eq_iff r.isLt (hσ b' t), Fin.ext_iff]
  simp only [hcond]
  rw [Finset.sum_eq_single b]
  · simp
  · intro b' _ hb'; simp [hb']
  · intro h; exact absurd (Finset.mem_univ b) h

/-- An index word whose unsigned reading is `n` with `2 * n < 2 ^ w` reads `n` signed as well. -/
theorem toInt_of_toNat (v : BitVec w) (n : Nat) (hn : 2 * n < 2 ^ w) (hv : v.toNat = n) : v.toInt = (n : Int) :=
  (toInt_eq_iff_toNat_eq v n hn).2 hv

/-- ROWS, by blocks, the index words given by their unsigned reading (`2 * P ≤ 2 ^ w`). -/
theorem scatterAdd_rows_seg_toNat (hP : M * N = P) (hw : 2 * P ≤ 2 ^ w)
    (d : ScatterDims ⟨2, ![P, C]⟩ ⟨2, ![P, 1]⟩ ⟨2, ![P, C]⟩)
    (hd1 : d.updateWindowDims = [1]) (hd2 : d.insertedWindowDims = [0])
    (hd3 : d.scatterDimsToOperandDims = [0]) (hd4 : d.indexVectorDim = 1)
    (x : FVec Ideal ⟨2, ![P, C]⟩ φ) (i : IVec ⟨2, ![P, 1]⟩ w) (u : FVec Ideal ⟨2, ![P, C]⟩ φ)
    (σ : Fin M → Fin N → Nat) (hσ : ∀ b t, σ b t < N)
    (hi : ∀ b t, (i (ix2 (flat hP b t) 0)).toNat = b.val * N + σ b t)
    (b : Fin M) (r : Fin N) (c : Fin C) :
    Host.scatterAdd (F := Ideal) d x i u (ix2 (flat hP b r) c)
      = x (ix2 (flat hP b r) c) + ∑ t : Fin N, if σ b t = r.val then u (ix2 (flat hP b t) c) else 0 :=
  scatterAdd_rows_seg hP d hd1 hd2 hd3 hd4 x i u σ hσ (fun b' t => toInt_of_toNat _ _ (by
    have := flat_lt hP b' ⟨σ b' t, hσ b' t⟩
    simp only at this
    omega) (hi b' t)) b r c

/-- SCALARS, by blocks, the index words given by their unsigned reading (`2 * P ≤ 2 ^ w`). -/
theorem scatterAdd_scalars_seg_toNat (hP : M * N = P) (hw : 2 * P ≤ 2 ^ w)
    (d : ScatterDims ⟨1, ![P]⟩ ⟨2, ![P, 1]⟩ ⟨1, ![P]⟩)
    (hd1 : d.updateWindowDims = []) (hd2 : d.insertedWindowDims = [0])
    (hd3 : d.scatterDimsToOperandDims = [0]) (hd4 : d.indexVectorDim = 1)
    (x : FVec Ideal ⟨1, ![P]⟩ φ) (i : IVec ⟨2, ![P, 1]⟩ w) (u : FVec Ideal ⟨1, ![P]⟩ φ)
    (σ : Fin M → Fin N → Nat) (hσ : ∀ b t, σ b t < N)
    (hi : ∀ b t, (i (ix2 (flat hP b t) 0)).toNat = b.val * N + σ b t)
    (b : Fin M) (r : Fin N) :
    Host.scatterAdd (F := Ideal) d x i u (ix1 (flat hP b r))
      = x (ix1 (flat hP b r)) + ∑ t : Fin N, if σ b t = r.val then u (ix1 (flat hP b t)) else 0 :=
  scatterAdd_scalars_seg hP d hd1 hd2 hd3 hd4 x i u σ hσ (fun b' t => toInt_of_toNat _ _ (by
    have := flat_lt hP b' ⟨σ b' t, hσ b' t⟩
    simp only at this
    omega) (hi b' t)) b r

end Seg

/-! ## The index column: a length-`P` vector broadcast to `P × 1` -/

/-- A length-`P` vector broadcast along axis 0 into a `P × 1` column reads, at `(k, 0)`, the vector at `k`. -/
theorem broadcastInDim_col {α : Type} (h : (⟨1, ![P]⟩ : Shape).BroadcastsInDim ⟨2, ![P, 1]⟩ ![0])
    (y : (⟨1, ![P]⟩ : Shape).Idx → α) (k : Fin P) (z : Fin 1) :
    broadcastInDim ⟨2, ![P, 1]⟩ ![0] h y (ix2 k z) = y (ix1 k) :=
  broadcastInDim_apply _ h y _ _ (fun a => by
    match a with
    | ⟨0, _⟩ =>
      show k.val = if P = 1 then 0 else k.val
      split_ifs with hP1
      · have := k.isLt; omega
      · rfl)

end Idealize.ShloMosaic.LibSegSum
-- ==== Proof.RefMask.lean ====
/-
The reference's masks and table rows, read at an index.

For batch row b and frame t: the validity mask is 1 exactly when t is below the clipped length; the boundary mask
is 1 exactly when t starts a run; the running sum of the boundary mask is the count C t of boundaries at
positions ≤ t; the table row of the frame, read signed at the flat position b · 1496 + t, is b · 1496 + seg t;
and the validity mask as a float is 1 on valid frames and 0 elsewhere.
-/
import proofs.«132348_j86689619902579_2_alg».proof.Proof.MaskFacts
import proofs.«132348_j86689619902579_2_alg».proof.Proof.SegFacts
import proofs.«132348_j86689619902579_2_alg».proof.Proof.RefStages
import proofs.«132348_j86689619902579_2_alg».proof.Proof.LibSegSum

noncomputable section

namespace Cert.ReferenceIdeal.RefMask

open Cert.ReferenceIdeal Cert.ReferenceIdeal.Gen Idealize.ShloMosaic Idealize.ShloMosaic.ValueIdx
open Idealize.ShloMosaic.LibSegSum

/-- The flattened table has 128 · 1496 rows. -/
theorem hP : 128 * 1496 = 191488 := by norm_num

variable (a3 : IVec ⟨2, ![128, 1496]⟩ 32) (a4 : IVec ⟨1, ![128]⟩ 32)

theorem valid_iff (b : Fin 128) (t : Fin 1496) :
    RefRun.valid (F := Ideal) a4 (ix2 b t) = 1#1 ↔ t.val < Cert.Row.L a4 b :=
  Cert.Mask.valid_iff a4 _ _ _ _ b t

theorem boundary_iff (b : Fin 128) (t : Fin 1496) :
    RefRun.boundary (F := Ideal) a3 a4 (ix2 b t) = 1#1 ↔ Cert.Row.bnd a3 a4 b t.val :=
  Cert.Mask.boundary_iff a3 a4 _ _ _ _ _ _ _ _ b t

theorem cumsum_eq (b : Fin 128) (t : Fin 1496) :
    RefRun.cumsum (F := Ideal) a3 a4 (ix2 b t)
      = BitVec.ofNat 32 (Cert.RunMath.C (Cert.Row.bnd a3 a4 b) t.val) :=
  Cert.Seg.cumsum_of_mask a3 a4 (RefRun.boundary (F := Ideal) a3 a4) (boundary_iff a3 a4) _ _
    (by rw [broadcastInDim_scalar_apply, constantI_apply]) _ _ b t

theorem segIds_toInt (b : Fin 128) (t : Fin 1496) :
    (RefRun.segIds (F := Ideal) a3 a4 (ix1 (flat hP b t))).toInt
      = ((b.val * 1496 + Cert.RunMath.seg (Cert.Row.bnd a3 a4 b) t.val : ℕ) : ℤ) := by
  unfold RefRun.segIds
  rw [shapeCast_flat2 hP _ _ b t]
  simp only [addi, maxsi, subi, muli]
  rw [broadcastInDim_scalar_apply, broadcastInDim_scalar_apply, Cert.Mask.bcast_col]
  simp only [muli]
  rw [Cert.Mask.bcast_vec_col, broadcastInDim_scalar_apply, iotaInDim_apply]
  simp only [constantI_apply]
  rw [cumsum_eq]
  have hC : Cert.RunMath.C (Cert.Row.bnd a3 a4 b) t.val ≤ 1496 := by
    have h1 := Cert.Seg.C_le (Cert.Row.bnd a3 a4 b) t.val
    have h2 := t.isLt
    omega
  exact Cert.Seg.segword_toInt _ b.val hC b.isLt

/-- The run number of a frame of the row is below the number of frames. -/
theorem seg_lt (b : Fin 128) (t : Fin 1496) : Cert.RunMath.seg (Cert.Row.bnd a3 a4 b) t.val < 1496 := by
  have h1 := Cert.Seg.C_le (Cert.Row.bnd a3 a4 b) t.val
  have h2 := t.isLt
  unfold Cert.RunMath.seg
  omega

/-- The validity mask as a float: one on valid frames, zero elsewhere. -/
theorem validF_eq (b : Fin 128) (t : Fin 1496) :
    RefRun.validF (F := Ideal) a4 (ix2 b t) = if t.val < Cert.Row.L a4 b then (1 : EReal) else 0 := by
  show (((RefRun.valid (F := Ideal) a4 (ix2 b t)).toNat : ℝ) : EReal) = _
  by_cases h : t.val < Cert.Row.L a4 b
  · rw [if_pos h, (valid_iff a4 b t).mpr h]
    simp
  · rw [if_neg h]
    have h0 : RefRun.valid (F := Ideal) a4 (ix2 b t) = 0#1 :=
      eq_zero_of_ne_one (fun h1 => h ((valid_iff a4 b t).mp h1))
    rw [h0]
    simp

end Cert.ReferenceIdeal.RefMask
-- ==== Proof.RefSums.lean ====
/-
The reference's per-run sums and counts, read at a table row.

The table row b · 1496 + r collects the frames t of batch row b whose run number is r (rows of other batch rows
land elsewhere, since a run number is below 1496).  The sums accumulate the hidden state times the validity
mask, from zero: an invalid frame adds a real number times zero, a valid one adds the number itself, so for
real-valued hidden states the entry is the real sum over the valid frames of run r; the counts accumulate the
validity mask, so the entry is the number of valid frames of run r.
-/
import proofs.«132348_j86689619902579_2_alg».proof.Proof.RefMask
import proofs.«132348_j86689619902579_2_alg».proof.Proof.LibERealSum
import Idealize.ShloMosaic.Lib.IdealHost

noncomputable section

namespace Cert.ReferenceIdeal.RefSums

open Cert.ReferenceIdeal Cert.ReferenceIdeal.Gen Idealize.ShloMosaic Idealize.ShloMosaic.ValueIdx
open Idealize.ShloMosaic.LibSegSum Cert.ReferenceIdeal.RefMask
open scoped BigOperators

/-! ## Two rank-3 broadcasts read at an index -/

section bcast3
variable {α : Type} {M N K : ℕ}

/-- An `M × N` matrix placed as `M × N × 1`. -/
theorem bcast_mat3 (h : (⟨2, ![M, N]⟩ : Shape).BroadcastsInDim ⟨3, ![M, N, 1]⟩ ![0, 1])
    (x : (⟨2, ![M, N]⟩ : Shape).Idx → α) (b : Fin M) (t : Fin N) (z : Fin 1) :
    broadcastInDim ⟨3, ![M, N, 1]⟩ ![0, 1] h x (ix3 b t z) = x (ix2 b t) := by
  apply broadcastInDim_apply
  intro a
  match a with
  | ⟨0, _⟩ =>
    show b.val = if M = 1 then 0 else b.val
    split_ifs with hM
    · have := b.isLt; omega
    · rfl
  | ⟨1, _⟩ =>
    show t.val = if N = 1 then 0 else t.val
    split_ifs with hN
    · have := t.isLt; omega
    · rfl

/-- An `M × N × 1` array repeated along its last axis. -/
theorem bcast_last3 (h : (⟨3, ![M, N, 1]⟩ : Shape).BroadcastsInDim ⟨3, ![M, N, K]⟩ ![0, 1, 2])
    (x : (⟨3, ![M, N, 1]⟩ : Shape).Idx → α) (b : Fin M) (t : Fin N) (c : Fin K) :
    broadcastInDim ⟨3, ![M, N, K]⟩ ![0, 1, 2] h x (ix3 b t c) = x (ix3 b t 0) := by
  apply broadcastInDim_apply
  intro a
  match a with
  | ⟨0, _⟩ =>
    show b.val = if M = 1 then 0 else b.val
    split_ifs with hM
    · have := b.isLt; omega
    · rfl
  | ⟨1, _⟩ =>
    show t.val = if N = 1 then 0 else t.val
    split_ifs with hN
    · have := t.isLt; omega
    · rfl
  | ⟨2, _⟩ => simp

end bcast3

/-! ## A sum over the frames of a row, restricted to the valid frames of one run -/

theorem seg_sum_coe (L : ℕ) (σ : ℕ → ℕ) (r : ℕ) (g : ℕ → ℝ) :
    (∑ t : Fin 1496, if σ t.val = r then (if t.val < L then ((g t.val : ℝ) : EReal) else 0) else 0)
      = ((∑ t' ∈ (Finset.range 1496).filter (fun t' => t' < L ∧ σ t' = r), g t' : ℝ) : EReal) := by
  rw [Cert.ERealSum.coe_sum, Finset.sum_filter,
    ← Fin.sum_univ_eq_sum_range (fun t' => if t' < L ∧ σ t' = r then ((g t' : ℝ) : EReal) else 0) 1496]
  apply Finset.sum_congr rfl
  intro t _
  by_cases h1 : σ t.val = r <;> by_cases h2 : t.val < L <;> simp [h1, h2]

variable (a0 : FVec Ideal ⟨3, ![128, 1496, 768]⟩ .f32) (a3 : IVec ⟨2, ![128, 1496]⟩ 32) (a4 : IVec ⟨1, ![128]⟩ 32)

/-- The index column of the two scatters reads the table row of each frame. -/
theorem index_col (b : Fin 128) (t : Fin 1496) :
    (broadcastInDim S191488x1 ![0] bcast_S191488_S191488x1_0 (RefRun.segIds (F := Ideal) a3 a4)
        (ix2 (flat hP b t) 0)).toInt
      = ((b.val * 1496 + Cert.RunMath.seg (Cert.Row.bnd a3 a4 b) t.val : ℕ) : ℤ) := by
  rw [broadcastInDim_col]
  exact segIds_toInt a3 a4 b t

theorem sums_eq (h0 : ∀ i, ∃ x : ℝ, a0 i = (x : EReal)) (b : Fin 128) (r : Fin 1496) (c : Fin 768) :
    RefRun.sums (F := Ideal) a0 a3 a4 (ix2 (flat hP b r) c)
      = ((∑ t' ∈ (Finset.range 1496).filter
            (fun t' => t' < Cert.Row.L a4 b ∧ Cert.RunMath.seg (Cert.Row.bnd a3 a4 b) t' = r.val),
          Cert.Row.hrow a0 b c t' : ℝ) : EReal) := by
  unfold RefRun.sums
  rw [scatterAdd_rows_seg hP _ rfl rfl rfl rfl _ _ _
    (fun b t => Cert.RunMath.seg (Cert.Row.bnd a3 a4 b) t.val) (seg_lt a3 a4) (index_col a3 a4) b r c]
  rw [broadcastInDim_scalar_apply, constant_apply, Ideal.ofBits_zero_f32, zero_add, ← seg_sum_coe]
  apply Finset.sum_congr rfl
  intro t _
  by_cases hσ : Cert.RunMath.seg (Cert.Row.bnd a3 a4 b) t.val = r.val
  · rw [if_pos hσ, if_pos hσ, shapeCast_flat3 hP _ _ b t c, mulf_apply, bcast_last3, bcast_mat3, validF_eq]
    obtain ⟨x, hx⟩ := h0 (ix3 b t c)
    by_cases hl : t.val < Cert.Row.L a4 b
    · rw [if_pos hl, if_pos hl, mul_one]
      unfold Cert.Row.hrow
      rw [dif_pos t.isLt]
      show a0 (ix3 b t c) = _
      rw [hx, EReal.toReal_coe]
    · rw [if_neg hl, if_neg hl, mul_zero]
  · rw [if_neg hσ, if_neg hσ]

theorem counts_eq (b : Fin 128) (r : Fin 1496) :
    RefRun.counts (F := Ideal) a3 a4 (ix1 (flat hP b r))
      = (((Cert.RunMath.cnt 1496 (Cert.Row.L a4 b) (Cert.Row.bnd a3 a4 b) r.val : ℕ) : ℝ) : EReal) := by
  unfold RefRun.counts
  rw [scatterAdd_scalars_seg hP _ rfl rfl rfl rfl _ _ _
    (fun b t => Cert.RunMath.seg (Cert.Row.bnd a3 a4 b) t.val) (seg_lt a3 a4) (index_col a3 a4) b r]
  rw [broadcastInDim_scalar_apply, constant_apply, Ideal.ofBits_zero_f32, zero_add]
  unfold Cert.RunMath.cnt
  rw [Finset.cast_card, ← seg_sum_coe]
  apply Finset.sum_congr rfl
  intro t _
  by_cases hσ : Cert.RunMath.seg (Cert.Row.bnd a3 a4 b) t.val = r.val
  · rw [if_pos hσ, if_pos hσ, shapeCast_flat2 hP _ _ b t, validF_eq, EReal.coe_one]
  · rw [if_neg hσ, if_neg hσ]

end Cert.ReferenceIdeal.RefSums
-- ==== Proof.RefFeat.lean ====
/-
The reference's feature, read at an index.

For batch row b, run slot r and channel c: the per-run mean is the real sum of the run divided by
max(count, 1); the occupancy is 1 when the count is positive and 0 otherwise; the number of runs is the sum of
the occupancies; the feature is the sum over the slots of mean × occupancy divided by the number of runs.
With real-valued hidden states and a length of at least one, the divisors are real numbers that are at least
one, so every quotient is the quotient of real numbers, and the feature is the real number of the definition.
-/
import proofs.«132348_j86689619902579_2_alg».proof.Proof.RefSums
import Idealize.ShloMosaic.PureOps.Ideal.Laws

noncomputable section

namespace Cert.ReferenceIdeal.RefFeat

open Cert.ReferenceIdeal Cert.ReferenceIdeal.Gen Idealize.ShloMosaic Idealize.ShloMosaic.ValueIdx
open Idealize.ShloMosaic.LibSegSum Cert.ReferenceIdeal.RefMask Cert.ReferenceIdeal.RefSums
open scoped BigOperators

/-- The maximum of a real number and one, read in the extended reals. -/
theorem coe_max_one (x : ℝ) : max ((x : ℝ) : EReal) 1 = ((max x 1 : ℝ) : EReal) := by
  rw [← EReal.coe_one]
  exact (EReal.coe_strictMono.monotone.map_max).symm

/-- The quotient of two real numbers, the divisor not zero, on the extended reals. -/
theorem div_coe_coe (x y : ℝ) (hy : y ≠ 0) : Ideal.div ((x : ℝ) : EReal) ((y : ℝ) : EReal) = ((x / y : ℝ) : EReal) := by
  rw [Ideal.div_coe hy, ← EReal.coe_mul, mul_one_div]

/-- Summing a `128 × 1496` array along its second axis leaves 128 entries. -/
theorem red2 : S128x1496.Reduces [1] S128 := by decide

/-- Summing a `128 × 1496 × 768` array along its second axis leaves `128 × 768` entries. -/
theorem red3 : S128x1496x768.Reduces [1] S128x768 := by decide

/-- The index a reduction along the frame axis reads, rank 2. -/
theorem lift2 (h : S128x1496.Reduces [1] S128) (b : Fin 128) (k : Fin 1496) : h.lift (ix1 b) k = ix2 b k := by
  funext a
  apply Fin.ext
  match a with
  | ⟨0, _⟩ => rfl
  | ⟨1, _⟩ => rfl

/-- The index a reduction along the frame axis reads, rank 3. -/
theorem lift3 (h : S128x1496x768.Reduces [1] S128x768) (b : Fin 128) (c : Fin 768) (k : Fin 1496) :
    h.lift (ix2 b c) k = ix3 b k c := by
  funext a
  apply Fin.ext
  match a with
  | ⟨0, _⟩ => rfl
  | ⟨1, _⟩ => rfl
  | ⟨2, _⟩ => rfl

/-- The host's sum along the frame axis of a `128 × 1496` array. -/
theorem reduceAdd_mid2 (x : FVec Ideal S128x1496 .f32) (init : EReal) (b : Fin 128) :
    Ideal.hostReduceAdd reducesTo_S128x1496_S128_d1 x init (ix1 b) = init + ∑ k : Fin 1496, x (ix2 b k) := by
  rw [Ideal.hostReduceAdd_single _ red2]
  congr 1
  exact Finset.sum_congr rfl (fun k _ => congrArg x (lift2 red2 b k))

/-- The host's sum along the frame axis of a `128 × 1496 × 768` array. -/
theorem reduceAdd_mid3 (x : FVec Ideal S128x1496x768 .f32) (init : EReal) (b : Fin 128) (c : Fin 768) :
    Ideal.hostReduceAdd reducesTo_S128x1496x768_S128x768_d1 x init (ix2 b c)
      = init + ∑ k : Fin 1496, x (ix3 b k c) := by
  rw [Ideal.hostReduceAdd_single _ red3]
  congr 1
  exact Finset.sum_congr rfl (fun k _ => congrArg x (lift3 red3 b c k))

/-- A one-bit word as a float is its value as a natural number. -/
theorem uitofp_one_apply {s : Shape} (x : IVec s 1) (i : s.Idx) :
    (uitofp .f32 x : FVec Ideal s .f32) i = (((x i).toNat : ℝ) : EReal) := rfl

variable (a0 : FVec Ideal ⟨3, ![128, 1496, 768]⟩ .f32) (a3 : IVec ⟨2, ![128, 1496]⟩ 32) (a4 : IVec ⟨1, ![128]⟩ 32)

set_option maxRecDepth 8192 in
theorem means_eq (h0 : ∀ i, ∃ x : ℝ, a0 i = (x : EReal)) (b : Fin 128) (r : Fin 1496) (c : Fin 768) :
    RefRun.means (F := Ideal) a0 a3 a4 (ix3 b r c)
      = (((∑ t' ∈ (Finset.range 1496).filter
              (fun t' => t' < Cert.Row.L a4 b ∧ Cert.RunMath.seg (Cert.Row.bnd a3 a4 b) t' = r.val),
            Cert.Row.hrow a0 b c t')
          / max ((Cert.RunMath.cnt 1496 (Cert.Row.L a4 b) (Cert.Row.bnd a3 a4 b) r.val : ℕ) : ℝ) 1 : ℝ) : EReal) := by
  unfold RefRun.means
  rw [shapeCast_unflat3 hP _ _ b r c]
  rw [hostDivf_apply]
  rw [sums_eq a0 a3 a4 h0 b r c]
  rw [Cert.Mask.bcast_col]
  rw [broadcastInDim_col]
  rw [maximumf_apply]
  rw [counts_eq]
  rw [broadcastInDim_scalar_apply, constant_apply, Ideal.ofBits_one_f32, coe_max_one]
  exact div_coe_coe _ _ (ne_of_gt (lt_of_lt_of_le one_pos (le_max_right _ _)))

theorem occ_eq (b : Fin 128) (r : Fin 1496) :
    RefRun.occ (F := Ideal) a3 a4 (ix2 b r)
      = ((if 0 < Cert.RunMath.cnt 1496 (Cert.Row.L a4 b) (Cert.Row.bnd a3 a4 b) r.val then (1 : ℝ) else 0 : ℝ) : EReal) := by
  unfold RefRun.occ
  rw [uitofp_one_apply, cmpf_apply, Ideal.cmpf_def, shapeCast_unflat2 hP _ _ b r, counts_eq, broadcastInDim_scalar_apply, constant_apply, Ideal.ofBits_zero_f32]
  unfold Ideal.cmp
  by_cases hn : 0 < Cert.RunMath.cnt 1496 (Cert.Row.L a4 b) (Cert.Row.bnd a3 a4 b) r.val
  · have hpos : (0 : EReal) < (((Cert.RunMath.cnt 1496 (Cert.Row.L a4 b) (Cert.Row.bnd a3 a4 b) r.val : ℕ) : ℝ) : EReal) := by
      exact_mod_cast hn
    simp [hn, hpos]
  · have h0 : Cert.RunMath.cnt 1496 (Cert.Row.L a4 b) (Cert.Row.bnd a3 a4 b) r.val = 0 := by omega
    simp [h0]

theorem runs_eq (b : Fin 128) :
    RefRun.runs (F := Ideal) a3 a4 (ix1 b)
      = ((∑ r ∈ Finset.range 1496,
            (if 0 < Cert.RunMath.cnt 1496 (Cert.Row.L a4 b) (Cert.Row.bnd a3 a4 b) r then (1 : ℝ) else 0) : ℝ) : EReal) := by
  unfold RefRun.runs
  rw [hostReduceAdd_apply, reduceAdd_mid2, constant_apply, Ideal.ofBits_zero_f32, zero_add]
  rw [Finset.sum_congr rfl (fun (k : Fin 1496) _ => occ_eq a3 a4 b k)]
  rw [Fin.sum_univ_eq_sum_range (fun r => (((if 0 < Cert.RunMath.cnt 1496 (Cert.Row.L a4 b) (Cert.Row.bnd a3 a4 b) r then (1 : ℝ) else 0) : ℝ) : EReal)) 1496,
    ← Cert.ERealSum.coe_sum]

theorem feat_eq (h0 : ∀ i, ∃ x : ℝ, a0 i = (x : EReal)) (h4 : ∀ i, 1 ≤ (a4 i).toInt) (b : Fin 128) (c : Fin 768) :
    RefRun.feat (F := Ideal) a0 a3 a4 (ix2 b c) = ((Cert.Row.featRef a0 a3 a4 b c : ℝ) : EReal) := by
  have hL1 : 1 ≤ Cert.Row.L a4 b := by
    have := h4 (ix1 b)
    unfold Cert.Row.L
    omega
  have hLT : Cert.Row.L a4 b ≤ 1496 := by unfold Cert.Row.L; exact min_le_right _ _
  have hβ0 : Cert.Row.bnd a3 a4 b 0 := ⟨by omega, Or.inl rfl⟩
  have hβL : ∀ k, Cert.Row.bnd a3 a4 b k → k < Cert.Row.L a4 b := fun k hk => hk.1
  obtain ⟨hruns, hn1⟩ := Cert.RunMath.num_runs 1496 (Cert.Row.L a4 b) (Cert.Row.bnd a3 a4 b) hL1 hLT hβ0 hβL
  have hden : (∑ r ∈ Finset.range 1496,
      (if 0 < Cert.RunMath.cnt 1496 (Cert.Row.L a4 b) (Cert.Row.bnd a3 a4 b) r then (1 : ℝ) else 0)) ≠ 0 := by
    rw [Finset.sum_boole, hruns]
    have : (1 : ℝ) ≤ (((Finset.range 1496).filter (Cert.Row.bnd a3 a4 b)).card : ℝ) := by exact_mod_cast hn1
    linarith
  unfold RefRun.feat
  rw [hostDivf_apply, hostReduceAdd_apply, reduceAdd_mid3,
    constant_apply, Ideal.ofBits_zero_f32, zero_add, Cert.Mask.bcast_col, Cert.Mask.bcast_vec_col, runs_eq]
  have hterm : ∀ k : Fin 1496,
        (mulf (F := Ideal) (RefRun.means (F := Ideal) a0 a3 a4)
          (broadcastInDim S128x1496x768 ![0, 1, 2] bcast_S128x1496x1_S128x1496x768_0_1_2
            (broadcastInDim S128x1496x1 ![0, 1] bcast_S128x1496_S128x1496x1_0_1 (RefRun.occ (F := Ideal) a3 a4)))
          : FVec Ideal S128x1496x768 .f32)
          (ix3 b k c)
      = (((∑ t' ∈ (Finset.range 1496).filter
                (fun t' => t' < Cert.Row.L a4 b ∧ Cert.RunMath.seg (Cert.Row.bnd a3 a4 b) t' = k.val),
              Cert.Row.hrow a0 b c t')
            / max ((Cert.RunMath.cnt 1496 (Cert.Row.L a4 b) (Cert.Row.bnd a3 a4 b) k.val : ℕ) : ℝ) 1
            * (if 0 < Cert.RunMath.cnt 1496 (Cert.Row.L a4 b) (Cert.Row.bnd a3 a4 b) k.val then (1 : ℝ) else 0) : ℝ) : EReal) := by
    intro k
    rw [mulf_apply, means_eq a0 a3 a4 h0, bcast_last3, bcast_mat3, occ_eq, ← EReal.coe_mul]
  rw [Finset.sum_congr rfl (fun (k : Fin 1496) _ => hterm k)]
  rw [Fin.sum_univ_eq_sum_range (fun r => (((∑ t' ∈ (Finset.range 1496).filter
                (fun t' => t' < Cert.Row.L a4 b ∧ Cert.RunMath.seg (Cert.Row.bnd a3 a4 b) t' = r),
              Cert.Row.hrow a0 b c t')
            / max ((Cert.RunMath.cnt 1496 (Cert.Row.L a4 b) (Cert.Row.bnd a3 a4 b) r : ℕ) : ℝ) 1
            * (if 0 < Cert.RunMath.cnt 1496 (Cert.Row.L a4 b) (Cert.Row.bnd a3 a4 b) r then (1 : ℝ) else 0) : ℝ) : EReal)) 1496,
    ← Cert.ERealSum.coe_sum, div_coe_coe _ _ hden]
  rfl

end Cert.ReferenceIdeal.RefFeat
-- ==== Proof.RefOut.lean ====
/-
  The last stage of the reference: the feature matrix contracted with the weight row, plus the bias.

  `out (b, 0) = (∑ c, feat (b, c) · a1ᵀ (c, 0)) + a2 (0)`: the host product of a `128 × 768` by a `768 × 1` matrix read at
  an element is the sum over the one contracted coordinate; the transposed weight row at `(c, 0)` is the row at
  `(0, c)`; the bias broadcast twice is its one element. When the feature is the (coerced) real number `featRef b c` and
  the weights and the bias are real-valued, every product is the coercion of a real product, the finite sum of
  coercions is the coercion of the sum, and so is the final addition: the result is `G b`.
-/
import proofs.«132348_j86689619902579_2_alg».proof.Proof.RefStages
import proofs.«132348_j86689619902579_2_alg».proof.Proof.RowDefs
import proofs.«132348_j86689619902579_2_alg».proof.Proof.LibERealSum
import proofs.«132348_j86689619902579_2_alg».proof.Proof.MaskFacts
import Idealize.ShloMosaic.Lib.IdealHost
import Idealize.ShloMosaic.Lib.ValueLayout
import Idealize.ShloMosaic.Lib.ValueIdx
import Idealize.ShloMosaic.PureOps.Ideal.Laws

noncomputable section

open scoped BigOperators

namespace Cert.ReferenceIdeal.RefOut

open Cert.ReferenceIdeal Cert.ReferenceIdeal.Gen Idealize.ShloMosaic Idealize.ShloMosaic.ValueIdx

/-- The product of an `m × k` by a `k × n` matrix (left contracted on axis 1, right on axis 0, no batch axes; any proof
    of the dimension numbers' well-formedness), read at an element, is the sum over the contracted coordinate of the
    products of the entries. At the ideal values. -/
theorem dotGeneral_mk_kn_apply {m k n : ℕ} {φ₁ φ₂ : FTy}
    (wf : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    Host.dotGeneral (⟨[1], [0], [0], [1], [], [], wf⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], wf⟩ : DotDims ⟨2, ![m, k]⟩ ⟨2, ![k, n]⟩ ⟨2, ![m, n]⟩) k rfl rfl c
  have l2 : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The reference's result is `G`: given that the feature stage is the real feature `featRef` and that the weight row
    and the bias are real-valued. -/
theorem out_of_feat (a0 : FVec Ideal ⟨3, ![128, 1496, 768]⟩ .f32) (a1 : FVec Ideal ⟨2, ![1, 768]⟩ .f32) (a2 : FVec Ideal ⟨1, ![1]⟩ .f32)
    (a3 : IVec ⟨2, ![128, 1496]⟩ 32) (a4 : IVec ⟨1, ![128]⟩ 32)
    (h1 : ∀ i, ∃ x : ℝ, a1 i = (x : EReal)) (h2 : ∀ i, ∃ x : ℝ, a2 i = (x : EReal))
    (hfeat : ∀ (b : Fin 128) (c : Fin 768), Cert.ReferenceIdeal.RefRun.feat (F := Ideal) a0 a3 a4 (ix2 b c) = ((Cert.Row.featRef a0 a3 a4 b c : ℝ) : EReal)) :
    Cert.ReferenceIdeal.RefRun.out (F := Ideal) a0 a1 a2 a3 a4 = fun j => Cert.Row.G a0 a1 a2 a3 a4 (j 0) := by
  choose x1 hx1 using h1
  choose x2 hx2 using h2
  funext j
  obtain ⟨b, z, rfl⟩ : ∃ (b : Fin 128) (z : Fin 1), j = ix2 b z := ⟨j 0, j 1, eq_ix2 j⟩
  obtain rfl : z = 0 := Subsingleton.elim _ _
  show addf
      (Host.dotGeneral (⟨[1], [0], [0], [1], [], [], dot_S128x768_S768x1_S128x1_1_0_0_1_n_n_wf⟩ :
          DotDims ⟨2, ![128, 768]⟩ ⟨2, ![768, 1]⟩ ⟨2, ![128, 1]⟩) none (Cert.ReferenceIdeal.RefRun.feat (F := Ideal) a0 a3 a4)
        (transpose ⟨2, ![768, 1]⟩ [1, 0] a1 transposes_S1x768_S768x1_1_0))
      (broadcastInDim ⟨2, ![128, 1]⟩ ![0, 1] bcast_S1x1_S128x1_0_1 (broadcastInDim ⟨2, ![1, 1]⟩ ![1] bcast_S1_S1x1_1 a2))
      (ix2 b 0) = Cert.Row.G a0 a1 a2 a3 a4 b
  rw [addf_apply, dotGeneral_mk_kn_apply, Cert.Mask.bcast_row, Cert.Mask.bcast_vec_row]
  unfold Cert.Row.G
  have ht : ∀ c : Fin 768, transpose ⟨2, ![768, 1]⟩ [1, 0] a1 transposes_S1x768_S768x1_1_0 (ix2 c 0) = a1 (ix2 0 c) :=
    fun c => transpose_ix2_apply a1 _ c 0
  simp only [ht, hfeat, hx1, hx2, EReal.toReal_coe]
  rw [EReal.coe_add, Cert.ERealSum.coe_sum]
  simp only [EReal.coe_mul]

end Cert.ReferenceIdeal.RefOut
-- ==== Proof.RefValue.lean ====
/-
The reference's value: for real-valued inputs and lengths of at least one, the result of the reference at row b
is the projection of the row's feature (the mean over its runs of the run means of the hidden states) onto the
weight row, plus the bias.
-/
import proofs.«132348_j86689619902579_2_alg».proof.Proof.RefFeat
import proofs.«132348_j86689619902579_2_alg».proof.Proof.RefOut

noncomputable section

namespace Cert.ReferenceIdeal.RefValue

open Cert.ReferenceIdeal Idealize.ShloMosaic Idealize.ShloMosaic.ValueIdx

theorem out_eq (a0 : FVec Ideal ⟨3, ![128, 1496, 768]⟩ .f32) (a1 : FVec Ideal ⟨2, ![1, 768]⟩ .f32)
    (a2 : FVec Ideal ⟨1, ![1]⟩ .f32) (a3 : IVec ⟨2, ![128, 1496]⟩ 32) (a4 : IVec ⟨1, ![128]⟩ 32)
    (h0 : ∀ i, ∃ x : ℝ, a0 i = (x : EReal)) (h1 : ∀ i, ∃ x : ℝ, a1 i = (x : EReal))
    (h2 : ∀ i, ∃ x : ℝ, a2 i = (x : EReal)) (h4 : ∀ i, 1 ≤ (a4 i).toInt) :
    Cert.ReferenceIdeal.RefRun.out (F := Ideal) a0 a1 a2 a3 a4 = fun j => Cert.Row.G a0 a1 a2 a3 a4 (j 0) :=
  Cert.ReferenceIdeal.RefOut.out_of_feat a0 a1 a2 a3 a4 h1 h2
    (fun b c => Cert.ReferenceIdeal.RefFeat.feat_eq a0 a3 a4 h0 h4 b c)

end Cert.ReferenceIdeal.RefValue
-- ==== Proof.PreFacts.lean ====
/-
The precondition "all inputs finite, all lengths at least one", read at the extended-real
instance of the float operations.

The printed predicate takes, for each of the three float inputs, the absolute value of every
element, compares it (strictly below) with the pattern of +∞, and reduces the comparison words
by `and`; it compares every word of the last integer input (signed, at least) with 1 and
reduces by `and`; the four results are conjoined.  On the extended reals |x| < +∞ says exactly
that x is a real number, so the predicate being 1 says: every element of the three float inputs
is a real number and every word of the last input, read signed, is at least 1.
-/
import proofs.«132348_j86689619902579_2_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic

/-- The scalar shape has one index. -/
instance : Subsingleton Cert.Pre_finite_inputs.S_.Idx := ⟨fun a b => funext fun d => d.elim0⟩

/-- The f32 pattern `0x7F800000` denotes +∞. -/
theorem inf_bits : Ideal.ofBits .f32 0x7F800000#32 = (⊤ : EReal) := by
  simp [Ideal.ofBits, Ideal.ieee]

/-- On the extended reals, `max x (-x) < +∞` holds only for real `x`. -/
theorem real_of_abs_lt_inf (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- The precondition read back: the three float inputs hold real numbers, and every word of the
last input is at least one (read signed). -/
theorem decode [Cert.Pre_finite_inputs.Facts]
    (a0 : FVec Ideal Cert.Pre_finite_inputs.S128x1496x768 .f32)
    (a1 : FVec Ideal Cert.Pre_finite_inputs.S1x768 .f32)
    (a2 : FVec Ideal Cert.Pre_finite_inputs.S1 .f32)
    (a3 : IVec Cert.Pre_finite_inputs.S128x1496 32)
    (a4 : IVec Cert.Pre_finite_inputs.S128 32)
    (h : Cert.Pre_finite_inputs.fn (F := Ideal) a0 a1 a2 a3 a4 = fun _ => 1#1) :
    (∀ i, ∃ x : ℝ, a0 i = (x : EReal)) ∧ (∀ i, ∃ x : ℝ, a1 i = (x : EReal)) ∧
      (∀ i, ∃ x : ℝ, a2 i = (x : EReal)) ∧ (∀ i, 1 ≤ (a4 i).toInt) := by
  have h0 := congrFun h ValueIdx.ix0
  dsimp only [Cert.Pre_finite_inputs.fn, Cert.Pre_finite_inputs.fn_part1] at h0
  dsimp only [andi] at h0
  rw [IntOp.andi_eq_one, IntOp.andi_eq_one, IntOp.andi_eq_one] at h0
  obtain ⟨⟨⟨h1, h2⟩, h3⟩, h4⟩ := h0
  refine ⟨fun i => ?_, fun i => ?_, fun i => ?_, fun i => ?_⟩
  · have hi := Host.reduce_andi_all _ _ _ _ _ h1 i
    exact real_of_abs_lt_inf (a0 i) hi
  · have hi := Host.reduce_andi_all _ _ _ _ _ h2 i
    exact real_of_abs_lt_inf (a1 i) hi
  · have hi := Host.reduce_andi_all _ _ _ _ _ h3 i
    exact real_of_abs_lt_inf (a2 i) hi
  · have hi := Host.reduce_andi_all _ _ _ _ _ h4 i
    have h5 : (1#32 : BitVec 32).toInt ≤ (a4 i).toInt := IntOp.cmpi_sge.mp hi
    have h6 : (1#32 : BitVec 32).toInt = 1 := by decide
    rw [h6] at h5
    exact h5

end Cert.PreFacts
-- ==== Proof.lean ====
/-
  A segment mean of ragged phoneme runs, projected to one logit per batch row.

  Each of the 128 rows has 1496 frames of 768 channels, a phoneme id per frame and a length; the frames below
  the length are valid. A run is a maximal stretch of valid frames with one id. The reference averages the
  hidden states over each run (a scatter-add of the frames into run slots numbered by a cumulative sum of the
  run starts, divided by the run's frame count), averages those run means over the runs, projects the result
  onto one row of weights and adds a bias. The kernel computes the same logit as a single weighted sum over the
  frames: the weight of a valid frame is the reciprocal of (length of its run) × (number of runs), found with
  a running maximum (the run's start) and a reversed running minimum (the run's end), and a Pallas kernel
  accumulates hidden × weight over 17 time tiles per row tile and projects at the last tile.

  Over the extended reals the two agree when every length is at least 1 (with no valid frame the reference
  divides zero by zero runs): exchanging the sum over runs with the sum over frames, a frame of a run of n frames
  among N runs carries the weight 1 / (n · N) on both sides. The three float inputs are finite, so every value
  is the coercion of a real and the identity is one over the reals.

  The modules: RunMath (the counting identity over ℕ and ℝ), RowDefs (the common closed form), LibCumWindow /
  LibScatterRows / LibSegSum / LibReverse (a cumulative window scan, an accumulating scatter, a flat
  re-indexing and a reversal, each read at an entry), MaskFacts / SegFacts (the valid and run-start masks and the
  run numbers as naturals), Kernel* (the kernel: case values, payloads at an entry, the accumulation across the
  grid, the result array and the tail, the frame weights and the host program that computes them), Ref* (the reference: its run, its stages, their
  values), PreFacts (the precondition decoded).
-/
import proofs.«132348_j86689619902579_2_alg».proof.Defs
import proofs.«132348_j86689619902579_2_alg».proof.Proof.Gen.Kernel
import proofs.«132348_j86689619902579_2_alg».proof.Proof.Gen.Kernel.Skeleton
import proofs.«132348_j86689619902579_2_alg».proof.Proof.Gen.Kernel.Launch
import proofs.«132348_j86689619902579_2_alg».proof.Proof.Gen.Kernel.Points
import proofs.«132348_j86689619902579_2_alg».proof.Proof.Gen.Kernel.Frame
import proofs.«132348_j86689619902579_2_alg».proof.Proof.Gen.KernelIdeal
import proofs.«132348_j86689619902579_2_alg».proof.Proof.Gen.KernelIdeal.Skeleton
import proofs.«132348_j86689619902579_2_alg».proof.Proof.Gen.KernelIdeal.Launch
import proofs.«132348_j86689619902579_2_alg».proof.Proof.Gen.KernelIdeal.Points
import proofs.«132348_j86689619902579_2_alg».proof.Proof.Gen.KernelIdeal.Frame
import proofs.«132348_j86689619902579_2_alg».proof.Proof.Gen.ReferenceIdeal
import proofs.«132348_j86689619902579_2_alg».proof.Proof.Gen.Pre_finite_inputs
import proofs.«132348_j86689619902579_2_alg».proof.Proof.KernelValue
import proofs.«132348_j86689619902579_2_alg».proof.Proof.KernelHostWeight
import proofs.«132348_j86689619902579_2_alg».proof.Proof.KernelHostTermV
import proofs.«132348_j86689619902579_2_alg».proof.Proof.RefRun
import proofs.«132348_j86689619902579_2_alg».proof.Proof.RefValue
import proofs.«132348_j86689619902579_2_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- A length of at least 1 leaves at least one valid frame. -/
theorem one_le_L (a4 : IVec ⟨1, ![128]⟩ 32) (h4 : ∀ i, 1 ≤ (a4 i).toInt) (b : Fin 128) : 1 ≤ Cert.Row.L a4 b := by
  unfold Cert.Row.L
  have := h4 (ix1 b)
  omega

/-- Both programs end at the common closed form of the arguments. -/
theorem algebraic : Cert.algebraic_KernelIdeal_ReferenceIdeal := by
  intro m g m' g' hpre hagree
  refine ⟨fun c => Cert.KernelIdeal.Final.res m c, Cert.KernelIdeal.Final.run m g, ?_⟩
  refine (θ_run Cert.ReferenceIdeal.defs _ _).mono (fun _ h c => ⟨(h c).1.trans ?_, (h c).2⟩)
    (Cert.ReferenceIdeal.RefRun.run (F := Ideal) m' g')
  obtain ⟨h0, h1, h2, h4⟩ := Cert.PreFacts.decode _ _ _ _ _ (hpre c)
  rw [(hagree c).1, (hagree c).2.1, (hagree c).2.2.1, (hagree c).2.2.2.1, (hagree c).2.2.2.2]
  refine (Cert.ReferenceIdeal.RefValue.out_eq _ _ _ _ _ h0 h1 h2 h4).trans ?_
  refine (funext fun (j : Cert.KernelIdeal.S128x1.Idx) => ?_).symm
  obtain ⟨b, z, rfl⟩ : ∃ (b : Fin 128) (z : Fin 1), j = ix2 b z := ⟨j 0, j 1, eq_ix2 j⟩
  obtain rfl : z = 0 := Subsingleton.elim _ _
  obtain ⟨s, e, hs, he, hw⟩ := Cert.KernelIdeal.HostW.weight_eq
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) h4 b
  refine Cert.KernelIdeal.KValue.res_row m c b h0 h1 h2 (one_le_L _ h4 b) s e hs he (fun t => ?_)
  rw [Cert.KernelIdeal.HostW.V38_eq m c]
  exact hw t

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
